-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S8192x2048 : Shape := ⟨2, ![8192, 2048]⟩
abbrev S4x128x128 : Shape := ⟨3, ![4, 128, 128]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S4x128x128 : S_.BroadcastsInDim S4x128x128 (![] : Fin 0 → Fin S4x128x128.rank)
  reducesTo_S4x128x128_S_d0_1_2 : S4x128x128.ReducesTo [0, 1, 2] S_

variable [Facts]

def fn_part1 {F : FTy → Type} [FloatOps F] (main_arg4 : FVec F S4x128x128 .f32) (main_arg5 : FVec F S4x128x128 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S4x128x128 .f32 := Host.absf main_arg4
  let main_cst_6 : FVec F S_ .f32 := constant S_ .f32 0x7F800000#32
  let main_v20 : FVec F S4x128x128 .f32 := broadcastInDim S4x128x128 ![] bcast_S_S4x128x128 main_cst_6
  let main_v21 : IVec S4x128x128 1 := cmpf .olt main_v19 main_v20
  let main_c_7 : IVec S_ 1 := constantI S_ 1 1#1
  let main_v22 : IVec S_ 1 := (fun x v => Host.reduce IntOp.andi x v reducesTo_S4x128x128_S_d0_1_2 h_S_) main_v21 main_c_7
  let main_v23 : IVec S_ 1 := andi main_v18 main_v22
  let main_v24 : FVec F S4x128x128 .f32 := Host.absf main_arg5
  let main_cst_8 : FVec F S_ .f32 := constant S_ .f32 0x7F800000#32
  let main_v25 : FVec F S4x128x128 .f32 := broadcastInDim S4x128x128 ![] bcast_S_S4x128x128 main_cst_8
  let main_v26 : IVec S4x128x128 1 := cmpf .olt main_v24 main_v25
  let main_c_9 : IVec S_ 1 := constantI S_ 1 1#1
  let main_v27 : IVec S_ 1 := (fun x v => Host.reduce IntOp.andi x v reducesTo_S4x128x128_S_d0_1_2 h_S_) main_v26 main_c_9
  let main_v28 : IVec S_ 1 := andi main_v23 main_v27
  main_v28

def fn {F : FTy → Type} [FloatOps F] (main_arg0 : FVec F S1024x2048 .f32) (main_arg1 : FVec F S1024x2048 .f32) (main_arg2 : FVec F S1024x2048 .f32) (main_arg3 : FVec F S8192x2048 .f32) (main_arg4 : FVec F S4x128x128 .f32) (main_arg5 : FVec F S4x128x128 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_arg5 main_v13 main_v16
-- ==== Kernel.lean ====
abbrev S1024x2048 : Shape := ⟨2, ![1024, 2048]⟩
abbrev S8192x2048 : Shape := ⟨2, ![8192, 2048]⟩
abbrev S4x128x128 : Shape := ⟨3, ![4, 128, 128]⟩
abbrev S256x2048 : Shape := ⟨2, ![256, 2048]⟩
abbrev S2048x2048 : Shape := ⟨2, ![2048, 2048]⟩
abbrev S1x128x128 : Shape := ⟨3, ![1, 128, 128]⟩
abbrev S4x256x2048 : Shape := ⟨3, ![4, 256, 2048]⟩
abbrev S128x128 : Shape := ⟨2, ![128, 128]⟩
abbrev S256x128 : Shape := ⟨2, ![256, 128]⟩
abbrev S1x256x128 : Shape := ⟨3, ![1, 256, 128]⟩
abbrev S1x256x2048 : Shape := ⟨3, ![1, 256, 2048]⟩

abbrev nBuf : Space → Nat
  | .hbm => 10
  | .vmem => 16
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S8192x2048, .f32⟩
  | .hbm, ⟨4, _⟩ => ⟨S4x128x128, .f32⟩
  | .hbm, ⟨5, _⟩ => ⟨S4x128x128, .f32⟩
  | .hbm, ⟨6, _⟩ => ⟨S1024x2048, .bf16⟩
  | .hbm, ⟨7, _⟩ => ⟨S8192x2048, .bf16⟩
  | .hbm, ⟨8, _⟩ => ⟨S1024x2048, .f32⟩
  | .hbm, ⟨9, _⟩ => ⟨S1024x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S2048x2048, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S4x256x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 4], ![false, false]⟩

def k0_off1 (i : grid0.Coords) : Fin 3 → Nat :=
  let arg1 : BitVec 32 := BitVec.ofNat 32 (i 1).val
  let v59 : Index := Scalar.indexCast arg1
  let c0_17 : Index := 0#32
  let c0_18 : Index := 0#32
  ![v59.toNat, 0, 0]
def k0_off2 (i : grid0.Coords) : Fin 3 → Nat :=
  let arg1 : BitVec 32 := BitVec.ofNat 32 (i 1).val
  let v72 : Index := Scalar.indexCast arg1
  let c0_21 : Index := 0#32
  let c128 : Index := 128#32
  ![v72.toNat, 0, 128]
def k0_off3 (i : grid0.Coords) : Fin 3 → Nat :=
  let arg1 : BitVec 32 := BitVec.ofNat 32 (i 1).val
  let v85 : Index := Scalar.indexCast arg1
  let c0_24 : Index := 0#32
  let c256 : Index := 256#32
  ![v85.toNat, 0, 256]
def k0_off4 (i : grid0.Coords) : Fin 3 → Nat :=
  let arg1 : BitVec 32 := BitVec.ofNat 32 (i 1).val
  let v98 : Index := Scalar.indexCast arg1
  let c0_27 : Index := 0#32
  let c384 : Index := 384#32
  ![v98.toNat, 0, 384]
def k0_off5 (i : grid0.Coords) : Fin 3 → Nat :=
  let arg1 : BitVec 32 := BitVec.ofNat 32 (i 1).val
  let v111 : Index := Scalar.indexCast arg1
  let c0_30 : Index := 0#32
  let c512 : Index := 512#32
  ![v111.toNat, 0, 512]
def k0_off6 (i : grid0.Coords) : Fin 3 → Nat :=
  let arg1 : BitVec 32 := BitVec.ofNat 32 (i 1).val
  let v124 : Index := Scalar.indexCast arg1
  let c0_33 : Index := 0#32
  let c640 : Index := 640#32
  ![v124.toNat, 0, 640]
def k0_off7 (i : grid0.Coords) : Fin 3 → Nat :=
  let arg1 : BitVec 32 := BitVec.ofNat 32 (i 1).val
  let v137 : Index := Scalar.indexCast arg1
  let c0_36 : Index := 0#32
  let c768 : Index := 768#32
  ![v137.toNat, 0, 768]
def k0_off8 (i : grid0.Coords) : Fin 3 → Nat :=
  let arg1 : BitVec 32 := BitVec.ofNat 32 (i 1).val
  let v150 : Index := Scalar.indexCast arg1
  let c0_39 : Index := 0#32
  let c896 : Index := 896#32
  ![v150.toNat, 0, 896]
def k0_off9 (i : grid0.Coords) : Fin 3 → Nat :=
  let arg1 : BitVec 32 := BitVec.ofNat 32 (i 1).val
  let v163 : Index := Scalar.indexCast arg1
  let c0_42 : Index := 0#32
  let c1024 : Index := 1024#32
  ![v163.toNat, 0, 1024]
def k0_off10 (i : grid0.Coords) : Fin 3 → Nat :=
  let arg1 : BitVec 32 := BitVec.ofNat 32 (i 1).val
  let v176 : Index := Scalar.indexCast arg1
  let c0_45 : Index := 0#32
  let c1152 : Index := 1152#32
  ![v176.toNat, 0, 1152]
def k0_off11 (i : grid0.Coords) : Fin 3 → Nat :=
  let arg1 : BitVec 32 := BitVec.ofNat 32 (i 1).val
  let v189 : Index := Scalar.indexCast arg1
  let c0_48 : Index := 0#32
  let c1280 : Index := 1280#32
  ![v189.toNat, 0, 1280]
def k0_off12 (i : grid0.Coords) : Fin 3 → Nat :=
  let arg1 : BitVec 32 := BitVec.ofNat 32 (i 1).val
  let v202 : Index := Scalar.indexCast arg1
  let c0_51 : Index := 0#32
  let c1408 : Index := 1408#32
  ![v202.toNat, 0, 1408]
def k0_off13 (i : grid0.Coords) : Fin 3 → Nat :=
  let arg1 : BitVec 32 := BitVec.ofNat 32 (i 1).val
  let v215 : Index := Scalar.indexCast arg1
  let c0_54 : Index := 0#32
  let c1536 : Index := 1536#32
  ![v215.toNat, 0, 1536]
def k0_off14 (i : grid0.Coords) : Fin 3 → Nat :=
  let arg1 : BitVec 32 := BitVec.ofNat 32 (i 1).val
  let v228 : Index := Scalar.indexCast arg1
  let c0_57 : Index := 0#32
  let c1664 : Index := 1664#32
  ![v228.toNat, 0, 1664]
def k0_off15 (i : grid0.Coords) : Fin 3 → Nat :=
  let arg1 : BitVec 32 := BitVec.ofNat 32 (i 1).val
  let v241 : Index := Scalar.indexCast arg1
  let c0_60 : Index := 0#32
  let c1792 : Index := 1792#32
  ![v241.toNat, 0, 1792]
def k0_off16 (i : grid0.Coords) : Fin 3 → Nat :=
  let arg1 : BitVec 32 := BitVec.ofNat 32 (i 1).val
  let v254 : Index := Scalar.indexCast arg1
  let c0_63 : Index := 0#32
  let c1920 : Index := 1920#32
  ![v254.toNat, 0, 1920]
def k0_cond1 (i : grid0.Coords) : BitVec 1 :=
  let arg1 : BitVec 32 := BitVec.ofNat 32 (i 1).val
  let c3_i32 : BitVec 32 := 3#32
  let v258 : BitVec 1 := Scalar.cmpi .eq arg1 c3_i32
  let v259 : BitVec 32 := Scalar.extui v258
  let c0_i32 : BitVec 32 := 0#32
  let v260 : BitVec 1 := Scalar.cmpi .ne v259 c0_i32
  v260

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  slices_S256x2048_o0_0_S256x128 : S256x2048.Slices ![0, 0] S256x128
  slices_S256x2048_o0_128_S256x128 : S256x2048.Slices ![0, 128] S256x128
  slices_S256x2048_o0_256_S256x128 : S256x2048.Slices ![0, 256] S256x128
  slices_S256x2048_o0_384_S256x128 : S256x2048.Slices ![0, 384] S256x128
  slices_S256x2048_o0_512_S256x128 : S256x2048.Slices ![0, 512] S256x128
  slices_S256x2048_o0_640_S256x128 : S256x2048.Slices ![0, 640] S256x128
  slices_S256x2048_o0_768_S256x128 : S256x2048.Slices ![0, 768] S256x128
  slices_S256x2048_o0_896_S256x128 : S256x2048.Slices ![0, 896] S256x128
  slices_S256x2048_o0_1024_S256x128 : S256x2048.Slices ![0, 1024] S256x128
  slices_S256x2048_o0_1152_S256x128 : S256x2048.Slices ![0, 1152] S256x128
  slices_S256x2048_o0_1280_S256x128 : S256x2048.Slices ![0, 1280] S256x128
  slices_S256x2048_o0_1408_S256x128 : S256x2048.Slices ![0, 1408] S256x128
  slices_S256x2048_o0_1536_S256x128 : S256x2048.Slices ![0, 1536] S256x128
  slices_S256x2048_o0_1664_S256x128 : S256x2048.Slices ![0, 1664] S256x128
  slices_S256x2048_o0_1792_S256x128 : S256x2048.Slices ![0, 1792] S256x128
  slices_S256x2048_o0_1920_S256x128 : S256x2048.Slices ![0, 1920] S256x128
  h_S1x256x128 : 0 < S1x256x128.numel
  shapeCasts_S1x256x128_S256x128 : S1x256x128.ShapeCasts S256x128
  shapeCasts_S256x128_S1x256x128 : S256x128.ShapeCasts S1x256x128
  inb_S4x256x2048_S1x256x2048_0_0_0 : ∀ a, (![0, 0, 0] : Fin 3 → Nat) a + S1x256x2048.size a ≤ S4x256x2048.size a
  h_S1x256x2048 : 0 < S1x256x2048.numel
  shapeCasts_S1x256x2048_S256x2048 : S1x256x2048.ShapeCasts S256x2048
  inb_S4x256x2048_S1x256x2048_1_0_0 : ∀ a, (![1, 0, 0] : Fin 3 → Nat) a + S1x256x2048.size a ≤ S4x256x2048.size a
  inb_S4x256x2048_S1x256x2048_2_0_0 : ∀ a, (![2, 0, 0] : Fin 3 → Nat) a + S1x256x2048.size a ≤ S4x256x2048.size a
  inb_S4x256x2048_S1x256x2048_3_0_0 : ∀ a, (![3, 0, 0] : Fin 3 → Nat) a + S1x256x2048.size a ≤ S4x256x2048.size a
  dot_S256x2048_S2048x2048_S256x2048_1_1_0_0_n_n_wf : DotDims.WF S256x2048 S2048x2048 S256x2048 [1] [1] [0] [0] [] []
  dot_S256x128_S128x128_S256x128_1_1_0_0_n_n_wf : DotDims.WF S256x128 S128x128 S256x128 [1] [1] [0] [0] [] []
  hrank0 : 0 < grid0.rank
  k0_off1_inb : ∀ i : grid0.Coords, ∀ a, (k0_off1 i) a + S1x256x128.size a ≤ S4x256x2048.size a
  k0_off2_inb : ∀ i : grid0.Coords, ∀ a, (k0_off2 i) a + S1x256x128.size a ≤ S4x256x2048.size a
  k0_off3_inb : ∀ i : grid0.Coords, ∀ a, (k0_off3 i) a + S1x256x128.size a ≤ S4x256x2048.size a
  k0_off4_inb : ∀ i : grid0.Coords, ∀ a, (k0_off4 i) a + S1x256x128.size a ≤ S4x256x2048.size a
  k0_off5_inb : ∀ i : grid0.Coords, ∀ a, (k0_off5 i) a + S1x256x128.size a ≤ S4x256x2048.size a
  k0_off6_inb : ∀ i : grid0.Coords, ∀ a, (k0_off6 i) a + S1x256x128.size a ≤ S4x256x2048.size a
  k0_off7_inb : ∀ i : grid0.Coords, ∀ a, (k0_off7 i) a + S1x256x128.size a ≤ S4x256x2048.size a
  k0_off8_inb : ∀ i : grid0.Coords, ∀ a, (k0_off8 i) a + S1x256x128.size a ≤ S4x256x2048.size a
  k0_off9_inb : ∀ i : grid0.Coords, ∀ a, (k0_off9 i) a + S1x256x128.size a ≤ S4x256x2048.size a
  k0_off10_inb : ∀ i : grid0.Coords, ∀ a, (k0_off10 i) a + S1x256x128.size a ≤ S4x256x2048.size a
  k0_off11_inb : ∀ i : grid0.Coords, ∀ a, (k0_off11 i) a + S1x256x128.size a ≤ S4x256x2048.size a
  k0_off12_inb : ∀ i : grid0.Coords, ∀ a, (k0_off12 i) a + S1x256x128.size a ≤ S4x256x2048.size a
  k0_off13_inb : ∀ i : grid0.Coords, ∀ a, (k0_off13 i) a + S1x256x128.size a ≤ S4x256x2048.size a
  k0_off14_inb : ∀ i : grid0.Coords, ∀ a, (k0_off14 i) a + S1x256x128.size a ≤ S4x256x2048.size a
  k0_off15_inb : ∀ i : grid0.Coords, ∀ a, (k0_off15 i) a + S1x256x128.size a ≤ S4x256x2048.size a
  k0_off16_inb : ∀ i : grid0.Coords, ∀ a, (k0_off16 i) a + S1x256x128.size a ≤ S4x256x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S1024x2048.size a
  hwx0_0 : ∀ i : grid0.Coords, EltTy.bits .bf16 = 32 ∨ (Rect.block (s := S1024x2048) S256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S8192x2048.size a
  hwx0_1 : ∀ i : grid0.Coords, EltTy.bits .bf16 = 32 ∨ (Rect.block (s := S8192x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S1024x2048.size a
  hwx0_2 : ∀ i : grid0.Coords, EltTy.bits .f32 = 32 ∨ (Rect.block (s := S1024x2048) S256x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S1024x2048.size a
  hwx0_3 : ∀ i : grid0.Coords, EltTy.bits .f32 = 32 ∨ (Rect.block (s := S1024x2048) S256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x128.size a ≤ S4x128x128.size a
  hwx0_4 : ∀ i : grid0.Coords, EltTy.bits .f32 = 32 ∨ (Rect.block (s := S4x128x128) S1x128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x128.size a ≤ S4x128x128.size a
  hwx0_5 : ∀ i : grid0.Coords, EltTy.bits .f32 = 32 ∨ (Rect.block (s := S4x128x128) S1x128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S1024x2048.size a
  hwx0_6 : ∀ i : grid0.Coords, EltTy.bits .f32 = 32 ∨ (Rect.block (s := S1024x2048) S256x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S1024x2048.size a
  hwx0_7 : ∀ i : grid0.Coords, EltTy.bits .f32 = 32 ∨ (Rect.block (s := S1024x2048) S256x2048.size (cc0_transform_7 i) (hinb0_7 i)).WholeWords (EltTy.packing .f32)

variable [Facts₀]

def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf
def dot_S256x128_S128x128_S256x128_1_1_0_0_n_n : DotDims S256x128 S128x128 S256x128 where
  lhsContracting := [1]
  rhsContracting := [1]
  lhsNonContracting := [0]
  rhsNonContracting := [0]
  lhsBatch := []
  rhsBatch := []
  wf := dot_S256x128_S128x128_S256x128_1_1_0_0_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x128x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x128x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_0) S256x2048.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_1) S256x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond1 i == 1#1) | 7 => fun i => !(k0_cond1 i == 1#1) | ⟨_ + 8, h⟩ => absurd h (Nat.not_lt.2 (Nat.le_add_left _ _))

class Facts : Prop extends Facts₀ where

variable [Facts]
-- ==== ReferenceIdeal.lean ====
abbrev S1024x2048 : Shape := ⟨2, ![1024, 2048]⟩
abbrev S8192x2048 : Shape := ⟨2, ![8192, 2048]⟩
abbrev S4x128x128 : Shape := ⟨3, ![4, 128, 128]⟩
abbrev S1024x16x128 : Shape := ⟨3, ![1024, 16, 128]⟩
abbrev S_ : Shape := ⟨0, ![]⟩
abbrev S1024x128 : Shape := ⟨2, ![1024, 128]⟩
abbrev S1024x1x128 : Shape := ⟨3, ![1024, 1, 128]⟩
abbrev S4x128x1024x16 : Shape := ⟨4, ![4, 128, 1024, 16]⟩
abbrev S1024x4x16x128 : Shape := ⟨4, ![1024, 4, 16, 128]⟩
abbrev S2048x8192 : Shape := ⟨2, ![2048, 8192]⟩
abbrev S1024x8192 : Shape := ⟨2, ![1024, 8192]⟩

abbrev nBuf : Space → Nat
  | .hbm => 55
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S8192x2048, .f32⟩
  | .hbm, ⟨4, _⟩ => ⟨S4x128x128, .f32⟩
  | .hbm, ⟨5, _⟩ => ⟨S4x128x128, .f32⟩
  | .hbm, ⟨6, _⟩ => ⟨S1024x16x128, .f32⟩
  | .hbm, ⟨7, _⟩ => ⟨S_, .f32⟩
  | .hbm, ⟨8, _⟩ => ⟨S1024x128, .f32⟩
  | .hbm, ⟨9, _⟩ => ⟨S1024x1x128, .f32⟩
  | .hbm, ⟨10, _⟩ => ⟨S4x128x1024x16, .f32⟩
  | .hbm, ⟨11, _⟩ => ⟨S1024x4x16x128, .f32⟩
  | .hbm, ⟨12, _⟩ => ⟨S1024x16x128, .f32⟩
  | .hbm, ⟨13, _⟩ => ⟨S1024x16x128, .f32⟩
  | .hbm, ⟨14, _⟩ => ⟨S4x128x1024x16, .f32⟩
  | .hbm, ⟨15, _⟩ => ⟨S1024x4x16x128, .f32⟩
  | .hbm, ⟨16, _⟩ => ⟨S1024x4x16x128, .f32⟩
  | .hbm, ⟨17, _⟩ => ⟨S2048x8192, .f32⟩
  | .hbm, ⟨18, _⟩ => ⟨S1024x8192, .f32⟩
  | .hbm, ⟨19, _⟩ => ⟨S1024x8192, .f32⟩
  | .hbm, ⟨20, _⟩ => ⟨S1024x8192, .f32⟩
  | .hbm, ⟨21, _⟩ => ⟨S1024x2048, .f32⟩
  | .hbm, ⟨22, _⟩ => ⟨S1024x2048, .f32⟩
  | .hbm, ⟨23, _⟩ => ⟨S1024x2048, .f32⟩
  | .hbm, ⟨24, _⟩ => ⟨S1024x2048, .f32⟩
  | .hbm, ⟨25, _⟩ => ⟨S1024x2048, .f32⟩
  | .hbm, ⟨26, _⟩ => ⟨S1024x2048, .f32⟩
  | .hbm, ⟨27, _⟩ => ⟨S_, .f32⟩
  | .hbm, ⟨28, _⟩ => ⟨S1024x2048, .f32⟩
  | .hbm, ⟨29, _⟩ => ⟨S1024x2048, .f32⟩
  | .hbm, ⟨30, _⟩ => ⟨S_, .f32⟩
  | .hbm, ⟨31, _⟩ => ⟨S1024x2048, .f32⟩
  | .hbm, ⟨32, _⟩ => ⟨S1024x2048, .f32⟩
  | .hbm, ⟨33, _⟩ => ⟨S1024x2048, .f32⟩
  | .hbm, ⟨34, _⟩ => ⟨S1024x2048, .f32⟩
  | .hbm, ⟨35, _⟩ => ⟨S_, .f32⟩
  | .hbm, ⟨36, _⟩ => ⟨S1024x2048, .f32⟩
  | .hbm, ⟨37, _⟩ => ⟨S1024x2048, .f32⟩
  | .hbm, ⟨38, _⟩ => ⟨S_, .f32⟩
  | .hbm, ⟨39, _⟩ => ⟨S1024x2048, .f32⟩
  | .hbm, ⟨40, _⟩ => ⟨S1024x2048, .f32⟩
  | .hbm, ⟨41, _⟩ => ⟨S1024x2048, .f32⟩
  | .hbm, ⟨42, _⟩ => ⟨S1024x2048, .f32⟩
  | .hbm, ⟨43, _⟩ => ⟨S_, .f32⟩
  | .hbm, ⟨44, _⟩ => ⟨S1024x2048, .f32⟩
  | .hbm, ⟨45, _⟩ => ⟨S1024x2048, .f32⟩
  | .hbm, ⟨46, _⟩ => ⟨S_, .f32⟩
  | .hbm, ⟨47, _⟩ => ⟨S1024x2048, .f32⟩
  | .hbm, ⟨48, _⟩ => ⟨S1024x2048, .f32⟩
  | .hbm, ⟨49, _⟩ => ⟨S1024x2048, .f32⟩
  | .hbm, ⟨50, _⟩ => ⟨S1024x2048, .f32⟩
  | .hbm, ⟨51, _⟩ => ⟨S1024x2048, .f32⟩
  | .hbm, ⟨52, _⟩ => ⟨S1024x2048, .f32⟩
  | .hbm, ⟨53, _⟩ => ⟨S1024x2048, .f32⟩
  | .hbm, ⟨54, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]

class Facts₀ : Prop where
  shapeCasts_S1024x2048_S1024x16x128 : S1024x2048.ShapeCasts S1024x16x128
  reducesTo_S1024x16x128_S1024x128_d1 : S1024x16x128.ReducesTo [1] S1024x128
  h_S_ : 0 < S_.numel
  bcast_S1024x128_S1024x1x128_0_2 : S1024x128.BroadcastsInDim S1024x1x128 (![0, 2] : Fin 2 → Fin S1024x1x128.rank)
  transposes_S4x128x1024x16_S1024x4x16x128_2_0_3_1 : S4x128x1024x16.Transposes [2, 0, 3, 1] S1024x4x16x128
  bcast_S1024x1x128_S1024x16x128_0_1_2 : S1024x1x128.BroadcastsInDim S1024x16x128 (![0, 1, 2] : Fin 3 → Fin S1024x16x128.rank)
  transposes_S8192x2048_S2048x8192_1_0 : S8192x2048.Transposes [1, 0] S2048x8192
  shapeCasts_S1024x4x16x128_S1024x8192 : S1024x4x16x128.ShapeCasts S1024x8192
  slices_S1024x8192_S1024x2048_0_0 : S1024x8192.Slices ![0, 0] S1024x2048
  slices_S1024x8192_S1024x2048_0_2048 : S1024x8192.Slices ![0, 2048] S1024x2048
  slices_S1024x8192_S1024x2048_0_4096 : S1024x8192.Slices ![0, 4096] S1024x2048
  slices_S1024x8192_S1024x2048_0_6144 : S1024x8192.Slices ![0, 6144] S1024x2048
  bcast_S_S1024x2048 : S_.BroadcastsInDim S1024x2048 (![] : Fin 0 → Fin S1024x2048.rank)
  dot_S4x128x128_S1024x16x128_S4x128x1024x16_2_2_01_01_n_n_wf : DotDims.WF S4x128x128 S1024x16x128 S4x128x1024x16 [2] [2] [0, 1] [0, 1] [] []
  dot_S1024x2048_S2048x8192_S1024x8192_1_0_0_1_n_n_wf : DotDims.WF S1024x2048 S2048x8192 S1024x8192 [1] [0] [0] [1] [] []

variable [Facts₀]

def dot_S4x128x128_S1024x16x128_S4x128x1024x16_2_2_01_01_n_n : DotDims S4x128x128 S1024x16x128 S4x128x1024x16 where
  lhsContracting := [2]
  rhsContracting := [2]
  lhsNonContracting := [0, 1]
  rhsNonContracting := [0, 1]
  lhsBatch := []
  rhsBatch := []
  wf := dot_S4x128x128_S1024x16x128_S4x128x1024x16_2_2_01_01_n_n_wf
def dot_S1024x2048_S2048x8192_S1024x8192_1_0_0_1_n_n : DotDims S1024x2048 S2048x8192 S1024x8192 where
  lhsContracting := [1]
  rhsContracting := [0]
  lhsNonContracting := [0]
  rhsNonContracting := [1]
  lhsBatch := []
  rhsBatch := []
  wf := dot_S1024x2048_S2048x8192_S1024x8192_1_0_0_1_n_n_wf

class Facts : Prop extends Facts₀ where

variable [Facts]
-- ==== Proof.BStage.lean ====
/-
  The grid of the cell kernel and where its gates land, for the program `Kernel`.

  The grid has sixteen points; point `t` is batch tile `t / 4` and gate `t % 4`. At every point the body writes the
  gate's activated pre-activations into slice `t % 4` of a scratch of four slices, sixteen stores of 128 columns each;
  only at the last gate of a tile (`t % 4 = 3`) does it read the four slices back and store the two result blocks.
  Here: that condition in closed form, which windows are live at which points, the staging and scratch buffers as the
  body is called with them, and the offsets of the sixteen stores at a grid point.
-/
import proofs.«108846_j50087908606418_2_alg».proof.Proof.Gen.Kernel.Frame
import proofs.«108846_j50087908606418_2_alg».proof.Proof.Gen.Kernel.Skeleton
import Idealize.ShloMosaic.Lib.WritesUnit

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch: taken at the last gate of a batch tile. -/
abbrev lastGate (i : grid0.Coords) : Prop := k0_cond1 i = 1#1

/-- The last gate is the points ≡ 3 (mod 4). -/
theorem lastGate_iff : ∀ t : Fin cfg0.N, lastGate (grid0.coords t) ↔ t.val % 4 = 3 :=
  (by decide +kernel : ∀ t : Fin grid0.N, lastGate (grid0.coords t) ↔ t.val % 4 = 3)

/-- The six input windows are live at every point. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel

/-- The two result windows are idle, and not written back, at the first three gates of a tile; live at the last. -/
theorem idle_6 : ∀ t : Fin cfg0.N, ¬lastGate (grid0.coords t) → cfg0.idle 6 (grid0.coords t) = true := by decide +kernel
theorem idle_7 : ∀ t : Fin cfg0.N, ¬lastGate (grid0.coords t) → cfg0.idle 7 (grid0.coords t) = true := by decide +kernel
theorem noFlush_6 : ∀ t : Fin cfg0.N, ¬lastGate (grid0.coords t) → (cfg0.win 6).flush t = false := by decide +kernel
theorem noFlush_7 : ∀ t : Fin cfg0.N, ¬lastGate (grid0.coords t) → (cfg0.win 7).flush t = false := by decide +kernel
theorem live_6 : ∀ t : Fin cfg0.N, lastGate (grid0.coords t) → cfg0.idle 6 (grid0.coords t) = false := by decide +kernel
theorem live_7 : ∀ t : Fin cfg0.N, lastGate (grid0.coords t) → cfg0.idle 7 (grid0.coords t) = false := by decide +kernel

/-- Each window's current staging buffer at point `t`, as the pipeline passes it to the body, and that it is whole. -/
abbrev ms_0 (t : Fin cfg0.N) : Memref sig .tc .vmem S256x2048 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S2048x2048 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S256x2048 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S256x2048 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1x128x128 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1x128x128 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S256x2048 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S256x2048 .f32 := win0_7.stage (cfg0.slots t 7)
abbrev hs_7 (t : Fin cfg0.N) : (ms_7 t).IsWhole := hstage0_7 ((cfg0.slots t 7).cast nbuf0_7)

/-- The scratch of four gate slices: a whole scoped buffer of the kernel's own. -/
abbrev gates : Memref sig .tc .vmem S4x256x2048 .f32 := Memref.whole cc0_scratch0
theorem gates_whole : (gates).IsWhole := Memref.isWhole_whole _
/-- The scratch as a view: what it holds is stated through it. -/
abbrev gatesV : View sig .tc .vmem S4x256x2048 .f32 := gates.view
/-- One staging buffer of each result window, through which a covering list of stores is read back. -/
abbrev outV6 : View sig .tc .vmem S256x2048 .f32 := (Memref.whole cc0_stg6_0 : Memref sig .tc .vmem S256x2048 .f32).view
abbrev outV7 : View sig .tc .vmem S256x2048 .f32 := (Memref.whole cc0_stg7_0 : Memref sig .tc .vmem S256x2048 .f32).view

/-- The region's invariant between points, with the scratch as a buffer owned at some contents, beside the generator
    register: what the body is handed and gives back when nothing about the scratch is tracked. -/
theorem PhiA_eq (c : Dev nD) :
    (Pipeline.ΦA spec0 c : sProp 𝕄)
      = iprop(iprop((∃ d, owns (c : Thread nD τ) gates fullShare d)) ∗ (∃ r, prngReg c r)) := by
  unfold Pipeline.ΦA; rw [scopedRest0_eq]; simp only [gates, owns_whole]; try rfl

/-! ## Where the sixteen stores of a point land: slice `t % 4`, all 256 rows, columns `128 n … 128 n + 127` -/

theorem off1_at : ∀ t : Fin cfg0.N, k0_off1 (grid0.coords t) = ![t.val % 4, 0, 0] :=
  (by decide +kernel : ∀ t : Fin grid0.N, k0_off1 (grid0.coords t) = ![t.val % 4, 0, 0])
theorem off2_at : ∀ t : Fin cfg0.N, k0_off2 (grid0.coords t) = ![t.val % 4, 0, 128] :=
  (by decide +kernel : ∀ t : Fin grid0.N, k0_off2 (grid0.coords t) = ![t.val % 4, 0, 128])
theorem off3_at : ∀ t : Fin cfg0.N, k0_off3 (grid0.coords t) = ![t.val % 4, 0, 256] :=
  (by decide +kernel : ∀ t : Fin grid0.N, k0_off3 (grid0.coords t) = ![t.val % 4, 0, 256])
theorem off4_at : ∀ t : Fin cfg0.N, k0_off4 (grid0.coords t) = ![t.val % 4, 0, 384] :=
  (by decide +kernel : ∀ t : Fin grid0.N, k0_off4 (grid0.coords t) = ![t.val % 4, 0, 384])
theorem off5_at : ∀ t : Fin cfg0.N, k0_off5 (grid0.coords t) = ![t.val % 4, 0, 512] :=
  (by decide +kernel : ∀ t : Fin grid0.N, k0_off5 (grid0.coords t) = ![t.val % 4, 0, 512])
theorem off6_at : ∀ t : Fin cfg0.N, k0_off6 (grid0.coords t) = ![t.val % 4, 0, 640] :=
  (by decide +kernel : ∀ t : Fin grid0.N, k0_off6 (grid0.coords t) = ![t.val % 4, 0, 640])
theorem off7_at : ∀ t : Fin cfg0.N, k0_off7 (grid0.coords t) = ![t.val % 4, 0, 768] :=
  (by decide +kernel : ∀ t : Fin grid0.N, k0_off7 (grid0.coords t) = ![t.val % 4, 0, 768])
theorem off8_at : ∀ t : Fin cfg0.N, k0_off8 (grid0.coords t) = ![t.val % 4, 0, 896] :=
  (by decide +kernel : ∀ t : Fin grid0.N, k0_off8 (grid0.coords t) = ![t.val % 4, 0, 896])
theorem off9_at : ∀ t : Fin cfg0.N, k0_off9 (grid0.coords t) = ![t.val % 4, 0, 1024] :=
  (by decide +kernel : ∀ t : Fin grid0.N, k0_off9 (grid0.coords t) = ![t.val % 4, 0, 1024])
theorem off10_at : ∀ t : Fin cfg0.N, k0_off10 (grid0.coords t) = ![t.val % 4, 0, 1152] :=
  (by decide +kernel : ∀ t : Fin grid0.N, k0_off10 (grid0.coords t) = ![t.val % 4, 0, 1152])
theorem off11_at : ∀ t : Fin cfg0.N, k0_off11 (grid0.coords t) = ![t.val % 4, 0, 1280] :=
  (by decide +kernel : ∀ t : Fin grid0.N, k0_off11 (grid0.coords t) = ![t.val % 4, 0, 1280])
theorem off12_at : ∀ t : Fin cfg0.N, k0_off12 (grid0.coords t) = ![t.val % 4, 0, 1408] :=
  (by decide +kernel : ∀ t : Fin grid0.N, k0_off12 (grid0.coords t) = ![t.val % 4, 0, 1408])
theorem off13_at : ∀ t : Fin cfg0.N, k0_off13 (grid0.coords t) = ![t.val % 4, 0, 1536] :=
  (by decide +kernel : ∀ t : Fin grid0.N, k0_off13 (grid0.coords t) = ![t.val % 4, 0, 1536])
theorem off14_at : ∀ t : Fin cfg0.N, k0_off14 (grid0.coords t) = ![t.val % 4, 0, 1664] :=
  (by decide +kernel : ∀ t : Fin grid0.N, k0_off14 (grid0.coords t) = ![t.val % 4, 0, 1664])
theorem off15_at : ∀ t : Fin cfg0.N, k0_off15 (grid0.coords t) = ![t.val % 4, 0, 1792] :=
  (by decide +kernel : ∀ t : Fin grid0.N, k0_off15 (grid0.coords t) = ![t.val % 4, 0, 1792])
theorem off16_at : ∀ t : Fin cfg0.N, k0_off16 (grid0.coords t) = ![t.val % 4, 0, 1920] :=
  (by decide +kernel : ∀ t : Fin grid0.N, k0_off16 (grid0.coords t) = ![t.val % 4, 0, 1920])

end Cert.Kernel.Body

end
-- ==== Proof.BRunGate.lean ====
/-
  The body at one of the first three gates of a batch tile (the branch not taken), for the program `Kernel`.

  On whole staging buffers holding the six input blocks, the two result buffers holding `y6`, `y7` and the scratch
  holding `xs`, the body runs to its end leaving the inputs and the result buffers as they were and the scratch at
  `xs` overwritten by sixteen stores. The list of those stores (rectangle and value, last first) is found by running
  the body; it is the statement's first component, and depends on neither `xs` nor `y6`, `y7`.
-/
import proofs.«108846_j50087908606418_2_alg».proof.Proof.BStage

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The sixteen stores of a gate point (last first), with the body's run from any scratch contents `xs` to `xs`
    overwritten by them. -/
noncomputable def gateRun (c : Dev nD) (i : grid0.Coords) (arg2 : Memref sig .tc .vmem S256x2048 .bf16) (harg2 : arg2.IsWhole) (arg3 : Memref sig .tc .vmem S2048x2048 .bf16) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x128x128 .f32) (harg6 : arg6.IsWhole) (arg7 : Memref sig .tc .vmem S1x128x128 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S4x256x2048 .f32) (harg10 : arg10.IsWhole) (hc : ¬lastGate i)
    (x0 : Vec F S256x2048 .bf16) (x1 : Vec F S2048x2048 .bf16) (x2 : Vec F S256x2048 .f32) (x3 : Vec F S256x2048 .f32) (x4 : Vec F S1x128x128 .f32) (x5 : Vec F S1x128x128 .f32) :
    { LS : List (View.Piece (Elt F) S4x256x2048 .f32) //
      ∀ (xs : Vec F S4x256x2048 .f32) (y6 y7 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ (arg10.view.loc (c : Thread nD τ) ↦[arg10.view.set]{fullShare} arg10.view.writes (Elt F) (harg10.unread xs) LS)) -∗ K ⟨⟩))
          ⊢ wp frame (wpE (defs₀ (F := F)) Variants.none c none) E (cc0_kernel i arg2 harg2 arg3 harg3 arg4 harg4 arg5 harg5 arg6 harg6 arg7 harg7 arg8 harg8 arg9 harg9 arg10 harg10) K } := by
  refine ⟨?_, fun xs y6 y7 E K => ?run⟩
  case run =>
    simp only [cc0_kernel_eq_skeleton]; unfold cc0_kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexact HS

end Cert.Kernel.Body

end
-- ==== Proof.BRunLast.lean ====
/-
  The body at the last gate of a batch tile (the branch taken), for the program `Kernel`.

  As at the other gates the scratch, holding `xs`, is overwritten by sixteen stores (now into its last slice); then
  the four slices are read back, combined with the old cell block, and the new hidden and cell blocks are stored whole
  into the two result buffers. The three lists of stores are found by running the body: the scratch's depends on
  nothing the scratch held; the result buffers' are functions of `xs`, through the slices read back.
-/
import proofs.«108846_j50087908606418_2_alg».proof.Proof.BStage

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The stores of a last-gate point into the scratch and, for scratch contents `xs` on entry, into the hidden and the
    cell buffer (each list last first), with the body's run. -/
noncomputable def lastRun (c : Dev nD) (i : grid0.Coords) (arg2 : Memref sig .tc .vmem S256x2048 .bf16) (harg2 : arg2.IsWhole) (arg3 : Memref sig .tc .vmem S2048x2048 .bf16) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x128x128 .f32) (harg6 : arg6.IsWhole) (arg7 : Memref sig .tc .vmem S1x128x128 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S4x256x2048 .f32) (harg10 : arg10.IsWhole) (hc : lastGate i)
    (x0 : Vec F S256x2048 .bf16) (x1 : Vec F S2048x2048 .bf16) (x2 : Vec F S256x2048 .f32) (x3 : Vec F S256x2048 .f32) (x4 : Vec F S1x128x128 .f32) (x5 : Vec F S1x128x128 .f32) :
    Σ' (LS : List (View.Piece (Elt F) S4x256x2048 .f32)), (xs : Vec F S4x256x2048 .f32) →
      Σ' (L6 : List (View.Piece (Elt F) S256x2048 .f32)), { L7 : List (View.Piece (Elt F) S256x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (arg10.view.loc (c : Thread nD τ) ↦[arg10.view.set]{fullShare} arg10.view.writes (Elt F) (harg10.unread xs) LS)) -∗ K ⟨⟩))
          ⊢ wp frame (wpE (defs₀ (F := F)) Variants.none c none) E (cc0_kernel i arg2 harg2 arg3 harg3 arg4 harg4 arg5 harg5 arg6 harg6 arg7 harg7 arg8 harg8 arg9 harg9 arg10 harg10) K } := by
  refine ⟨?_, fun xs => ⟨?_, ?_, fun E K => ?run⟩⟩
  case run =>
    simp only [cc0_kernel_eq_skeleton]; unfold cc0_kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexact HS

end Cert.Kernel.Body

end
-- ==== Proof.BSlices.lean ====
/-
  The proof data of the cell kernel's pipeline, and its body obligation, for the program `Kernel`.

  Between the points of a batch tile the scratch carries the gates already computed: before point `n` its slices
  `0 … n % 4 − 1` hold what the points `n − n % 4 …` of the same tile stored there (`Tracks`); the other slices hold
  whatever they held. A point's sixteen stores land in slice `n % 4` and fill it (`stores_land`, `stores_fill`), so
  they leave the earlier slices alone and the invariant moves on by one slice; at the last gate all four slices are
  known when they are read back, so the two result blocks are one function of the tile's input blocks (`hidBlock`,
  `celBlock`), whatever else the scratch held.
-/
import proofs.«108846_j50087908606418_2_alg».proof.Proof.BRunGate
import proofs.«108846_j50087908606418_2_alg».proof.Proof.BRunLast

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A store of 128 columns of one slice -/

/-- An index under a store of all 256 rows and columns `col … col + 127` of slice `g` lies in that slice and those columns. -/
theorem unit_slab_mem {off : Fin 3 → ℕ} {inb : ∀ a, off a + S1x256x128.size a ≤ S4x256x2048.size a} {g col : ℕ}
    (hoff : off = ![g, 0, col]) (y : S4x256x2048.Idx)
    (hy : y ∈ (Rect.unit (s := S4x256x2048) off S1x256x128.size inb).set) :
    (y 0).val = g ∧ col ≤ (y 2).val ∧ (y 2).val < col + 128 := by
  subst hoff
  rw [Rect.mem_set_unit] at hy
  have h0 : g ≤ (y 0).val ∧ (y 0).val < g + 1 := hy 0
  have h2 : col ≤ (y 2).val ∧ (y 2).val < col + 128 := hy 2
  exact ⟨by omega, h2.1, h2.2⟩

/-- and conversely. -/
theorem mem_unit_slab {off : Fin 3 → ℕ} {inb : ∀ a, off a + S1x256x128.size a ≤ S4x256x2048.size a} {g col : ℕ}
    (hoff : off = ![g, 0, col]) (y : S4x256x2048.Idx) (h0 : (y 0).val = g) (hlo : col ≤ (y 2).val) (hhi : (y 2).val < col + 128) :
    y ∈ (Rect.unit (s := S4x256x2048) off S1x256x128.size inb).set := by
  subst hoff
  rw [Rect.mem_set_unit]
  have h1 : (y 1).val < 256 := (y 1).isLt
  intro a
  match a with
  | ⟨0, _⟩ => exact (show g ≤ (y 0).val ∧ (y 0).val < g + 1 from by omega)
  | ⟨1, _⟩ => exact (show 0 ≤ (y 1).val ∧ (y 1).val < 0 + 256 from by omega)
  | ⟨2, _⟩ => exact (show col ≤ (y 2).val ∧ (y 2).val < col + 128 from ⟨hlo, hhi⟩)

variable (m : (ℓ : Loc nD τ sig) → Buf (Elt F) ℓ) (ρ : Dev nD → PrngReg)

/-! ## The stores of a point -/

/-- The sixteen stores of point `t` into the scratch (last first), run at the point's buffers and input blocks. -/
def stores (c : Dev nD) (t : Fin cfg0.N) : List (View.Piece (Elt F) S4x256x2048 .f32) :=
  if h : t.val % 4 = 3 then
    (lastRun c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) gates gates_whole ((lastGate_iff t).mpr h) (iblk m c 0 t) (iblk m c 1 t) (iblk m c 2 t) (iblk m c 3 t) (iblk m c 4 t) (iblk m c 5 t)).1
  else
    (gateRun c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) gates gates_whole (fun hl => h ((lastGate_iff t).mp hl)) (iblk m c 0 t) (iblk m c 1 t) (iblk m c 2 t) (iblk m c 3 t) (iblk m c 4 t) (iblk m c 5 t)).1

set_option maxHeartbeats 1600000 in
/-- They land in slice `t % 4`: -/
theorem stores_land (c : Dev nD) (t : Fin cfg0.N) :
    ∀ p ∈ stores m c t, ∀ y : S4x256x2048.Idx, y ∈ p.1.set → (y 0).val = t.val % 4 := by
  intro p hp y hy
  unfold stores at hp
  split at hp
  · unfold lastRun at hp; dsimp only at hp; unfold lastRun.sl.HS_16 at hp
    simp only [List.mem_cons, List.not_mem_nil, _root_.or_false] at hp
    rcases hp with rfl | rfl | rfl | rfl | rfl | rfl | rfl | rfl | rfl | rfl | rfl | rfl | rfl | rfl | rfl | rfl
    · dsimp only at hy; exact (unit_slab_mem (off16_at t) y hy).1
    · dsimp only at hy; exact (unit_slab_mem (off15_at t) y hy).1
    · dsimp only at hy; exact (unit_slab_mem (off14_at t) y hy).1
    · dsimp only at hy; exact (unit_slab_mem (off13_at t) y hy).1
    · dsimp only at hy; exact (unit_slab_mem (off12_at t) y hy).1
    · dsimp only at hy; exact (unit_slab_mem (off11_at t) y hy).1
    · dsimp only at hy; exact (unit_slab_mem (off10_at t) y hy).1
    · dsimp only at hy; exact (unit_slab_mem (off9_at t) y hy).1
    · dsimp only at hy; exact (unit_slab_mem (off8_at t) y hy).1
    · dsimp only at hy; exact (unit_slab_mem (off7_at t) y hy).1
    · dsimp only at hy; exact (unit_slab_mem (off6_at t) y hy).1
    · dsimp only at hy; exact (unit_slab_mem (off5_at t) y hy).1
    · dsimp only at hy; exact (unit_slab_mem (off4_at t) y hy).1
    · dsimp only at hy; exact (unit_slab_mem (off3_at t) y hy).1
    · dsimp only at hy; exact (unit_slab_mem (off2_at t) y hy).1
    · dsimp only at hy; exact (unit_slab_mem (off1_at t) y hy).1
  · unfold gateRun at hp; dsimp only at hp
    simp only [List.mem_cons, List.not_mem_nil, _root_.or_false] at hp
    rcases hp with rfl | rfl | rfl | rfl | rfl | rfl | rfl | rfl | rfl | rfl | rfl | rfl | rfl | rfl | rfl | rfl
    · dsimp only at hy; exact (unit_slab_mem (off16_at t) y hy).1
    · dsimp only at hy; exact (unit_slab_mem (off15_at t) y hy).1
    · dsimp only at hy; exact (unit_slab_mem (off14_at t) y hy).1
    · dsimp only at hy; exact (unit_slab_mem (off13_at t) y hy).1
    · dsimp only at hy; exact (unit_slab_mem (off12_at t) y hy).1
    · dsimp only at hy; exact (unit_slab_mem (off11_at t) y hy).1
    · dsimp only at hy; exact (unit_slab_mem (off10_at t) y hy).1
    · dsimp only at hy; exact (unit_slab_mem (off9_at t) y hy).1
    · dsimp only at hy; exact (unit_slab_mem (off8_at t) y hy).1
    · dsimp only at hy; exact (unit_slab_mem (off7_at t) y hy).1
    · dsimp only at hy; exact (unit_slab_mem (off6_at t) y hy).1
    · dsimp only at hy; exact (unit_slab_mem (off5_at t) y hy).1
    · dsimp only at hy; exact (unit_slab_mem (off4_at t) y hy).1
    · dsimp only at hy; exact (unit_slab_mem (off3_at t) y hy).1
    · dsimp only at hy; exact (unit_slab_mem (off2_at t) y hy).1
    · dsimp only at hy; exact (unit_slab_mem (off1_at t) y hy).1

set_option maxHeartbeats 1600000 in
/-- and they fill it. -/
theorem stores_fill (c : Dev nD) (t : Fin cfg0.N) (y : S4x256x2048.Idx) (hy : (y 0).val = t.val % 4) :
    ∃ p ∈ stores m c t, y ∈ p.1.set := by
  have h2 : (y 2).val < 2048 := (y 2).isLt
  have hiv : (0 ≤ (y 2).val ∧ (y 2).val < 128) ∨ (128 ≤ (y 2).val ∧ (y 2).val < 256) ∨ (256 ≤ (y 2).val ∧ (y 2).val < 384) ∨ (384 ≤ (y 2).val ∧ (y 2).val < 512) ∨ (512 ≤ (y 2).val ∧ (y 2).val < 640) ∨ (640 ≤ (y 2).val ∧ (y 2).val < 768) ∨ (768 ≤ (y 2).val ∧ (y 2).val < 896) ∨ (896 ≤ (y 2).val ∧ (y 2).val < 1024) ∨ (1024 ≤ (y 2).val ∧ (y 2).val < 1152) ∨ (1152 ≤ (y 2).val ∧ (y 2).val < 1280) ∨ (1280 ≤ (y 2).val ∧ (y 2).val < 1408) ∨ (1408 ≤ (y 2).val ∧ (y 2).val < 1536) ∨ (1536 ≤ (y 2).val ∧ (y 2).val < 1664) ∨ (1664 ≤ (y 2).val ∧ (y 2).val < 1792) ∨ (1792 ≤ (y 2).val ∧ (y 2).val < 1920) ∨ (1920 ≤ (y 2).val ∧ (y 2).val < 2048) := by omega
  unfold stores
  split
  · unfold lastRun; dsimp only; unfold lastRun.sl.HS_16
    rcases hiv with h | h | h | h | h | h | h | h | h | h | h | h | h | h | h | h
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), ?_⟩; dsimp only; exact mem_unit_slab (off1_at t) y hy (by omega) (by omega)
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), ?_⟩; dsimp only; exact mem_unit_slab (off2_at t) y hy (by omega) (by omega)
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), ?_⟩; dsimp only; exact mem_unit_slab (off3_at t) y hy (by omega) (by omega)
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), ?_⟩; dsimp only; exact mem_unit_slab (off4_at t) y hy (by omega) (by omega)
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), ?_⟩; dsimp only; exact mem_unit_slab (off5_at t) y hy (by omega) (by omega)
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), ?_⟩; dsimp only; exact mem_unit_slab (off6_at t) y hy (by omega) (by omega)
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), ?_⟩; dsimp only; exact mem_unit_slab (off7_at t) y hy (by omega) (by omega)
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), ?_⟩; dsimp only; exact mem_unit_slab (off8_at t) y hy (by omega) (by omega)
    · refine ⟨_, (List.mem_cons_of_mem _ (List.mem_cons_of_mem _ (List.mem_cons_of_mem _ (List.mem_cons_of_mem _ (List.mem_cons_of_mem _ (List.mem_cons_of_mem _ (List.mem_cons_of_mem _ List.mem_cons_self))))))), ?_⟩; dsimp only; exact mem_unit_slab (off9_at t) y hy (by omega) (by omega)
    · refine ⟨_, (List.mem_cons_of_mem _ (List.mem_cons_of_mem _ (List.mem_cons_of_mem _ (List.mem_cons_of_mem _ (List.mem_cons_of_mem _ (List.mem_cons_of_mem _ List.mem_cons_self)))))), ?_⟩; dsimp only; exact mem_unit_slab (off10_at t) y hy (by omega) (by omega)
    · refine ⟨_, (List.mem_cons_of_mem _ (List.mem_cons_of_mem _ (List.mem_cons_of_mem _ (List.mem_cons_of_mem _ (List.mem_cons_of_mem _ List.mem_cons_self))))), ?_⟩; dsimp only; exact mem_unit_slab (off11_at t) y hy (by omega) (by omega)
    · refine ⟨_, (List.mem_cons_of_mem _ (List.mem_cons_of_mem _ (List.mem_cons_of_mem _ (List.mem_cons_of_mem _ List.mem_cons_self)))), ?_⟩; dsimp only; exact mem_unit_slab (off12_at t) y hy (by omega) (by omega)
    · refine ⟨_, (List.mem_cons_of_mem _ (List.mem_cons_of_mem _ (List.mem_cons_of_mem _ List.mem_cons_self))), ?_⟩; dsimp only; exact mem_unit_slab (off13_at t) y hy (by omega) (by omega)
    · refine ⟨_, (List.mem_cons_of_mem _ (List.mem_cons_of_mem _ List.mem_cons_self)), ?_⟩; dsimp only; exact mem_unit_slab (off14_at t) y hy (by omega) (by omega)
    · refine ⟨_, (List.mem_cons_of_mem _ List.mem_cons_self), ?_⟩; dsimp only; exact mem_unit_slab (off15_at t) y hy (by omega) (by omega)
    · refine ⟨_, List.mem_cons_self, ?_⟩; dsimp only; exact mem_unit_slab (off16_at t) y hy (by omega) (by omega)
  · unfold gateRun; dsimp only
    rcases hiv with h | h | h | h | h | h | h | h | h | h | h | h | h | h | h | h
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), ?_⟩; dsimp only; exact mem_unit_slab (off1_at t) y hy (by omega) (by omega)
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), ?_⟩; dsimp only; exact mem_unit_slab (off2_at t) y hy (by omega) (by omega)
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), ?_⟩; dsimp only; exact mem_unit_slab (off3_at t) y hy (by omega) (by omega)
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), ?_⟩; dsimp only; exact mem_unit_slab (off4_at t) y hy (by omega) (by omega)
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), ?_⟩; dsimp only; exact mem_unit_slab (off5_at t) y hy (by omega) (by omega)
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), ?_⟩; dsimp only; exact mem_unit_slab (off6_at t) y hy (by omega) (by omega)
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), ?_⟩; dsimp only; exact mem_unit_slab (off7_at t) y hy (by omega) (by omega)
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), ?_⟩; dsimp only; exact mem_unit_slab (off8_at t) y hy (by omega) (by omega)
    · refine ⟨_, (List.mem_cons_of_mem _ (List.mem_cons_of_mem _ (List.mem_cons_of_mem _ (List.mem_cons_of_mem _ (List.mem_cons_of_mem _ (List.mem_cons_of_mem _ (List.mem_cons_of_mem _ List.mem_cons_self))))))), ?_⟩; dsimp only; exact mem_unit_slab (off9_at t) y hy (by omega) (by omega)
    · refine ⟨_, (List.mem_cons_of_mem _ (List.mem_cons_of_mem _ (List.mem_cons_of_mem _ (List.mem_cons_of_mem _ (List.mem_cons_of_mem _ (List.mem_cons_of_mem _ List.mem_cons_self)))))), ?_⟩; dsimp only; exact mem_unit_slab (off10_at t) y hy (by omega) (by omega)
    · refine ⟨_, (List.mem_cons_of_mem _ (List.mem_cons_of_mem _ (List.mem_cons_of_mem _ (List.mem_cons_of_mem _ (List.mem_cons_of_mem _ List.mem_cons_self))))), ?_⟩; dsimp only; exact mem_unit_slab (off11_at t) y hy (by omega) (by omega)
    · refine ⟨_, (List.mem_cons_of_mem _ (List.mem_cons_of_mem _ (List.mem_cons_of_mem _ (List.mem_cons_of_mem _ List.mem_cons_self)))), ?_⟩; dsimp only; exact mem_unit_slab (off12_at t) y hy (by omega) (by omega)
    · refine ⟨_, (List.mem_cons_of_mem _ (List.mem_cons_of_mem _ (List.mem_cons_of_mem _ List.mem_cons_self))), ?_⟩; dsimp only; exact mem_unit_slab (off13_at t) y hy (by omega) (by omega)
    · refine ⟨_, (List.mem_cons_of_mem _ (List.mem_cons_of_mem _ List.mem_cons_self)), ?_⟩; dsimp only; exact mem_unit_slab (off14_at t) y hy (by omega) (by omega)
    · refine ⟨_, (List.mem_cons_of_mem _ List.mem_cons_self), ?_⟩; dsimp only; exact mem_unit_slab (off15_at t) y hy (by omega) (by omega)
    · refine ⟨_, List.mem_cons_self, ?_⟩; dsimp only; exact mem_unit_slab (off16_at t) y hy (by omega) (by omega)

end Cert.Kernel.Body

end
-- ==== Proof.BData.lean ====
/-
  The proof data of the cell kernel's pipeline, its body obligation, its run and its frame, for the program `Kernel`.

  Between the points of a batch tile the scratch carries the gates already computed: before point `n` its slices
  `0 … n % 4 − 1` hold what the points `n − n % 4, …` of the same tile stored there (`Tracks`), the other slices
  whatever they held. A point's sixteen stores land in slice `n % 4` and fill it, so they leave the earlier slices
  alone and the invariant moves on by one slice (`tracks_step`); at the last gate all four slices are known when they
  are read back (`all_slices`), so the two result blocks are one function of the tile's input blocks (`hidBlock`,
  `celBlock`), whatever else the scratch held.
-/
import proofs.«108846_j50087908606418_2_alg».proof.Proof.BSlices

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch carries -/

theorem N16 : cfg0.N = 16 := N_0

/-- Point `k` of the grid. -/
def pt (k : ℕ) (hk : k < 16) : Fin cfg0.N := ⟨k, lt_of_lt_of_eq hk N16.symm⟩

theorem slice_lt (y : S4x256x2048.Idx) : (y 0).val < 4 := (y 0).isLt

/-- The scratch after point `t`'s stores over contents nobody names: its slice `t % 4` is what the point computed. -/
def slab (c : Dev nD) (t : Fin cfg0.N) : Vec F S4x256x2048 .f32 :=
  gatesV.read (Elt F) (gatesV.writes (Elt F) gatesV.junk (stores m c t))

/-- Before point `n`: slice `s < n % 4` of the scratch holds what point `n − n % 4 + s` computed. -/
def Tracks (c : Dev nD) (n : ℕ) (xs : Vec F S4x256x2048 .f32) : Prop :=
  ∀ (y : S4x256x2048.Idx) (hy : (y 0).val < n % 4) (hk : n - n % 4 + (y 0).val < 16),
    xs y = slab m c (pt (n - n % 4 + (y 0).val) hk) y

/-- A gate point's stores move the invariant on by one slice. -/
theorem tracks_step (c : Dev nD) (t : Fin cfg0.N) (h : ¬t.val % 4 = 3) (xs : Vec F S4x256x2048 .f32) (hx : Tracks m c t.val xs) :
    Tracks m c (t.val + 1) (gatesV.read (Elt F) (gatesV.writes (Elt F) (gates_whole.unread xs) (stores m c t))) := by
  intro y hy hk
  have ht : t.val < 16 := lt_of_lt_of_eq t.isLt N16
  have hy0 := slice_lt y
  by_cases hg : (y 0).val = t.val % 4
  · rw [View.read_writes_apply_eq gatesV (gates_whole.unread xs) gatesV gatesV.junk y (stores m c t) (stores_fill m c t y hg)]
    have e : pt (t.val + 1 - (t.val + 1) % 4 + (y 0).val) hk = t := Fin.ext (by show t.val + 1 - (t.val + 1) % 4 + (y 0).val = t.val; omega)
    rw [e]; rfl
  · rw [View.read_writes_apply_of_forall_not_mem gatesV (gates_whole.unread xs) y (stores m c t)
      (fun p hp hmem => hg (stores_land m c t p hp y hmem))]
    rw [gates_whole.read_unread]
    have hk' : t.val - t.val % 4 + (y 0).val < 16 := by omega
    rw [hx y (by omega) hk']
    congr 1
    exact Fin.ext (by show t.val - t.val % 4 + (y 0).val = t.val + 1 - (t.val + 1) % 4 + (y 0).val; omega)

/-- At a last gate: the four slices as the tile's four points computed them. -/
def full (c : Dev nD) (t : Fin cfg0.N) (h : t.val % 4 = 3) : Vec F S4x256x2048 .f32 :=
  fun y => slab m c (pt (t.val - 3 + (y 0).val) (by have := slice_lt y; have := lt_of_lt_of_eq t.isLt N16; omega)) y

/-- After a last gate's stores the scratch holds exactly that, whatever its untracked slices held. -/
theorem all_slices (c : Dev nD) (t : Fin cfg0.N) (h : t.val % 4 = 3) (xs : Vec F S4x256x2048 .f32) (hx : Tracks m c t.val xs) :
    gatesV.read (Elt F) (gatesV.writes (Elt F) (gates_whole.unread xs) (stores m c t)) = full m c t h := by
  funext y
  have ht : t.val < 16 := lt_of_lt_of_eq t.isLt N16
  have hy0 := slice_lt y
  by_cases hg : (y 0).val = t.val % 4
  · rw [View.read_writes_apply_eq gatesV (gates_whole.unread xs) gatesV gatesV.junk y (stores m c t) (stores_fill m c t y hg)]
    show _ = slab m c (pt (t.val - 3 + (y 0).val) _) y
    have e : pt (t.val - 3 + (y 0).val) (by omega) = t := Fin.ext (by show t.val - 3 + (y 0).val = t.val; omega)
    rw [e]; rfl
  · rw [View.read_writes_apply_of_forall_not_mem gatesV (gates_whole.unread xs) y (stores m c t)
      (fun p hp hmem => hg (stores_land m c t p hp y hmem))]
    rw [gates_whole.read_unread]
    have hk' : t.val - t.val % 4 + (y 0).val < 16 := by omega
    rw [hx y (by omega) hk']
    show slab m c _ y = slab m c (pt (t.val - 3 + (y 0).val) _) y
    congr 1
    exact Fin.ext (by show t.val - t.val % 4 + (y 0).val = t.val - 3 + (y 0).val; omega)

theorem tracks_full (c : Dev nD) (t : Fin cfg0.N) (h : t.val % 4 = 3) : Tracks m c t.val (full m c t h) := by
  intro y hy hk
  show slab m c (pt (t.val - 3 + (y 0).val) _) y = slab m c _ y
  congr 1
  exact Fin.ext (by show t.val - 3 + (y 0).val = t.val - t.val % 4 + (y 0).val; omega)

/-- So the buffer's contents after the stores are the same from any tracked contents as from `full`. -/
theorem contents_eq (c : Dev nD) (t : Fin cfg0.N) (h : t.val % 4 = 3) (xs : Vec F S4x256x2048 .f32) (hx : Tracks m c t.val xs) :
    gatesV.writes (Elt F) (gates_whole.unread xs) (stores m c t)
      = gatesV.writes (Elt F) (gates_whole.unread (full m c t h)) (stores m c t) :=
  gates_whole.read_bijective.1 ((all_slices m c t h xs hx).trans (all_slices m c t h (full m c t h) (tracks_full m c t h)).symm)

/-! ## The two result blocks of a tile -/

/-- The new hidden block the last gate of a tile stores: its one store read back. -/
def hidBlock (c : Dev nD) (t : Fin cfg0.N) : Vec F S256x2048 .f32 :=
  if h : t.val % 4 = 3 then
    outV6.read (Elt F) (outV6.writes (Elt F) outV6.junk (((lastRun c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) gates gates_whole ((lastGate_iff t).mpr h) (iblk m c 0 t) (iblk m c 1 t) (iblk m c 2 t) (iblk m c 3 t) (iblk m c 4 t) (iblk m c 5 t))).2 (full m c t h)).1)
  else outV6.read (Elt F) outV6.junk

/-- The new cell block. -/
def celBlock (c : Dev nD) (t : Fin cfg0.N) : Vec F S256x2048 .f32 :=
  if h : t.val % 4 = 3 then
    outV7.read (Elt F) (outV7.writes (Elt F) outV7.junk (((lastRun c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) gates gates_whole ((lastGate_iff t).mpr h) (iblk m c 0 t) (iblk m c 1 t) (iblk m c 2 t) (iblk m c 3 t) (iblk m c 4 t) (iblk m c 5 t))).2 (full m c t h)).2.1)
  else outV7.read (Elt F) outV7.junk

set_option maxHeartbeats 1600000 in
/-- The result stores depend on the scratch's entry contents only through what the scratch holds after the point's own stores. -/
theorem results_eq (c : Dev nD) (t : Fin cfg0.N) (h : t.val % 4 = 3) (xs : Vec F S4x256x2048 .f32) (hx : Tracks m c t.val xs) :
    (((lastRun c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) gates gates_whole ((lastGate_iff t).mpr h) (iblk m c 0 t) (iblk m c 1 t) (iblk m c 2 t) (iblk m c 3 t) (iblk m c 4 t) (iblk m c 5 t))).2 xs).1 = (((lastRun c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) gates gates_whole ((lastGate_iff t).mpr h) (iblk m c 0 t) (iblk m c 1 t) (iblk m c 2 t) (iblk m c 3 t) (iblk m c 4 t) (iblk m c 5 t))).2 (full m c t h)).1
    ∧ (((lastRun c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) gates gates_whole ((lastGate_iff t).mpr h) (iblk m c 0 t) (iblk m c 1 t) (iblk m c 2 t) (iblk m c 3 t) (iblk m c 4 t) (iblk m c 5 t))).2 xs).2.1 = (((lastRun c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) gates gates_whole ((lastGate_iff t).mpr h) (iblk m c 0 t) (iblk m c 1 t) (iblk m c 2 t) (iblk m c 3 t) (iblk m c 4 t) (iblk m c 5 t))).2 (full m c t h)).2.1 := by
  have hc := contents_eq m c t h xs hx
  unfold stores at hc
  rw [dif_pos h] at hc
  unfold lastRun at hc ⊢
  dsimp only at hc ⊢
  unfold lastRun.sl.v261 lastRun.sl.v263 lastRun.sl.v265 lastRun.sl.v267
  rw [hc]
  exact ⟨rfl, rfl⟩

set_option maxHeartbeats 1600000 in
/-- What the hidden buffer reads after the last gate, from any tracked scratch. -/
theorem hid_read (c : Dev nD) (t : Fin cfg0.N) (h : t.val % 4 = 3) (xs : Vec F S4x256x2048 .f32) (hx : Tracks m c t.val xs)
    (f : (ms_6 t).view.ty.Contents (Elt F)) :
    (ms_6 t).view.read (Elt F) ((ms_6 t).view.writes (Elt F) f (((lastRun c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) gates gates_whole ((lastGate_iff t).mpr h) (iblk m c 0 t) (iblk m c 1 t) (iblk m c 2 t) (iblk m c 3 t) (iblk m c 4 t) (iblk m c 5 t))).2 xs).1) = hidBlock m c t := by
  unfold hidBlock
  rw [dif_pos h, (results_eq m c t h xs hx).1]
  exact View.read_writes_of_cover _ _ outV6 outV6.junk _
    (View.cover_of_tiledL (((lastRun c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) gates gates_whole ((lastGate_iff t).mpr h) (iblk m c 0 t) (iblk m c 1 t) (iblk m c 2 t) (iblk m c 3 t) (iblk m c 4 t) (iblk m c 5 t))).2 (full m c t h)).1 S256x2048.size (by sl_kernel_rfl))

set_option maxHeartbeats 1600000 in
/-- What the cell buffer reads. -/
theorem cel_read (c : Dev nD) (t : Fin cfg0.N) (h : t.val % 4 = 3) (xs : Vec F S4x256x2048 .f32) (hx : Tracks m c t.val xs)
    (f : (ms_7 t).view.ty.Contents (Elt F)) :
    (ms_7 t).view.read (Elt F) ((ms_7 t).view.writes (Elt F) f (((lastRun c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) gates gates_whole ((lastGate_iff t).mpr h) (iblk m c 0 t) (iblk m c 1 t) (iblk m c 2 t) (iblk m c 3 t) (iblk m c 4 t) (iblk m c 5 t))).2 xs).2.1) = celBlock m c t := by
  unfold celBlock
  rw [dif_pos h, (results_eq m c t h xs hx).2]
  exact View.read_writes_of_cover _ _ outV7 outV7.junk _
    (View.cover_of_tiledL (((lastRun c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) gates gates_whole ((lastGate_iff t).mpr h) (iblk m c 0 t) (iblk m c 1 t) (iblk m c 2 t) (iblk m c 3 t) (iblk m c 4 t) (iblk m c 5 t))).2 (full m c t h)).2.1 S256x2048.size (by sl_kernel_rfl))

/-! ## The proof data -/

/-- The region's invariant before point `n`: the scratch at tracked contents, beside the generator register. -/
def PhiT (c : Dev nD) (n : ℕ) : sProp 𝕄 :=
  iprop(iprop(∃ xs, ⌜Tracks m c n xs⌝ ∗ owns (c : Thread nD τ) gates fullShare xs) ∗ (∃ r, prngReg c r))

/-- The proof data of the pipeline on core `c`: the arrays as the region finds them; after the body at point `t` each
    input's buffer at its block, the hidden and cell buffers at the tile's result blocks; the invariant `PhiT`;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hidBlock m c t
    | ⟨7, _⟩ => celBlock m c t
  Φ t := PhiT m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = hidBlock m c t := by dsimp only [dats]
theorem after_7 (c : Dev nD) (t : Fin cfg0.N) : (dats m 0 c).after 7 t = celBlock m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
/-- The body at any point. At a last gate the scratch comes in tracked on three slices, the run stores the fourth
    and both result blocks, and the next point starts a new tile with nothing tracked; at the other gates the run
    stores one more slice and hands the result buffers back untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiT m c (t.val + 1) from rfl,
    show (dats m 0 c).Φ t.castSucc = PhiT m c t.val from rfl]
  have hN : t.val < 16 := lt_of_lt_of_eq t.isLt N16
  unfold PhiT
  by_cases h : t.val % 4 = 3
  · have hl : lastGate (grid0.coords t) := (lastGate_iff t).mpr h
    rw [show (dats m 0 c).leavesExact 0 t = owns (c : Thread nD τ) (ms_0 t) fullShare ((dats m 0 c).after 0 t) from by
      unfold Dat.leavesExact; rw [live_0 t], after_0]
    rw [show (dats m 0 c).leavesExact 1 t = owns (c : Thread nD τ) (ms_1 t) fullShare ((dats m 0 c).after 1 t) from by
      unfold Dat.leavesExact; rw [live_1 t], after_1]
    rw [show (dats m 0 c).leavesExact 2 t = owns (c : Thread nD τ) (ms_2 t) fullShare ((dats m 0 c).after 2 t) from by
      unfold Dat.leavesExact; rw [live_2 t], after_2]
    rw [show (dats m 0 c).leavesExact 3 t = owns (c : Thread nD τ) (ms_3 t) fullShare ((dats m 0 c).after 3 t) from by
      unfold Dat.leavesExact; rw [live_3 t], after_3]
    rw [show (dats m 0 c).leavesExact 4 t = owns (c : Thread nD τ) (ms_4 t) fullShare ((dats m 0 c).after 4 t) from by
      unfold Dat.leavesExact; rw [live_4 t], after_4]
    rw [show (dats m 0 c).leavesExact 5 t = owns (c : Thread nD τ) (ms_5 t) fullShare ((dats m 0 c).after 5 t) from by
      unfold Dat.leavesExact; rw [live_5 t], after_5]
    rw [show (dats m 0 c).leavesExact 6 t = owns (c : Thread nD τ) (ms_6 t) fullShare ((dats m 0 c).after 6 t) from by
      unfold Dat.leavesExact; rw [live_6 t hl], after_6]
    rw [show (dats m 0 c).leavesExact 7 t = owns (c : Thread nD τ) (ms_7 t) fullShare ((dats m 0 c).after 7 t) from by
      unfold Dat.leavesExact; rw [live_7 t hl], after_7]
    iintro ⟨⟨⟨%xs, %hx, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((((lastRun c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) gates gates_whole ((lastGate_iff t).mpr h) (iblk m c 0 t) (iblk m c 1 t) (iblk m c 2 t) (iblk m c 3 t) (iblk m c 4 t) (iblk m c 5 t))).2 xs).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, ⟨%e6, H6⟩, ⟨%e7, H7⟩, HS⟩
    isplitl [HS Hg]
    · isplitl [HS]
      · iexists _; isplitr; swap
        · unfold owns; iexists _; isplitr; swap; · iexact HS
          ipureintro; rfl
        ipureintro; exact fun y hy _ => absurd hy (by omega)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr; swap; · iexact H6
      ipureintro; exact hid_read m c t h xs hx _
    unfold owns; iexists _; isplitr; swap; · iexact H7
    ipureintro; exact cel_read m c t h xs hx _
  · have hl : ¬lastGate (grid0.coords t) := fun hh => h ((lastGate_iff t).mp hh)
    rw [show (dats m 0 c).leavesExact 0 t = owns (c : Thread nD τ) (ms_0 t) fullShare ((dats m 0 c).after 0 t) from by
      unfold Dat.leavesExact; rw [live_0 t], after_0]
    rw [show (dats m 0 c).leavesExact 1 t = owns (c : Thread nD τ) (ms_1 t) fullShare ((dats m 0 c).after 1 t) from by
      unfold Dat.leavesExact; rw [live_1 t], after_1]
    rw [show (dats m 0 c).leavesExact 2 t = owns (c : Thread nD τ) (ms_2 t) fullShare ((dats m 0 c).after 2 t) from by
      unfold Dat.leavesExact; rw [live_2 t], after_2]
    rw [show (dats m 0 c).leavesExact 3 t = owns (c : Thread nD τ) (ms_3 t) fullShare ((dats m 0 c).after 3 t) from by
      unfold Dat.leavesExact; rw [live_3 t], after_3]
    rw [show (dats m 0 c).leavesExact 4 t = owns (c : Thread nD τ) (ms_4 t) fullShare ((dats m 0 c).after 4 t) from by
      unfold Dat.leavesExact; rw [live_4 t], after_4]
    rw [show (dats m 0 c).leavesExact 5 t = owns (c : Thread nD τ) (ms_5 t) fullShare ((dats m 0 c).after 5 t) from by
      unfold Dat.leavesExact; rw [live_5 t], after_5]
    rw [Dat.leavesExact_idle (dats m 0 c) 6 t (idle_6 t hl) (noFlush_6 t hl)]
    rw [Dat.leavesExact_idle (dats m 0 c) 7 t (idle_7 t hl) (noFlush_7 t hl)]
    iintro ⟨⟨⟨%xs, %hx, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (((gateRun c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) gates gates_whole (fun hl => h ((lastGate_iff t).mp hl)) (iblk m c 0 t) (iblk m c 1 t) (iblk m c 2 t) (iblk m c 3 t) (iblk m c 4 t) (iblk m c 5 t))).2 xs _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS Hg]
    · isplitl [HS]
      · iexists _; isplitr; swap
        · unfold owns; iexists _; isplitr; swap; · iexact HS
          ipureintro; rfl
        ipureintro
        have e : ((gateRun c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) gates gates_whole (fun hl => h ((lastGate_iff t).mp hl)) (iblk m c 0 t) (iblk m c 1 t) (iblk m c 2 t) (iblk m c 3 t) (iblk m c 4 t) (iblk m c 5 t))).1 = stores m c t := by unfold stores; rw [dif_neg h]
        rw [e]
        exact tracks_step m c t h xs hx
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point nothing is tracked: the launch's invariant is ours. -/
theorem hin (c : Dev nD) : Pipeline.ΦA spec0 c ⊢ (dats m 0 c).Φ 0 := by
  rw [show (dats m 0 c).Φ 0 = PhiT m c 0 from rfl, PhiA_eq]
  unfold PhiT
  iintro ⟨⟨%d, HS⟩, Hg⟩
  isplitl [HS]
  · iexists d; isplitr
    · ipureintro; exact fun y hy _ => absurd hy (by omega)
    iexact HS
  iexact Hg

/-- After the last point what was tracked is forgotten. -/
theorem hout (c : Dev nD) : (dats m 0 c).Φ (Fin.last cfg0.N) ⊢ Pipeline.ΦA spec0 c := by
  rw [show (dats m 0 c).Φ (Fin.last cfg0.N) = PhiT m c (Fin.last cfg0.N).val from rfl, PhiA_eq]
  unfold PhiT
  iintro ⟨⟨%xs, %hx, HS⟩, Hg⟩
  isplitl [HS]
  · iexists xs; iexact HS
  iexact Hg

/-! ## The run and the frame -/

set_option backward.isDefEq.respectTransparency.types false in
/-- Every weakly fair execution of @main terminates, every array of the pipeline ending at what the library computes
    from the proof data and every other unscoped buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: @main terminates with its six argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.IStage.lean ====
/-
  The grid of the cell kernel and where its gates land, for the program `KernelIdeal`.

  The grid has sixteen points; point `t` is batch tile `t / 4` and gate `t % 4`. At every point the body writes the
  gate's activated pre-activations into slice `t % 4` of a scratch of four slices, sixteen stores of 128 columns each;
  only at the last gate of a tile (`t % 4 = 3`) does it read the four slices back and store the two result blocks.
  Here: that condition in closed form, which windows are live at which points, the staging and scratch buffers as the
  body is called with them, and the offsets of the sixteen stores at a grid point.
-/
import proofs.«108846_j50087908606418_2_alg».proof.Proof.Gen.KernelIdeal.Frame
import proofs.«108846_j50087908606418_2_alg».proof.Proof.Gen.KernelIdeal.Skeleton
import Idealize.ShloMosaic.Lib.WritesUnit

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch: taken at the last gate of a batch tile. -/
abbrev lastGate (i : grid0.Coords) : Prop := k0_cond1 i = 1#1

/-- The last gate is the points ≡ 3 (mod 4). -/
theorem lastGate_iff : ∀ t : Fin cfg0.N, lastGate (grid0.coords t) ↔ t.val % 4 = 3 :=
  (by decide +kernel : ∀ t : Fin grid0.N, lastGate (grid0.coords t) ↔ t.val % 4 = 3)

/-- The six input windows are live at every point. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel

/-- The two result windows are idle, and not written back, at the first three gates of a tile; live at the last. -/
theorem idle_6 : ∀ t : Fin cfg0.N, ¬lastGate (grid0.coords t) → cfg0.idle 6 (grid0.coords t) = true := by decide +kernel
theorem idle_7 : ∀ t : Fin cfg0.N, ¬lastGate (grid0.coords t) → cfg0.idle 7 (grid0.coords t) = true := by decide +kernel
theorem noFlush_6 : ∀ t : Fin cfg0.N, ¬lastGate (grid0.coords t) → (cfg0.win 6).flush t = false := by decide +kernel
theorem noFlush_7 : ∀ t : Fin cfg0.N, ¬lastGate (grid0.coords t) → (cfg0.win 7).flush t = false := by decide +kernel
theorem live_6 : ∀ t : Fin cfg0.N, lastGate (grid0.coords t) → cfg0.idle 6 (grid0.coords t) = false := by decide +kernel
theorem live_7 : ∀ t : Fin cfg0.N, lastGate (grid0.coords t) → cfg0.idle 7 (grid0.coords t) = false := by decide +kernel

/-- Each window's current staging buffer at point `t`, as the pipeline passes it to the body, and that it is whole. -/
abbrev ms_0 (t : Fin cfg0.N) : Memref sig .tc .vmem S256x2048 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S2048x2048 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S256x2048 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S256x2048 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1x128x128 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1x128x128 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S256x2048 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S256x2048 .f32 := win0_7.stage (cfg0.slots t 7)
abbrev hs_7 (t : Fin cfg0.N) : (ms_7 t).IsWhole := hstage0_7 ((cfg0.slots t 7).cast nbuf0_7)

/-- The scratch of four gate slices: a whole scoped buffer of the kernel's own. -/
abbrev gates : Memref sig .tc .vmem S4x256x2048 .f32 := Memref.whole cc0_scratch0
theorem gates_whole : (gates).IsWhole := Memref.isWhole_whole _
/-- The scratch as a view: what it holds is stated through it. -/
abbrev gatesV : View sig .tc .vmem S4x256x2048 .f32 := gates.view
/-- One staging buffer of each result window, through which a covering list of stores is read back. -/
abbrev outV6 : View sig .tc .vmem S256x2048 .f32 := (Memref.whole cc0_stg6_0 : Memref sig .tc .vmem S256x2048 .f32).view
abbrev outV7 : View sig .tc .vmem S256x2048 .f32 := (Memref.whole cc0_stg7_0 : Memref sig .tc .vmem S256x2048 .f32).view

/-- The region's invariant between points, with the scratch as a buffer owned at some contents, beside the generator
    register: what the body is handed and gives back when nothing about the scratch is tracked. -/
theorem PhiA_eq (c : Dev nD) :
    (Pipeline.ΦA spec0 c : sProp 𝕄)
      = iprop(iprop((∃ d, owns (c : Thread nD τ) gates fullShare d)) ∗ (∃ r, prngReg c r)) := by
  unfold Pipeline.ΦA; rw [scopedRest0_eq]; simp only [gates, owns_whole]; try rfl

/-! ## Where the sixteen stores of a point land: slice `t % 4`, all 256 rows, columns `128 n … 128 n + 127` -/

theorem off1_at : ∀ t : Fin cfg0.N, k0_off1 (grid0.coords t) = ![t.val % 4, 0, 0] :=
  (by decide +kernel : ∀ t : Fin grid0.N, k0_off1 (grid0.coords t) = ![t.val % 4, 0, 0])
theorem off2_at : ∀ t : Fin cfg0.N, k0_off2 (grid0.coords t) = ![t.val % 4, 0, 128] :=
  (by decide +kernel : ∀ t : Fin grid0.N, k0_off2 (grid0.coords t) = ![t.val % 4, 0, 128])
theorem off3_at : ∀ t : Fin cfg0.N, k0_off3 (grid0.coords t) = ![t.val % 4, 0, 256] :=
  (by decide +kernel : ∀ t : Fin grid0.N, k0_off3 (grid0.coords t) = ![t.val % 4, 0, 256])
theorem off4_at : ∀ t : Fin cfg0.N, k0_off4 (grid0.coords t) = ![t.val % 4, 0, 384] :=
  (by decide +kernel : ∀ t : Fin grid0.N, k0_off4 (grid0.coords t) = ![t.val % 4, 0, 384])
theorem off5_at : ∀ t : Fin cfg0.N, k0_off5 (grid0.coords t) = ![t.val % 4, 0, 512] :=
  (by decide +kernel : ∀ t : Fin grid0.N, k0_off5 (grid0.coords t) = ![t.val % 4, 0, 512])
theorem off6_at : ∀ t : Fin cfg0.N, k0_off6 (grid0.coords t) = ![t.val % 4, 0, 640] :=
  (by decide +kernel : ∀ t : Fin grid0.N, k0_off6 (grid0.coords t) = ![t.val % 4, 0, 640])
theorem off7_at : ∀ t : Fin cfg0.N, k0_off7 (grid0.coords t) = ![t.val % 4, 0, 768] :=
  (by decide +kernel : ∀ t : Fin grid0.N, k0_off7 (grid0.coords t) = ![t.val % 4, 0, 768])
theorem off8_at : ∀ t : Fin cfg0.N, k0_off8 (grid0.coords t) = ![t.val % 4, 0, 896] :=
  (by decide +kernel : ∀ t : Fin grid0.N, k0_off8 (grid0.coords t) = ![t.val % 4, 0, 896])
theorem off9_at : ∀ t : Fin cfg0.N, k0_off9 (grid0.coords t) = ![t.val % 4, 0, 1024] :=
  (by decide +kernel : ∀ t : Fin grid0.N, k0_off9 (grid0.coords t) = ![t.val % 4, 0, 1024])
theorem off10_at : ∀ t : Fin cfg0.N, k0_off10 (grid0.coords t) = ![t.val % 4, 0, 1152] :=
  (by decide +kernel : ∀ t : Fin grid0.N, k0_off10 (grid0.coords t) = ![t.val % 4, 0, 1152])
theorem off11_at : ∀ t : Fin cfg0.N, k0_off11 (grid0.coords t) = ![t.val % 4, 0, 1280] :=
  (by decide +kernel : ∀ t : Fin grid0.N, k0_off11 (grid0.coords t) = ![t.val % 4, 0, 1280])
theorem off12_at : ∀ t : Fin cfg0.N, k0_off12 (grid0.coords t) = ![t.val % 4, 0, 1408] :=
  (by decide +kernel : ∀ t : Fin grid0.N, k0_off12 (grid0.coords t) = ![t.val % 4, 0, 1408])
theorem off13_at : ∀ t : Fin cfg0.N, k0_off13 (grid0.coords t) = ![t.val % 4, 0, 1536] :=
  (by decide +kernel : ∀ t : Fin grid0.N, k0_off13 (grid0.coords t) = ![t.val % 4, 0, 1536])
theorem off14_at : ∀ t : Fin cfg0.N, k0_off14 (grid0.coords t) = ![t.val % 4, 0, 1664] :=
  (by decide +kernel : ∀ t : Fin grid0.N, k0_off14 (grid0.coords t) = ![t.val % 4, 0, 1664])
theorem off15_at : ∀ t : Fin cfg0.N, k0_off15 (grid0.coords t) = ![t.val % 4, 0, 1792] :=
  (by decide +kernel : ∀ t : Fin grid0.N, k0_off15 (grid0.coords t) = ![t.val % 4, 0, 1792])
theorem off16_at : ∀ t : Fin cfg0.N, k0_off16 (grid0.coords t) = ![t.val % 4, 0, 1920] :=
  (by decide +kernel : ∀ t : Fin grid0.N, k0_off16 (grid0.coords t) = ![t.val % 4, 0, 1920])

end Cert.KernelIdeal.Body

end
-- ==== Proof.IRunGate.lean ====
/-
  The body at one of the first three gates of a batch tile (the branch not taken), for the program `KernelIdeal`.

  On whole staging buffers holding the six input blocks, the two result buffers holding `y6`, `y7` and the scratch
  holding `xs`, the body runs to its end leaving the inputs and the result buffers as they were and the scratch at
  `xs` overwritten by sixteen stores. The list of those stores (rectangle and value, last first) is found by running
  the body; it is the statement's first component, and depends on neither `xs` nor `y6`, `y7`.
-/
import proofs.«108846_j50087908606418_2_alg».proof.Proof.IStage

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The sixteen stores of a gate point (last first), with the body's run from any scratch contents `xs` to `xs`
    overwritten by them. -/
noncomputable def gateRun (c : Dev nD) (i : grid0.Coords) (arg2 : Memref sig .tc .vmem S256x2048 .bf16) (harg2 : arg2.IsWhole) (arg3 : Memref sig .tc .vmem S2048x2048 .bf16) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x128x128 .f32) (harg6 : arg6.IsWhole) (arg7 : Memref sig .tc .vmem S1x128x128 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S4x256x2048 .f32) (harg10 : arg10.IsWhole) (hc : ¬lastGate i)
    (x0 : Vec F S256x2048 .bf16) (x1 : Vec F S2048x2048 .bf16) (x2 : Vec F S256x2048 .f32) (x3 : Vec F S256x2048 .f32) (x4 : Vec F S1x128x128 .f32) (x5 : Vec F S1x128x128 .f32) :
    { LS : List (View.Piece (Elt F) S4x256x2048 .f32) //
      ∀ (xs : Vec F S4x256x2048 .f32) (y6 y7 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ (arg10.view.loc (c : Thread nD τ) ↦[arg10.view.set]{fullShare} arg10.view.writes (Elt F) (harg10.unread xs) LS)) -∗ K ⟨⟩))
          ⊢ wp frame (wpE (defs₀ (F := F)) Variants.none c none) E (cc0_kernel i arg2 harg2 arg3 harg3 arg4 harg4 arg5 harg5 arg6 harg6 arg7 harg7 arg8 harg8 arg9 harg9 arg10 harg10) K } := by
  refine ⟨?_, fun xs y6 y7 E K => ?run⟩
  case run =>
    simp only [cc0_kernel_eq_skeleton]; unfold cc0_kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexact HS

end Cert.KernelIdeal.Body

end
-- ==== Proof.IRunLast.lean ====
/-
  The body at the last gate of a batch tile (the branch taken), for the program `KernelIdeal`.

  As at the other gates the scratch, holding `xs`, is overwritten by sixteen stores (now into its last slice); then
  the four slices are read back, combined with the old cell block, and the new hidden and cell blocks are stored whole
  into the two result buffers. The three lists of stores are found by running the body: the scratch's depends on
  nothing the scratch held; the result buffers' are functions of `xs`, through the slices read back.
-/
import proofs.«108846_j50087908606418_2_alg».proof.Proof.IStage

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The stores of a last-gate point into the scratch and, for scratch contents `xs` on entry, into the hidden and the
    cell buffer (each list last first), with the body's run. -/
noncomputable def lastRun (c : Dev nD) (i : grid0.Coords) (arg2 : Memref sig .tc .vmem S256x2048 .bf16) (harg2 : arg2.IsWhole) (arg3 : Memref sig .tc .vmem S2048x2048 .bf16) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x128x128 .f32) (harg6 : arg6.IsWhole) (arg7 : Memref sig .tc .vmem S1x128x128 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S4x256x2048 .f32) (harg10 : arg10.IsWhole) (hc : lastGate i)
    (x0 : Vec F S256x2048 .bf16) (x1 : Vec F S2048x2048 .bf16) (x2 : Vec F S256x2048 .f32) (x3 : Vec F S256x2048 .f32) (x4 : Vec F S1x128x128 .f32) (x5 : Vec F S1x128x128 .f32) :
    Σ' (LS : List (View.Piece (Elt F) S4x256x2048 .f32)), (xs : Vec F S4x256x2048 .f32) →
      Σ' (L6 : List (View.Piece (Elt F) S256x2048 .f32)), { L7 : List (View.Piece (Elt F) S256x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (arg10.view.loc (c : Thread nD τ) ↦[arg10.view.set]{fullShare} arg10.view.writes (Elt F) (harg10.unread xs) LS)) -∗ K ⟨⟩))
          ⊢ wp frame (wpE (defs₀ (F := F)) Variants.none c none) E (cc0_kernel i arg2 harg2 arg3 harg3 arg4 harg4 arg5 harg5 arg6 harg6 arg7 harg7 arg8 harg8 arg9 harg9 arg10 harg10) K } := by
  refine ⟨?_, fun xs => ⟨?_, ?_, fun E K => ?run⟩⟩
  case run =>
    simp only [cc0_kernel_eq_skeleton]; unfold cc0_kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexact HS

end Cert.KernelIdeal.Body

end
-- ==== Proof.ISlices.lean ====
/-
  The proof data of the cell kernel's pipeline, and its body obligation, for the program `KernelIdeal`.

  Between the points of a batch tile the scratch carries the gates already computed: before point `n` its slices
  `0 … n % 4 − 1` hold what the points `n − n % 4 …` of the same tile stored there (`Tracks`); the other slices hold
  whatever they held. A point's sixteen stores land in slice `n % 4` and fill it (`stores_land`, `stores_fill`), so
  they leave the earlier slices alone and the invariant moves on by one slice; at the last gate all four slices are
  known when they are read back, so the two result blocks are one function of the tile's input blocks (`hidBlock`,
  `celBlock`), whatever else the scratch held.
-/
import proofs.«108846_j50087908606418_2_alg».proof.Proof.IRunGate
import proofs.«108846_j50087908606418_2_alg».proof.Proof.IRunLast

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A store of 128 columns of one slice -/

/-- An index under a store of all 256 rows and columns `col … col + 127` of slice `g` lies in that slice and those columns. -/
theorem unit_slab_mem {off : Fin 3 → ℕ} {inb : ∀ a, off a + S1x256x128.size a ≤ S4x256x2048.size a} {g col : ℕ}
    (hoff : off = ![g, 0, col]) (y : S4x256x2048.Idx)
    (hy : y ∈ (Rect.unit (s := S4x256x2048) off S1x256x128.size inb).set) :
    (y 0).val = g ∧ col ≤ (y 2).val ∧ (y 2).val < col + 128 := by
  subst hoff
  rw [Rect.mem_set_unit] at hy
  have h0 : g ≤ (y 0).val ∧ (y 0).val < g + 1 := hy 0
  have h2 : col ≤ (y 2).val ∧ (y 2).val < col + 128 := hy 2
  exact ⟨by omega, h2.1, h2.2⟩

/-- and conversely. -/
theorem mem_unit_slab {off : Fin 3 → ℕ} {inb : ∀ a, off a + S1x256x128.size a ≤ S4x256x2048.size a} {g col : ℕ}
    (hoff : off = ![g, 0, col]) (y : S4x256x2048.Idx) (h0 : (y 0).val = g) (hlo : col ≤ (y 2).val) (hhi : (y 2).val < col + 128) :
    y ∈ (Rect.unit (s := S4x256x2048) off S1x256x128.size inb).set := by
  subst hoff
  rw [Rect.mem_set_unit]
  have h1 : (y 1).val < 256 := (y 1).isLt
  intro a
  match a with
  | ⟨0, _⟩ => exact (show g ≤ (y 0).val ∧ (y 0).val < g + 1 from by omega)
  | ⟨1, _⟩ => exact (show 0 ≤ (y 1).val ∧ (y 1).val < 0 + 256 from by omega)
  | ⟨2, _⟩ => exact (show col ≤ (y 2).val ∧ (y 2).val < col + 128 from ⟨hlo, hhi⟩)

variable (m : (ℓ : Loc nD τ sig) → Buf (Elt F) ℓ) (ρ : Dev nD → PrngReg)

/-! ## The stores of a point -/

/-- The sixteen stores of point `t` into the scratch (last first), run at the point's buffers and input blocks. -/
def stores (c : Dev nD) (t : Fin cfg0.N) : List (View.Piece (Elt F) S4x256x2048 .f32) :=
  if h : t.val % 4 = 3 then
    (lastRun c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) gates gates_whole ((lastGate_iff t).mpr h) (iblk m c 0 t) (iblk m c 1 t) (iblk m c 2 t) (iblk m c 3 t) (iblk m c 4 t) (iblk m c 5 t)).1
  else
    (gateRun c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) gates gates_whole (fun hl => h ((lastGate_iff t).mp hl)) (iblk m c 0 t) (iblk m c 1 t) (iblk m c 2 t) (iblk m c 3 t) (iblk m c 4 t) (iblk m c 5 t)).1

set_option maxHeartbeats 1600000 in
/-- They land in slice `t % 4`: -/
theorem stores_land (c : Dev nD) (t : Fin cfg0.N) :
    ∀ p ∈ stores m c t, ∀ y : S4x256x2048.Idx, y ∈ p.1.set → (y 0).val = t.val % 4 := by
  intro p hp y hy
  unfold stores at hp
  split at hp
  · unfold lastRun at hp; dsimp only at hp; unfold lastRun.sl.HS_16 at hp
    simp only [List.mem_cons, List.not_mem_nil, _root_.or_false] at hp
    rcases hp with rfl | rfl | rfl | rfl | rfl | rfl | rfl | rfl | rfl | rfl | rfl | rfl | rfl | rfl | rfl | rfl
    · dsimp only at hy; exact (unit_slab_mem (off16_at t) y hy).1
    · dsimp only at hy; exact (unit_slab_mem (off15_at t) y hy).1
    · dsimp only at hy; exact (unit_slab_mem (off14_at t) y hy).1
    · dsimp only at hy; exact (unit_slab_mem (off13_at t) y hy).1
    · dsimp only at hy; exact (unit_slab_mem (off12_at t) y hy).1
    · dsimp only at hy; exact (unit_slab_mem (off11_at t) y hy).1
    · dsimp only at hy; exact (unit_slab_mem (off10_at t) y hy).1
    · dsimp only at hy; exact (unit_slab_mem (off9_at t) y hy).1
    · dsimp only at hy; exact (unit_slab_mem (off8_at t) y hy).1
    · dsimp only at hy; exact (unit_slab_mem (off7_at t) y hy).1
    · dsimp only at hy; exact (unit_slab_mem (off6_at t) y hy).1
    · dsimp only at hy; exact (unit_slab_mem (off5_at t) y hy).1
    · dsimp only at hy; exact (unit_slab_mem (off4_at t) y hy).1
    · dsimp only at hy; exact (unit_slab_mem (off3_at t) y hy).1
    · dsimp only at hy; exact (unit_slab_mem (off2_at t) y hy).1
    · dsimp only at hy; exact (unit_slab_mem (off1_at t) y hy).1
  · unfold gateRun at hp; dsimp only at hp
    simp only [List.mem_cons, List.not_mem_nil, _root_.or_false] at hp
    rcases hp with rfl | rfl | rfl | rfl | rfl | rfl | rfl | rfl | rfl | rfl | rfl | rfl | rfl | rfl | rfl | rfl
    · dsimp only at hy; exact (unit_slab_mem (off16_at t) y hy).1
    · dsimp only at hy; exact (unit_slab_mem (off15_at t) y hy).1
    · dsimp only at hy; exact (unit_slab_mem (off14_at t) y hy).1
    · dsimp only at hy; exact (unit_slab_mem (off13_at t) y hy).1
    · dsimp only at hy; exact (unit_slab_mem (off12_at t) y hy).1
    · dsimp only at hy; exact (unit_slab_mem (off11_at t) y hy).1
    · dsimp only at hy; exact (unit_slab_mem (off10_at t) y hy).1
    · dsimp only at hy; exact (unit_slab_mem (off9_at t) y hy).1
    · dsimp only at hy; exact (unit_slab_mem (off8_at t) y hy).1
    · dsimp only at hy; exact (unit_slab_mem (off7_at t) y hy).1
    · dsimp only at hy; exact (unit_slab_mem (off6_at t) y hy).1
    · dsimp only at hy; exact (unit_slab_mem (off5_at t) y hy).1
    · dsimp only at hy; exact (unit_slab_mem (off4_at t) y hy).1
    · dsimp only at hy; exact (unit_slab_mem (off3_at t) y hy).1
    · dsimp only at hy; exact (unit_slab_mem (off2_at t) y hy).1
    · dsimp only at hy; exact (unit_slab_mem (off1_at t) y hy).1

set_option maxHeartbeats 1600000 in
/-- and they fill it. -/
theorem stores_fill (c : Dev nD) (t : Fin cfg0.N) (y : S4x256x2048.Idx) (hy : (y 0).val = t.val % 4) :
    ∃ p ∈ stores m c t, y ∈ p.1.set := by
  have h2 : (y 2).val < 2048 := (y 2).isLt
  have hiv : (0 ≤ (y 2).val ∧ (y 2).val < 128) ∨ (128 ≤ (y 2).val ∧ (y 2).val < 256) ∨ (256 ≤ (y 2).val ∧ (y 2).val < 384) ∨ (384 ≤ (y 2).val ∧ (y 2).val < 512) ∨ (512 ≤ (y 2).val ∧ (y 2).val < 640) ∨ (640 ≤ (y 2).val ∧ (y 2).val < 768) ∨ (768 ≤ (y 2).val ∧ (y 2).val < 896) ∨ (896 ≤ (y 2).val ∧ (y 2).val < 1024) ∨ (1024 ≤ (y 2).val ∧ (y 2).val < 1152) ∨ (1152 ≤ (y 2).val ∧ (y 2).val < 1280) ∨ (1280 ≤ (y 2).val ∧ (y 2).val < 1408) ∨ (1408 ≤ (y 2).val ∧ (y 2).val < 1536) ∨ (1536 ≤ (y 2).val ∧ (y 2).val < 1664) ∨ (1664 ≤ (y 2).val ∧ (y 2).val < 1792) ∨ (1792 ≤ (y 2).val ∧ (y 2).val < 1920) ∨ (1920 ≤ (y 2).val ∧ (y 2).val < 2048) := by omega
  unfold stores
  split
  · unfold lastRun; dsimp only; unfold lastRun.sl.HS_16
    rcases hiv with h | h | h | h | h | h | h | h | h | h | h | h | h | h | h | h
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), ?_⟩; dsimp only; exact mem_unit_slab (off1_at t) y hy (by omega) (by omega)
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), ?_⟩; dsimp only; exact mem_unit_slab (off2_at t) y hy (by omega) (by omega)
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), ?_⟩; dsimp only; exact mem_unit_slab (off3_at t) y hy (by omega) (by omega)
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), ?_⟩; dsimp only; exact mem_unit_slab (off4_at t) y hy (by omega) (by omega)
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), ?_⟩; dsimp only; exact mem_unit_slab (off5_at t) y hy (by omega) (by omega)
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), ?_⟩; dsimp only; exact mem_unit_slab (off6_at t) y hy (by omega) (by omega)
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), ?_⟩; dsimp only; exact mem_unit_slab (off7_at t) y hy (by omega) (by omega)
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), ?_⟩; dsimp only; exact mem_unit_slab (off8_at t) y hy (by omega) (by omega)
    · refine ⟨_, (List.mem_cons_of_mem _ (List.mem_cons_of_mem _ (List.mem_cons_of_mem _ (List.mem_cons_of_mem _ (List.mem_cons_of_mem _ (List.mem_cons_of_mem _ (List.mem_cons_of_mem _ List.mem_cons_self))))))), ?_⟩; dsimp only; exact mem_unit_slab (off9_at t) y hy (by omega) (by omega)
    · refine ⟨_, (List.mem_cons_of_mem _ (List.mem_cons_of_mem _ (List.mem_cons_of_mem _ (List.mem_cons_of_mem _ (List.mem_cons_of_mem _ (List.mem_cons_of_mem _ List.mem_cons_self)))))), ?_⟩; dsimp only; exact mem_unit_slab (off10_at t) y hy (by omega) (by omega)
    · refine ⟨_, (List.mem_cons_of_mem _ (List.mem_cons_of_mem _ (List.mem_cons_of_mem _ (List.mem_cons_of_mem _ (List.mem_cons_of_mem _ List.mem_cons_self))))), ?_⟩; dsimp only; exact mem_unit_slab (off11_at t) y hy (by omega) (by omega)
    · refine ⟨_, (List.mem_cons_of_mem _ (List.mem_cons_of_mem _ (List.mem_cons_of_mem _ (List.mem_cons_of_mem _ List.mem_cons_self)))), ?_⟩; dsimp only; exact mem_unit_slab (off12_at t) y hy (by omega) (by omega)
    · refine ⟨_, (List.mem_cons_of_mem _ (List.mem_cons_of_mem _ (List.mem_cons_of_mem _ List.mem_cons_self))), ?_⟩; dsimp only; exact mem_unit_slab (off13_at t) y hy (by omega) (by omega)
    · refine ⟨_, (List.mem_cons_of_mem _ (List.mem_cons_of_mem _ List.mem_cons_self)), ?_⟩; dsimp only; exact mem_unit_slab (off14_at t) y hy (by omega) (by omega)
    · refine ⟨_, (List.mem_cons_of_mem _ List.mem_cons_self), ?_⟩; dsimp only; exact mem_unit_slab (off15_at t) y hy (by omega) (by omega)
    · refine ⟨_, List.mem_cons_self, ?_⟩; dsimp only; exact mem_unit_slab (off16_at t) y hy (by omega) (by omega)
  · unfold gateRun; dsimp only
    rcases hiv with h | h | h | h | h | h | h | h | h | h | h | h | h | h | h | h
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), ?_⟩; dsimp only; exact mem_unit_slab (off1_at t) y hy (by omega) (by omega)
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), ?_⟩; dsimp only; exact mem_unit_slab (off2_at t) y hy (by omega) (by omega)
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), ?_⟩; dsimp only; exact mem_unit_slab (off3_at t) y hy (by omega) (by omega)
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), ?_⟩; dsimp only; exact mem_unit_slab (off4_at t) y hy (by omega) (by omega)
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), ?_⟩; dsimp only; exact mem_unit_slab (off5_at t) y hy (by omega) (by omega)
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), ?_⟩; dsimp only; exact mem_unit_slab (off6_at t) y hy (by omega) (by omega)
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), ?_⟩; dsimp only; exact mem_unit_slab (off7_at t) y hy (by omega) (by omega)
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), ?_⟩; dsimp only; exact mem_unit_slab (off8_at t) y hy (by omega) (by omega)
    · refine ⟨_, (List.mem_cons_of_mem _ (List.mem_cons_of_mem _ (List.mem_cons_of_mem _ (List.mem_cons_of_mem _ (List.mem_cons_of_mem _ (List.mem_cons_of_mem _ (List.mem_cons_of_mem _ List.mem_cons_self))))))), ?_⟩; dsimp only; exact mem_unit_slab (off9_at t) y hy (by omega) (by omega)
    · refine ⟨_, (List.mem_cons_of_mem _ (List.mem_cons_of_mem _ (List.mem_cons_of_mem _ (List.mem_cons_of_mem _ (List.mem_cons_of_mem _ (List.mem_cons_of_mem _ List.mem_cons_self)))))), ?_⟩; dsimp only; exact mem_unit_slab (off10_at t) y hy (by omega) (by omega)
    · refine ⟨_, (List.mem_cons_of_mem _ (List.mem_cons_of_mem _ (List.mem_cons_of_mem _ (List.mem_cons_of_mem _ (List.mem_cons_of_mem _ List.mem_cons_self))))), ?_⟩; dsimp only; exact mem_unit_slab (off11_at t) y hy (by omega) (by omega)
    · refine ⟨_, (List.mem_cons_of_mem _ (List.mem_cons_of_mem _ (List.mem_cons_of_mem _ (List.mem_cons_of_mem _ List.mem_cons_self)))), ?_⟩; dsimp only; exact mem_unit_slab (off12_at t) y hy (by omega) (by omega)
    · refine ⟨_, (List.mem_cons_of_mem _ (List.mem_cons_of_mem _ (List.mem_cons_of_mem _ List.mem_cons_self))), ?_⟩; dsimp only; exact mem_unit_slab (off13_at t) y hy (by omega) (by omega)
    · refine ⟨_, (List.mem_cons_of_mem _ (List.mem_cons_of_mem _ List.mem_cons_self)), ?_⟩; dsimp only; exact mem_unit_slab (off14_at t) y hy (by omega) (by omega)
    · refine ⟨_, (List.mem_cons_of_mem _ List.mem_cons_self), ?_⟩; dsimp only; exact mem_unit_slab (off15_at t) y hy (by omega) (by omega)
    · refine ⟨_, List.mem_cons_self, ?_⟩; dsimp only; exact mem_unit_slab (off16_at t) y hy (by omega) (by omega)

end Cert.KernelIdeal.Body

end
-- ==== Proof.IData.lean ====
/-
  The proof data of the cell kernel's pipeline, its body obligation, its run and its frame, for the program `KernelIdeal`.

  Between the points of a batch tile the scratch carries the gates already computed: before point `n` its slices
  `0 … n % 4 − 1` hold what the points `n − n % 4, …` of the same tile stored there (`Tracks`), the other slices
  whatever they held. A point's sixteen stores land in slice `n % 4` and fill it, so they leave the earlier slices
  alone and the invariant moves on by one slice (`tracks_step`); at the last gate all four slices are known when they
  are read back (`all_slices`), so the two result blocks are one function of the tile's input blocks (`hidBlock`,
  `celBlock`), whatever else the scratch held.
-/
import proofs.«108846_j50087908606418_2_alg».proof.Proof.ISlices

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch carries -/

theorem N16 : cfg0.N = 16 := N_0

/-- Point `k` of the grid. -/
def pt (k : ℕ) (hk : k < 16) : Fin cfg0.N := ⟨k, lt_of_lt_of_eq hk N16.symm⟩

theorem slice_lt (y : S4x256x2048.Idx) : (y 0).val < 4 := (y 0).isLt

/-- The scratch after point `t`'s stores over contents nobody names: its slice `t % 4` is what the point computed. -/
def slab (c : Dev nD) (t : Fin cfg0.N) : Vec F S4x256x2048 .f32 :=
  gatesV.read (Elt F) (gatesV.writes (Elt F) gatesV.junk (stores m c t))

/-- Before point `n`: slice `s < n % 4` of the scratch holds what point `n − n % 4 + s` computed. -/
def Tracks (c : Dev nD) (n : ℕ) (xs : Vec F S4x256x2048 .f32) : Prop :=
  ∀ (y : S4x256x2048.Idx) (hy : (y 0).val < n % 4) (hk : n - n % 4 + (y 0).val < 16),
    xs y = slab m c (pt (n - n % 4 + (y 0).val) hk) y

/-- A gate point's stores move the invariant on by one slice. -/
theorem tracks_step (c : Dev nD) (t : Fin cfg0.N) (h : ¬t.val % 4 = 3) (xs : Vec F S4x256x2048 .f32) (hx : Tracks m c t.val xs) :
    Tracks m c (t.val + 1) (gatesV.read (Elt F) (gatesV.writes (Elt F) (gates_whole.unread xs) (stores m c t))) := by
  intro y hy hk
  have ht : t.val < 16 := lt_of_lt_of_eq t.isLt N16
  have hy0 := slice_lt y
  by_cases hg : (y 0).val = t.val % 4
  · rw [View.read_writes_apply_eq gatesV (gates_whole.unread xs) gatesV gatesV.junk y (stores m c t) (stores_fill m c t y hg)]
    have e : pt (t.val + 1 - (t.val + 1) % 4 + (y 0).val) hk = t := Fin.ext (by show t.val + 1 - (t.val + 1) % 4 + (y 0).val = t.val; omega)
    rw [e]; rfl
  · rw [View.read_writes_apply_of_forall_not_mem gatesV (gates_whole.unread xs) y (stores m c t)
      (fun p hp hmem => hg (stores_land m c t p hp y hmem))]
    rw [gates_whole.read_unread]
    have hk' : t.val - t.val % 4 + (y 0).val < 16 := by omega
    rw [hx y (by omega) hk']
    congr 1
    exact Fin.ext (by show t.val - t.val % 4 + (y 0).val = t.val + 1 - (t.val + 1) % 4 + (y 0).val; omega)

/-- At a last gate: the four slices as the tile's four points computed them. -/
def full (c : Dev nD) (t : Fin cfg0.N) (h : t.val % 4 = 3) : Vec F S4x256x2048 .f32 :=
  fun y => slab m c (pt (t.val - 3 + (y 0).val) (by have := slice_lt y; have := lt_of_lt_of_eq t.isLt N16; omega)) y

/-- After a last gate's stores the scratch holds exactly that, whatever its untracked slices held. -/
theorem all_slices (c : Dev nD) (t : Fin cfg0.N) (h : t.val % 4 = 3) (xs : Vec F S4x256x2048 .f32) (hx : Tracks m c t.val xs) :
    gatesV.read (Elt F) (gatesV.writes (Elt F) (gates_whole.unread xs) (stores m c t)) = full m c t h := by
  funext y
  have ht : t.val < 16 := lt_of_lt_of_eq t.isLt N16
  have hy0 := slice_lt y
  by_cases hg : (y 0).val = t.val % 4
  · rw [View.read_writes_apply_eq gatesV (gates_whole.unread xs) gatesV gatesV.junk y (stores m c t) (stores_fill m c t y hg)]
    show _ = slab m c (pt (t.val - 3 + (y 0).val) _) y
    have e : pt (t.val - 3 + (y 0).val) (by omega) = t := Fin.ext (by show t.val - 3 + (y 0).val = t.val; omega)
    rw [e]; rfl
  · rw [View.read_writes_apply_of_forall_not_mem gatesV (gates_whole.unread xs) y (stores m c t)
      (fun p hp hmem => hg (stores_land m c t p hp y hmem))]
    rw [gates_whole.read_unread]
    have hk' : t.val - t.val % 4 + (y 0).val < 16 := by omega
    rw [hx y (by omega) hk']
    show slab m c _ y = slab m c (pt (t.val - 3 + (y 0).val) _) y
    congr 1
    exact Fin.ext (by show t.val - t.val % 4 + (y 0).val = t.val - 3 + (y 0).val; omega)

theorem tracks_full (c : Dev nD) (t : Fin cfg0.N) (h : t.val % 4 = 3) : Tracks m c t.val (full m c t h) := by
  intro y hy hk
  show slab m c (pt (t.val - 3 + (y 0).val) _) y = slab m c _ y
  congr 1
  exact Fin.ext (by show t.val - 3 + (y 0).val = t.val - t.val % 4 + (y 0).val; omega)

/-- So the buffer's contents after the stores are the same from any tracked contents as from `full`. -/
theorem contents_eq (c : Dev nD) (t : Fin cfg0.N) (h : t.val % 4 = 3) (xs : Vec F S4x256x2048 .f32) (hx : Tracks m c t.val xs) :
    gatesV.writes (Elt F) (gates_whole.unread xs) (stores m c t)
      = gatesV.writes (Elt F) (gates_whole.unread (full m c t h)) (stores m c t) :=
  gates_whole.read_bijective.1 ((all_slices m c t h xs hx).trans (all_slices m c t h (full m c t h) (tracks_full m c t h)).symm)

/-! ## The two result blocks of a tile -/

/-- The new hidden block the last gate of a tile stores: its one store read back. -/
def hidBlock (c : Dev nD) (t : Fin cfg0.N) : Vec F S256x2048 .f32 :=
  if h : t.val % 4 = 3 then
    outV6.read (Elt F) (outV6.writes (Elt F) outV6.junk (((lastRun c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) gates gates_whole ((lastGate_iff t).mpr h) (iblk m c 0 t) (iblk m c 1 t) (iblk m c 2 t) (iblk m c 3 t) (iblk m c 4 t) (iblk m c 5 t))).2 (full m c t h)).1)
  else outV6.read (Elt F) outV6.junk

/-- The new cell block. -/
def celBlock (c : Dev nD) (t : Fin cfg0.N) : Vec F S256x2048 .f32 :=
  if h : t.val % 4 = 3 then
    outV7.read (Elt F) (outV7.writes (Elt F) outV7.junk (((lastRun c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) gates gates_whole ((lastGate_iff t).mpr h) (iblk m c 0 t) (iblk m c 1 t) (iblk m c 2 t) (iblk m c 3 t) (iblk m c 4 t) (iblk m c 5 t))).2 (full m c t h)).2.1)
  else outV7.read (Elt F) outV7.junk

set_option maxHeartbeats 1600000 in
/-- The result stores depend on the scratch's entry contents only through what the scratch holds after the point's own stores. -/
theorem results_eq (c : Dev nD) (t : Fin cfg0.N) (h : t.val % 4 = 3) (xs : Vec F S4x256x2048 .f32) (hx : Tracks m c t.val xs) :
    (((lastRun c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) gates gates_whole ((lastGate_iff t).mpr h) (iblk m c 0 t) (iblk m c 1 t) (iblk m c 2 t) (iblk m c 3 t) (iblk m c 4 t) (iblk m c 5 t))).2 xs).1 = (((lastRun c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) gates gates_whole ((lastGate_iff t).mpr h) (iblk m c 0 t) (iblk m c 1 t) (iblk m c 2 t) (iblk m c 3 t) (iblk m c 4 t) (iblk m c 5 t))).2 (full m c t h)).1
    ∧ (((lastRun c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) gates gates_whole ((lastGate_iff t).mpr h) (iblk m c 0 t) (iblk m c 1 t) (iblk m c 2 t) (iblk m c 3 t) (iblk m c 4 t) (iblk m c 5 t))).2 xs).2.1 = (((lastRun c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) gates gates_whole ((lastGate_iff t).mpr h) (iblk m c 0 t) (iblk m c 1 t) (iblk m c 2 t) (iblk m c 3 t) (iblk m c 4 t) (iblk m c 5 t))).2 (full m c t h)).2.1 := by
  have hc := contents_eq m c t h xs hx
  unfold stores at hc
  rw [dif_pos h] at hc
  unfold lastRun at hc ⊢
  dsimp only at hc ⊢
  unfold lastRun.sl.v261 lastRun.sl.v263 lastRun.sl.v265 lastRun.sl.v267
  rw [hc]
  exact ⟨rfl, rfl⟩

set_option maxHeartbeats 1600000 in
/-- What the hidden buffer reads after the last gate, from any tracked scratch. -/
theorem hid_read (c : Dev nD) (t : Fin cfg0.N) (h : t.val % 4 = 3) (xs : Vec F S4x256x2048 .f32) (hx : Tracks m c t.val xs)
    (f : (ms_6 t).view.ty.Contents (Elt F)) :
    (ms_6 t).view.read (Elt F) ((ms_6 t).view.writes (Elt F) f (((lastRun c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) gates gates_whole ((lastGate_iff t).mpr h) (iblk m c 0 t) (iblk m c 1 t) (iblk m c 2 t) (iblk m c 3 t) (iblk m c 4 t) (iblk m c 5 t))).2 xs).1) = hidBlock m c t := by
  unfold hidBlock
  rw [dif_pos h, (results_eq m c t h xs hx).1]
  exact View.read_writes_of_cover _ _ outV6 outV6.junk _
    (View.cover_of_tiledL (((lastRun c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) gates gates_whole ((lastGate_iff t).mpr h) (iblk m c 0 t) (iblk m c 1 t) (iblk m c 2 t) (iblk m c 3 t) (iblk m c 4 t) (iblk m c 5 t))).2 (full m c t h)).1 S256x2048.size (by sl_kernel_rfl))

set_option maxHeartbeats 1600000 in
/-- What the cell buffer reads. -/
theorem cel_read (c : Dev nD) (t : Fin cfg0.N) (h : t.val % 4 = 3) (xs : Vec F S4x256x2048 .f32) (hx : Tracks m c t.val xs)
    (f : (ms_7 t).view.ty.Contents (Elt F)) :
    (ms_7 t).view.read (Elt F) ((ms_7 t).view.writes (Elt F) f (((lastRun c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) gates gates_whole ((lastGate_iff t).mpr h) (iblk m c 0 t) (iblk m c 1 t) (iblk m c 2 t) (iblk m c 3 t) (iblk m c 4 t) (iblk m c 5 t))).2 xs).2.1) = celBlock m c t := by
  unfold celBlock
  rw [dif_pos h, (results_eq m c t h xs hx).2]
  exact View.read_writes_of_cover _ _ outV7 outV7.junk _
    (View.cover_of_tiledL (((lastRun c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) gates gates_whole ((lastGate_iff t).mpr h) (iblk m c 0 t) (iblk m c 1 t) (iblk m c 2 t) (iblk m c 3 t) (iblk m c 4 t) (iblk m c 5 t))).2 (full m c t h)).2.1 S256x2048.size (by sl_kernel_rfl))

/-! ## The proof data -/

/-- The region's invariant before point `n`: the scratch at tracked contents, beside the generator register. -/
def PhiT (c : Dev nD) (n : ℕ) : sProp 𝕄 :=
  iprop(iprop(∃ xs, ⌜Tracks m c n xs⌝ ∗ owns (c : Thread nD τ) gates fullShare xs) ∗ (∃ r, prngReg c r))

/-- The proof data of the pipeline on core `c`: the arrays as the region finds them; after the body at point `t` each
    input's buffer at its block, the hidden and cell buffers at the tile's result blocks; the invariant `PhiT`;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hidBlock m c t
    | ⟨7, _⟩ => celBlock m c t
  Φ t := PhiT m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = hidBlock m c t := by dsimp only [dats]
theorem after_7 (c : Dev nD) (t : Fin cfg0.N) : (dats m 0 c).after 7 t = celBlock m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
/-- The body at any point. At a last gate the scratch comes in tracked on three slices, the run stores the fourth
    and both result blocks, and the next point starts a new tile with nothing tracked; at the other gates the run
    stores one more slice and hands the result buffers back untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiT m c (t.val + 1) from rfl,
    show (dats m 0 c).Φ t.castSucc = PhiT m c t.val from rfl]
  have hN : t.val < 16 := lt_of_lt_of_eq t.isLt N16
  unfold PhiT
  by_cases h : t.val % 4 = 3
  · have hl : lastGate (grid0.coords t) := (lastGate_iff t).mpr h
    rw [show (dats m 0 c).leavesExact 0 t = owns (c : Thread nD τ) (ms_0 t) fullShare ((dats m 0 c).after 0 t) from by
      unfold Dat.leavesExact; rw [live_0 t], after_0]
    rw [show (dats m 0 c).leavesExact 1 t = owns (c : Thread nD τ) (ms_1 t) fullShare ((dats m 0 c).after 1 t) from by
      unfold Dat.leavesExact; rw [live_1 t], after_1]
    rw [show (dats m 0 c).leavesExact 2 t = owns (c : Thread nD τ) (ms_2 t) fullShare ((dats m 0 c).after 2 t) from by
      unfold Dat.leavesExact; rw [live_2 t], after_2]
    rw [show (dats m 0 c).leavesExact 3 t = owns (c : Thread nD τ) (ms_3 t) fullShare ((dats m 0 c).after 3 t) from by
      unfold Dat.leavesExact; rw [live_3 t], after_3]
    rw [show (dats m 0 c).leavesExact 4 t = owns (c : Thread nD τ) (ms_4 t) fullShare ((dats m 0 c).after 4 t) from by
      unfold Dat.leavesExact; rw [live_4 t], after_4]
    rw [show (dats m 0 c).leavesExact 5 t = owns (c : Thread nD τ) (ms_5 t) fullShare ((dats m 0 c).after 5 t) from by
      unfold Dat.leavesExact; rw [live_5 t], after_5]
    rw [show (dats m 0 c).leavesExact 6 t = owns (c : Thread nD τ) (ms_6 t) fullShare ((dats m 0 c).after 6 t) from by
      unfold Dat.leavesExact; rw [live_6 t hl], after_6]
    rw [show (dats m 0 c).leavesExact 7 t = owns (c : Thread nD τ) (ms_7 t) fullShare ((dats m 0 c).after 7 t) from by
      unfold Dat.leavesExact; rw [live_7 t hl], after_7]
    iintro ⟨⟨⟨%xs, %hx, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((((lastRun c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) gates gates_whole ((lastGate_iff t).mpr h) (iblk m c 0 t) (iblk m c 1 t) (iblk m c 2 t) (iblk m c 3 t) (iblk m c 4 t) (iblk m c 5 t))).2 xs).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, ⟨%e6, H6⟩, ⟨%e7, H7⟩, HS⟩
    isplitl [HS Hg]
    · isplitl [HS]
      · iexists _; isplitr; swap
        · unfold owns; iexists _; isplitr; swap; · iexact HS
          ipureintro; rfl
        ipureintro; exact fun y hy _ => absurd hy (by omega)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr; swap; · iexact H6
      ipureintro; exact hid_read m c t h xs hx _
    unfold owns; iexists _; isplitr; swap; · iexact H7
    ipureintro; exact cel_read m c t h xs hx _
  · have hl : ¬lastGate (grid0.coords t) := fun hh => h ((lastGate_iff t).mp hh)
    rw [show (dats m 0 c).leavesExact 0 t = owns (c : Thread nD τ) (ms_0 t) fullShare ((dats m 0 c).after 0 t) from by
      unfold Dat.leavesExact; rw [live_0 t], after_0]
    rw [show (dats m 0 c).leavesExact 1 t = owns (c : Thread nD τ) (ms_1 t) fullShare ((dats m 0 c).after 1 t) from by
      unfold Dat.leavesExact; rw [live_1 t], after_1]
    rw [show (dats m 0 c).leavesExact 2 t = owns (c : Thread nD τ) (ms_2 t) fullShare ((dats m 0 c).after 2 t) from by
      unfold Dat.leavesExact; rw [live_2 t], after_2]
    rw [show (dats m 0 c).leavesExact 3 t = owns (c : Thread nD τ) (ms_3 t) fullShare ((dats m 0 c).after 3 t) from by
      unfold Dat.leavesExact; rw [live_3 t], after_3]
    rw [show (dats m 0 c).leavesExact 4 t = owns (c : Thread nD τ) (ms_4 t) fullShare ((dats m 0 c).after 4 t) from by
      unfold Dat.leavesExact; rw [live_4 t], after_4]
    rw [show (dats m 0 c).leavesExact 5 t = owns (c : Thread nD τ) (ms_5 t) fullShare ((dats m 0 c).after 5 t) from by
      unfold Dat.leavesExact; rw [live_5 t], after_5]
    rw [Dat.leavesExact_idle (dats m 0 c) 6 t (idle_6 t hl) (noFlush_6 t hl)]
    rw [Dat.leavesExact_idle (dats m 0 c) 7 t (idle_7 t hl) (noFlush_7 t hl)]
    iintro ⟨⟨⟨%xs, %hx, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (((gateRun c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) gates gates_whole (fun hl => h ((lastGate_iff t).mp hl)) (iblk m c 0 t) (iblk m c 1 t) (iblk m c 2 t) (iblk m c 3 t) (iblk m c 4 t) (iblk m c 5 t))).2 xs _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS Hg]
    · isplitl [HS]
      · iexists _; isplitr; swap
        · unfold owns; iexists _; isplitr; swap; · iexact HS
          ipureintro; rfl
        ipureintro
        have e : ((gateRun c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) gates gates_whole (fun hl => h ((lastGate_iff t).mp hl)) (iblk m c 0 t) (iblk m c 1 t) (iblk m c 2 t) (iblk m c 3 t) (iblk m c 4 t) (iblk m c 5 t))).1 = stores m c t := by unfold stores; rw [dif_neg h]
        rw [e]
        exact tracks_step m c t h xs hx
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point nothing is tracked: the launch's invariant is ours. -/
theorem hin (c : Dev nD) : Pipeline.ΦA spec0 c ⊢ (dats m 0 c).Φ 0 := by
  rw [show (dats m 0 c).Φ 0 = PhiT m c 0 from rfl, PhiA_eq]
  unfold PhiT
  iintro ⟨⟨%d, HS⟩, Hg⟩
  isplitl [HS]
  · iexists d; isplitr
    · ipureintro; exact fun y hy _ => absurd hy (by omega)
    iexact HS
  iexact Hg

/-- After the last point what was tracked is forgotten. -/
theorem hout (c : Dev nD) : (dats m 0 c).Φ (Fin.last cfg0.N) ⊢ Pipeline.ΦA spec0 c := by
  rw [show (dats m 0 c).Φ (Fin.last cfg0.N) = PhiT m c (Fin.last cfg0.N).val from rfl, PhiA_eq]
  unfold PhiT
  iintro ⟨⟨%xs, %hx, HS⟩, Hg⟩
  isplitl [HS]
  · iexists xs; iexact HS
  iexact Hg

/-! ## The run and the frame -/

set_option backward.isDefEq.respectTransparency.types false in
/-- Every weakly fair execution of @main terminates, every array of the pipeline ending at what the library computes
    from the proof data and every other unscoped buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: @main terminates with its six argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.Spec.lean ====
/-
  The block-Kronecker LSTM cell as ONE function of its six argument arrays, over the extended reals.

  A row `b` of the hidden state `h` (2048 wide) is sixteen chunks of 128 lanes; column `k * 128 + i` is lane `i` of
  chunk `k`. Gate `g` (0 input, 1 forget, 2 cell, 3 output) of row `b`, chunk `k`, lane `i` has the pre-activation
      (  Σ_q x[b, q] · W[g·2048 + k·128 + i, q]
       + Σ_j h[b, k·128 + j] · (A[g, i, j] − B[g, i, j]) )
       + Σ_j s[b, j] · B[g, i, j],                       s[b, j] = 0 + h[b, j] + h[b, 128 + j] + … + h[b, 1920 + j]
  (the sixteen chunks added left to right onto zero), passed through tanh for the cell gate and through the logistic
  function for the other three. The new cell state is  f · c + i · g  and the new hidden state  o · tanh(new cell state).
-/
import Idealize.ShloMosaic.PureOps.Ideal
import Idealize.ShloMosaic.Lib.ValueIdx

noncomputable section

open scoped BigOperators

namespace Cert.KronLstm

open Idealize.ShloMosaic Idealize.ShloMosaic.ValueIdx

/-- A rank-2 array of extended reals. -/
abbrev Mat (r c : Nat) : Type := (⟨2, ![r, c]⟩ : Shape).Idx → EReal
/-- A rank-3 array of extended reals. -/
abbrev Ten (a b c : Nat) : Type := (⟨3, ![a, b, c]⟩ : Shape).Idx → EReal

/-- Column `k · 128 + j` of a 2048-wide row: lane `j` of chunk `k`. -/
def col (k : Fin 16) (j : Fin 128) : Fin 2048 := ⟨k.val * 128 + j.val, by omega⟩

/-- Row `g · 2048 + k · 128 + i` of the stacked input weights: gate `g`, chunk `k`, lane `i`. -/
def wrow (g : Fin 4) (k : Fin 16) (i : Fin 128) : Fin 8192 := ⟨g.val * 2048 + k.val * 128 + i.val, by omega⟩

/-- The input projection `(x Wᵀ)[b, g·2048 + k·128 + i]`. -/
def lin (x : Mat 1024 2048) (W : Mat 8192 2048) (b : Fin 1024) (g : Fin 4) (k : Fin 16) (i : Fin 128) : EReal :=
  ∑ q : Fin 2048, x (ix2 b q) * W (ix2 (wrow g k i) q)

/-- Lane `j` of the sum of the sixteen chunks of row `b` of `h`, added left to right onto zero. -/
def chunkSum (h : Mat 1024 2048) (b : Fin 1024) (j : Fin 128) : EReal :=
  0 + h (ix2 b (col 0 j)) + h (ix2 b (col 1 j)) + h (ix2 b (col 2 j)) + h (ix2 b (col 3 j))
    + h (ix2 b (col 4 j)) + h (ix2 b (col 5 j)) + h (ix2 b (col 6 j)) + h (ix2 b (col 7 j))
    + h (ix2 b (col 8 j)) + h (ix2 b (col 9 j)) + h (ix2 b (col 10 j)) + h (ix2 b (col 11 j))
    + h (ix2 b (col 12 j)) + h (ix2 b (col 13 j)) + h (ix2 b (col 14 j)) + h (ix2 b (col 15 j))

/-- The chunk's own term: `Σ_j h[b, k·128 + j] · (A[g, i, j] − B[g, i, j])`. -/
def ownTerm (h : Mat 1024 2048) (A B : Ten 4 128 128) (b : Fin 1024) (g : Fin 4) (k : Fin 16) (i : Fin 128) : EReal :=
  ∑ j : Fin 128, h (ix2 b (col k j)) * (A (ix3 g i j) - B (ix3 g i j))

/-- The term every chunk of a gate shares: `Σ_j s[b, j] · B[g, i, j]`. -/
def sharedTerm (h : Mat 1024 2048) (B : Ten 4 128 128) (b : Fin 1024) (g : Fin 4) (i : Fin 128) : EReal :=
  ∑ j : Fin 128, chunkSum h b j * B (ix3 g i j)

/-- Gate `g`'s pre-activation at row `b`, chunk `k`, lane `i`. -/
def pre (x : Mat 1024 2048) (W : Mat 8192 2048) (h : Mat 1024 2048) (A B : Ten 4 128 128)
    (b : Fin 1024) (g : Fin 4) (k : Fin 16) (i : Fin 128) : EReal :=
  lin x W b g k i + ownTerm h A B b g k i + sharedTerm h B b g i

/-- tanh for the cell gate (gate 2), the logistic function for the other three. -/
def act (g : Fin 4) (v : EReal) : EReal := if g.val = 2 then Ideal.tanh v else Ideal.logistic v

/-- Gate `g` at row `b`, chunk `k`, lane `i`. -/
def gate (x : Mat 1024 2048) (W : Mat 8192 2048) (h : Mat 1024 2048) (A B : Ten 4 128 128)
    (b : Fin 1024) (g : Fin 4) (k : Fin 16) (i : Fin 128) : EReal :=
  act g (pre x W h A B b g k i)

/-- The new cell state at row `b`, chunk `k`, lane `i`: forget · old cell + input · cell gate. -/
def cellAt (x : Mat 1024 2048) (W : Mat 8192 2048) (h c : Mat 1024 2048) (A B : Ten 4 128 128)
    (b : Fin 1024) (k : Fin 16) (i : Fin 128) : EReal :=
  gate x W h A B b 1 k i * c (ix2 b (col k i)) + gate x W h A B b 0 k i * gate x W h A B b 2 k i

/-- The new hidden state there: output gate · tanh of the new cell state. -/
def hiddenAt (x : Mat 1024 2048) (W : Mat 8192 2048) (h c : Mat 1024 2048) (A B : Ten 4 128 128)
    (b : Fin 1024) (k : Fin 16) (i : Fin 128) : EReal :=
  gate x W h A B b 3 k i * Ideal.tanh (cellAt x W h c A B b k i)

/-- The chunk of a column. -/
def chunkOf (q : Fin 2048) : Fin 16 := ⟨q.val / 128, by omega⟩
/-- The lane of a column. -/
def laneOf (q : Fin 2048) : Fin 128 := ⟨q.val % 128, by omega⟩

theorem col_chunkOf_laneOf (q : Fin 2048) : col (chunkOf q) (laneOf q) = q :=
  Fin.ext (by show q.val / 128 * 128 + q.val % 128 = q.val; omega)

/-- THE NEW CELL STATE, as a whole array. -/
def newCell (x : Mat 1024 2048) (W : Mat 8192 2048) (h c : Mat 1024 2048) (A B : Ten 4 128 128) : Mat 1024 2048 :=
  fun y => cellAt x W h c A B (y 0) (chunkOf (y 1)) (laneOf (y 1))

/-- THE NEW HIDDEN STATE, as a whole array. -/
def newHidden (x : Mat 1024 2048) (W : Mat 8192 2048) (h c : Mat 1024 2048) (A B : Ten 4 128 128) : Mat 1024 2048 :=
  fun y => hiddenAt x W h c A B (y 0) (chunkOf (y 1)) (laneOf (y 1))

end Cert.KronLstm

end
-- ==== Proof.IBlocks.lean ====
/-
  The blocks the pipeline stages at a grid point, read off the six argument arrays at the extended reals.

  Point `t` is batch tile `t / 4` and gate `t % 4`: the blocks of x, h and c are rows `256 (t / 4) …` of those arrays,
  the block of the input weights is rows `2048 (t % 4) …` of W, the blocks of A and B are their slice `t % 4`. The two
  arrays the host narrows before the region are, at the extended reals, the arguments themselves.
-/
import proofs.«108846_j50087908606418_2_alg».proof.Proof.IData
import proofs.«108846_j50087908606418_2_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KronLstm

variable (m : (ℓ : Loc nD τ sig) → Buf (Elt Idealize.ShloMosaic.Ideal) ℓ) (ρ : Dev nD → PrngReg)

/-! ## The windows' blocks, read off the argument arrays -/

/-- The printed index maps over the grid: the batch windows follow the tile `t / 4`, the weight windows the gate `t % 4`. -/
theorem blk_idx : ∀ t : Fin cfg0.N,
    win0_0.index t (0 : Fin 2) = t.val / 4 ∧ win0_0.index t (1 : Fin 2) = 0
  ∧ win0_1.index t (0 : Fin 2) = t.val % 4 ∧ win0_1.index t (1 : Fin 2) = 0
  ∧ win0_2.index t (0 : Fin 2) = t.val / 4 ∧ win0_2.index t (1 : Fin 2) = 0
  ∧ win0_3.index t (0 : Fin 2) = t.val / 4 ∧ win0_3.index t (1 : Fin 2) = 0
  ∧ win0_4.index t (0 : Fin 3) = t.val % 4 ∧ win0_4.index t (1 : Fin 3) = 0 ∧ win0_4.index t (2 : Fin 3) = 0
  ∧ win0_5.index t (0 : Fin 3) = t.val % 4 ∧ win0_5.index t (1 : Fin 3) = 0 ∧ win0_5.index t (2 : Fin 3) = 0
  ∧ win0_6.index t (0 : Fin 2) = t.val / 4 ∧ win0_6.index t (1 : Fin 2) = 0
  ∧ win0_7.index t (0 : Fin 2) = t.val / 4 ∧ win0_7.index t (1 : Fin 2) = 0 :=
  (by decide +kernel : ∀ t : Fin grid0.N, _)

/-- The gate coordinate of point `t`. -/
theorem gate_coord : ∀ t : Fin cfg0.N, ((grid0.coords t) 1).val = t.val % 4 :=
  (by decide +kernel : ∀ t : Fin grid0.N, ((grid0.coords t) 1).val = t.val % 4)

/-- The two arrays the host narrows before the region hold, at the extended reals, the arguments themselves. -/
theorem V_v0 (c : Dev nD) : (V m c main_v0 : S1024x2048.Idx → EReal) = m ((c : Thread nD τ).loc main_arg0) := by
  dsimp only [V, hostOps0]; after_results; rfl

theorem V_v1 (c : Dev nD) : (V m c main_v1 : S8192x2048.Idx → EReal) = m ((c : Thread nD τ).loc main_arg3) := by
  dsimp only [V, hostOps0]; after_results; rfl

/-- Row `256 (t / 4) + r` of a batch array. -/
def rowOf (t : Fin cfg0.N) (r : Fin 256) : Fin 1024 :=
  ⟨256 * (t.val / 4) + r.val, by have := lt_of_lt_of_eq t.isLt N16; omega⟩

/-- Row `2048 (t % 4) + a` of the stacked input weights. -/
def wRowOf (t : Fin cfg0.N) (a : Fin 2048) : Fin 8192 :=
  ⟨2048 * (t.val % 4) + a.val, by omega⟩

/-- Gate `t % 4`. -/
def gateOf (t : Fin cfg0.N) : Fin 4 := ⟨t.val % 4, by omega⟩

theorem x_blk (c : Dev nD) (t : Fin cfg0.N) (r : Fin 256) (q : Fin 2048) :
    iblk m c 0 t (ix2 r q) = m ((c : Thread nD τ).loc main_arg0) (ix2 (rowOf t r) q) := by
  unfold iblk
  show V m c main_v0 (((cfg0.win 0).blk t).view.emb (ix2 r q)) = _
  rw [V_v0]
  obtain ⟨e0, e1, -⟩ := blk_idx t
  congr 1; funext a; apply Fin.ext
  match a with
  | ⟨0, _⟩ => show win0_0.index t (0 : Fin 2) * 256 + 1 * r.val = 256 * (t.val / 4) + r.val; omega
  | ⟨1, _⟩ => show win0_0.index t (1 : Fin 2) * 2048 + 1 * q.val = q.val; omega

theorem w_blk (c : Dev nD) (t : Fin cfg0.N) (a : Fin 2048) (q : Fin 2048) :
    iblk m c 1 t (ix2 a q) = m ((c : Thread nD τ).loc main_arg3) (ix2 (wRowOf t a) q) := by
  unfold iblk
  show V m c main_v1 (((cfg0.win 1).blk t).view.emb (ix2 a q)) = _
  rw [V_v1]
  obtain ⟨-, -, e0, e1, -⟩ := blk_idx t
  congr 1; funext b; apply Fin.ext
  match b with
  | ⟨0, _⟩ => show win0_1.index t (0 : Fin 2) * 2048 + 1 * a.val = 2048 * (t.val % 4) + a.val; omega
  | ⟨1, _⟩ => show win0_1.index t (1 : Fin 2) * 2048 + 1 * q.val = q.val; omega

theorem h_blk (c : Dev nD) (t : Fin cfg0.N) (r : Fin 256) (q : Fin 2048) :
    iblk m c 2 t (ix2 r q) = m ((c : Thread nD τ).loc main_arg1) (ix2 (rowOf t r) q) := by
  unfold iblk
  show V m c main_arg1 (((cfg0.win 2).blk t).view.emb (ix2 r q)) = _
  rw [V_main_arg1]
  obtain ⟨-, -, -, -, e0, e1, -⟩ := blk_idx t
  congr 1; funext a; apply Fin.ext
  match a with
  | ⟨0, _⟩ => show win0_2.index t (0 : Fin 2) * 256 + 1 * r.val = 256 * (t.val / 4) + r.val; omega
  | ⟨1, _⟩ => show win0_2.index t (1 : Fin 2) * 2048 + 1 * q.val = q.val; omega

theorem c_blk (c : Dev nD) (t : Fin cfg0.N) (r : Fin 256) (q : Fin 2048) :
    iblk m c 3 t (ix2 r q) = m ((c : Thread nD τ).loc main_arg2) (ix2 (rowOf t r) q) := by
  unfold iblk
  show V m c main_arg2 (((cfg0.win 3).blk t).view.emb (ix2 r q)) = _
  rw [V_main_arg2]
  obtain ⟨-, -, -, -, -, -, e0, e1, -⟩ := blk_idx t
  congr 1; funext a; apply Fin.ext
  match a with
  | ⟨0, _⟩ => show win0_3.index t (0 : Fin 2) * 256 + 1 * r.val = 256 * (t.val / 4) + r.val; omega
  | ⟨1, _⟩ => show win0_3.index t (1 : Fin 2) * 2048 + 1 * q.val = q.val; omega

theorem a_blk (c : Dev nD) (t : Fin cfg0.N) (z : Fin 1) (i j : Fin 128) :
    iblk m c 4 t (ix3 z i j) = m ((c : Thread nD τ).loc main_arg4) (ix3 (gateOf t) i j) := by
  unfold iblk
  show V m c main_arg4 (((cfg0.win 4).blk t).view.emb (ix3 z i j)) = _
  rw [V_main_arg4]
  obtain ⟨-, -, -, -, -, -, -, -, e0, e1, e2, -⟩ := blk_idx t
  have hz : z.val = 0 := by omega
  congr 1; funext a; apply Fin.ext
  match a with
  | ⟨0, _⟩ => show win0_4.index t (0 : Fin 3) * 1 + 1 * z.val = t.val % 4; omega
  | ⟨1, _⟩ => show win0_4.index t (1 : Fin 3) * 128 + 1 * i.val = i.val; omega
  | ⟨2, _⟩ => show win0_4.index t (2 : Fin 3) * 128 + 1 * j.val = j.val; omega

theorem b_blk (c : Dev nD) (t : Fin cfg0.N) (z : Fin 1) (i j : Fin 128) :
    iblk m c 5 t (ix3 z i j) = m ((c : Thread nD τ).loc main_arg5) (ix3 (gateOf t) i j) := by
  unfold iblk
  show V m c main_arg5 (((cfg0.win 5).blk t).view.emb (ix3 z i j)) = _
  rw [V_main_arg5]
  obtain ⟨-, -, -, -, -, -, -, -, -, -, -, e0, e1, e2, -⟩ := blk_idx t
  have hz : z.val = 0 := by omega
  congr 1; funext a; apply Fin.ext
  match a with
  | ⟨0, _⟩ => show win0_5.index t (0 : Fin 3) * 1 + 1 * z.val = t.val % 4; omega
  | ⟨1, _⟩ => show win0_5.index t (1 : Fin 3) * 128 + 1 * i.val = i.val; omega
  | ⟨2, _⟩ => show win0_5.index t (2 : Fin 3) * 128 + 1 * j.val = j.val; omega

end Cert.KernelIdeal.Body

end
-- ==== Proof.IResultValue.lean ====
/-
  The two result blocks of the cell kernel's last step, read at an index.

  The four gate slices read back from the scratch are `[1, 256, 2048]` blocks; viewed as `[256, 2048]` they are combined
  with the old cell block into the new cell block, forget · old cell + input · cell gate, and the new hidden block,
  output · tanh (new cell).
-/
import proofs.«108846_j50087908606418_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.GateValue

open Cert.KernelIdeal Cert.KernelIdeal.Gen Idealize.ShloMosaic Idealize.ShloMosaic.ValueIdx

/-- The new cell block at row `r`, column `q`. -/
theorem pay1_at (v261 v263 v265 : Vec Ideal S1x256x2048 .f32) (v269 : Vec Ideal S256x2048 .f32) (r : Fin 256) (q : Fin 2048) :
    k0_pay1 (F := Ideal) v261 v263 v265 v269 (ix2 r q)
      = v263 (ix3 0 r q) * v269 (ix2 r q) + v261 (ix3 0 r q) * v265 (ix3 0 r q) := by
  have e1 := shapeCast_1ab_ab_apply v261 shapeCasts_S1x256x2048_S256x2048 r q
  have e3 := shapeCast_1ab_ab_apply v263 shapeCasts_S1x256x2048_S256x2048 r q
  have e5 := shapeCast_1ab_ab_apply v265 shapeCasts_S1x256x2048_S256x2048 r q
  show shapeCast S256x2048 v263 shapeCasts_S1x256x2048_S256x2048 (ix2 r q) * v269 (ix2 r q)
      + shapeCast S256x2048 v261 shapeCasts_S1x256x2048_S256x2048 (ix2 r q)
        * shapeCast S256x2048 v265 shapeCasts_S1x256x2048_S256x2048 (ix2 r q) = _
  rw [e1, e3, e5]

/-- The new hidden block there. -/
theorem pay2_at (v261 v263 v265 v267 : Vec Ideal S1x256x2048 .f32) (v269 : Vec Ideal S256x2048 .f32) (r : Fin 256)
    (q : Fin 2048) :
    k0_pay2 (F := Ideal) v261 v263 v265 v267 v269 (ix2 r q)
      = v267 (ix3 0 r q) * Ideal.tanh (v263 (ix3 0 r q) * v269 (ix2 r q) + v261 (ix3 0 r q) * v265 (ix3 0 r q)) := by
  have e7 := shapeCast_1ab_ab_apply v267 shapeCasts_S1x256x2048_S256x2048 r q
  show shapeCast S256x2048 v267 shapeCasts_S1x256x2048_S256x2048 (ix2 r q)
      * Ideal.tanh (k0_pay1 (F := Ideal) v261 v263 v265 v269 (ix2 r q)) = _
  rw [e7, pay1_at]

end Cert.KernelIdeal.GateValue

end
-- ==== Proof.IResults.lean ====
/-
  The result blocks of a batch tile at the extended reals, in terms of the four gate slices.

  At the last gate of a tile the scratch holds the four slices the tile's points computed (`full`); the hidden block
  is  o · tanh(f · c + i · g)  and the cell block  f · c + i · g  of those slices and the old cell block, entry by entry.
-/
import proofs.«108846_j50087908606418_2_alg».proof.Proof.IBlocks
import proofs.«108846_j50087908606418_2_alg».proof.Proof.IResultValue

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Idealize.ShloMosaic.Ideal) ℓ) (ρ : Dev nD → PrngReg)

/-- The element a load of slice `g` reads at (0, r, q) is (g, r, q). -/
theorem slice_idx (g : ℕ) (hg : g < 4) (inb : ∀ a, (![g, 0, 0] : Fin 3 → ℕ) a + S1x256x2048.size a ≤ S4x256x2048.size a)
    (r : Fin 256) (q : Fin 2048) :
    (Rect.unit (s := S4x256x2048) ![g, 0, 0] S1x256x2048.size inb).toLoadRect.idx (ix3 (0 : Fin 1) r q) = ix3 (⟨g, hg⟩ : Fin 4) r q := by
  funext a; apply Fin.ext
  match a with
  | ⟨0, _⟩ => show g + 1 * 0 = g; omega
  | ⟨1, _⟩ => show 0 + 1 * r.val = r.val; omega
  | ⟨2, _⟩ => show 0 + 1 * q.val = q.val; omega

/-- The element a load of a whole 256 × 2048 block reads at (r, q) is (r, q). -/
theorem whole_idx (inb : ∀ a, (![0, 0] : Fin 2 → ℕ) a + S256x2048.size a ≤ S256x2048.size a) (r : Fin 256) (q : Fin 2048) :
    (Rect.unit (s := S256x2048) ![0, 0] S256x2048.size inb).toLoadRect.idx (ix2 r q) = ix2 r q := by
  funext a; apply Fin.ext
  match a with
  | ⟨0, _⟩ => show 0 + 1 * r.val = r.val; omega
  | ⟨1, _⟩ => show 0 + 1 * q.val = q.val; omega

set_option maxHeartbeats 1600000 in
/-- Entry (r, q) of a tile's hidden block. -/
theorem hid_at (c : Dev nD) (t : Fin cfg0.N) (h3 : t.val % 4 = 3) (r : Fin 256) (q : Fin 2048) :
    hidBlock m c t (ix2 r q)
      = full m c t h3 (ix3 (3 : Fin 4) r q) * Ideal.tanh (full m c t h3 (ix3 (1 : Fin 4) r q) * iblk m c 3 t (ix2 r q)
          + full m c t h3 (ix3 (0 : Fin 4) r q) * full m c t h3 (ix3 (2 : Fin 4) r q)) := by
  have hs : stores m c t = lastRun.sl.HS_16 c (grid0.coords t) (ms_0 t) (hs_0 t) (ms_1 t) (hs_1 t) (ms_2 t) (hs_2 t) (ms_4 t) (hs_4 t) (ms_5 t) (hs_5 t) (iblk m c 0 t) (iblk m c 1 t) (iblk m c 2 t) (iblk m c 4 t) (iblk m c 5 t) := by
    unfold stores; rw [dif_pos h3]; rfl
  have hall := all_slices m c t h3 (full m c t h3) (tracks_full m c t h3)
  rw [hs] at hall
  unfold hidBlock
  rw [dif_pos h3]
  unfold lastRun
  dsimp only
  unfold lastRun.sl.v261 lastRun.sl.v263 lastRun.sl.v265 lastRun.sl.v267
  refine (View.read_writes_cons_unit_of_mem outV6 outV6.junk inb_S256x2048_S256x2048_0_0 _ [] (ix2 r q) (ix2 r q) rfl (fun a => by
    match a with
    | ⟨0, _⟩ => show r.val = 0 + r.val; omega
    | ⟨1, _⟩ => show q.val = 0 + q.val; omega)).trans ?_
  refine (GateValue.pay2_at _ _ _ _ _ r q).trans ?_
  simp only [View.readAt_apply]
  rw [hall, slice_idx 0 (by omega), slice_idx 1 (by omega), slice_idx 2 (by omega), slice_idx 3 (by omega), (hs_3 t).read_unread, whole_idx]
  rfl

set_option maxHeartbeats 1600000 in
/-- Entry (r, q) of a tile's cell block. -/
theorem cel_at (c : Dev nD) (t : Fin cfg0.N) (h3 : t.val % 4 = 3) (r : Fin 256) (q : Fin 2048) :
    celBlock m c t (ix2 r q)
      = full m c t h3 (ix3 (1 : Fin 4) r q) * iblk m c 3 t (ix2 r q)
          + full m c t h3 (ix3 (0 : Fin 4) r q) * full m c t h3 (ix3 (2 : Fin 4) r q) := by
  have hs : stores m c t = lastRun.sl.HS_16 c (grid0.coords t) (ms_0 t) (hs_0 t) (ms_1 t) (hs_1 t) (ms_2 t) (hs_2 t) (ms_4 t) (hs_4 t) (ms_5 t) (hs_5 t) (iblk m c 0 t) (iblk m c 1 t) (iblk m c 2 t) (iblk m c 4 t) (iblk m c 5 t) := by
    unfold stores; rw [dif_pos h3]; rfl
  have hall := all_slices m c t h3 (full m c t h3) (tracks_full m c t h3)
  rw [hs] at hall
  unfold celBlock
  rw [dif_pos h3]
  unfold lastRun
  dsimp only
  unfold lastRun.sl.v261 lastRun.sl.v263 lastRun.sl.v265
  refine (View.read_writes_cons_unit_of_mem outV7 outV7.junk inb_S256x2048_S256x2048_0_0 _ [] (ix2 r q) (ix2 r q) rfl (fun a => by
    match a with
    | ⟨0, _⟩ => show r.val = 0 + r.val; omega
    | ⟨1, _⟩ => show q.val = 0 + q.val; omega)).trans ?_
  refine (GateValue.pay1_at _ _ _ _ r q).trans ?_
  simp only [View.readAt_apply]
  rw [hall, slice_idx 0 (by omega), slice_idx 1 (by omega), slice_idx 2 (by omega), (hs_3 t).read_unread, whole_idx]
  rfl

end Cert.KernelIdeal.Body

end
-- ==== Proof.IGateAlgebra.lean ====
/-
  The arithmetic of one gate step of the cell kernel on its blocks, at the ideal values.

  A gate step holds a block of 256 rows of `x` and of `h`, the gate's 2048 rows of `W` and the gate's `A` and `B`. For each
  of the sixteen chunks `k` it forms, for row `r` and lane `j`,
      ( Σ_q x[r, q] · W[k·128 + j, q] + Σ_l h[r, k·128 + l] · (A[j, l] − B[j, l]) ) + Σ_l s[r, l] · B[j, l],
  `s` the sixteen chunks of row `r` of `h` added left to right onto zero, applies `tanh` (gate 2) or the logistic function,
  and stores the chunk. Here: that value as a function of the blocks (`blockPre`, `gateVal`), each operation of the
  step read at an index, and each of the sixteen stored chunks read at an index.
-/
import proofs.«108846_j50087908606418_2_alg».proof.Proof.Gen.KernelIdeal.Skeleton
import proofs.«108846_j50087908606418_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.GateValue

open Cert.KernelIdeal Cert.KernelIdeal.Gen Idealize.ShloMosaic Idealize.ShloMosaic.ValueIdx
open Cert.KronLstm (col chunkOf laneOf)

/-! ## The block-level specification -/

/-- Lane `l` of the sum of the sixteen chunks of row `r` of the `h` block, added left to right onto zero. -/
def blockSum (x2 : Vec Ideal S256x2048 .f32) (r : Fin 256) (l : Fin 128) : EReal :=
  0 + x2 (ix2 r (col 0 l)) + x2 (ix2 r (col 1 l)) + x2 (ix2 r (col 2 l)) + x2 (ix2 r (col 3 l)) + x2 (ix2 r (col 4 l)) + x2 (ix2 r (col 5 l)) + x2 (ix2 r (col 6 l)) + x2 (ix2 r (col 7 l)) + x2 (ix2 r (col 8 l)) + x2 (ix2 r (col 9 l)) + x2 (ix2 r (col 10 l)) + x2 (ix2 r (col 11 l)) + x2 (ix2 r (col 12 l)) + x2 (ix2 r (col 13 l)) + x2 (ix2 r (col 14 l)) + x2 (ix2 r (col 15 l))

/-- The gate's pre-activation at row `r`, chunk `k`, lane `j` of the block. -/
def blockPre (x0 : Vec Ideal S256x2048 .bf16) (x1 : Vec Ideal S2048x2048 .bf16) (x2 : Vec Ideal S256x2048 .f32)
    (x4 x5 : Vec Ideal S1x128x128 .f32) (r : Fin 256) (k : Fin 16) (j : Fin 128) : EReal :=
  ((∑ q : Fin 2048, x0 (ix2 r q) * x1 (ix2 (col k j) q))
      + ∑ l : Fin 128, x2 (ix2 r (col k l)) * (x4 (ix3 0 j l) - x5 (ix3 0 j l)))
    + ∑ l : Fin 128, blockSum x2 r l * x5 (ix3 0 j l)

/-- `tanh` for gate 2, the logistic function for the others. -/
def gateAct (g : ℕ) (v : EReal) : EReal := if g = 2 then Ideal.tanh v else Ideal.logistic v

/-- What a gate step leaves in its slice of the scratch, as a function of the scratch index: the slice coordinate does
    not enter. -/
def gateVal (g : ℕ) (x0 : Vec Ideal S256x2048 .bf16) (x1 : Vec Ideal S2048x2048 .bf16) (x2 : Vec Ideal S256x2048 .f32)
    (x4 x5 : Vec Ideal S1x128x128 .f32) (y : S4x256x2048.Idx) : EReal :=
  gateAct g (blockPre x0 x1 x2 x4 x5 (y 1) (chunkOf (y 2)) (laneOf (y 2)))

/-! ## The operations of the step at an index -/

theorem mm2048_lhs0 (i : S256x2048.Idx) (q : dot_S256x2048_S2048x2048_S256x2048_1_1_0_0_n_n.contr.Idx) : (dot_S256x2048_S2048x2048_S256x2048_1_1_0_0_n_n.lhsIdx i q 0).val = (i 0).val := by
  unfold DotDims.lhsIdx
  rw [dif_neg (show ¬(0 : Fin S256x2048.rank) ∈ dot_S256x2048_S2048x2048_S256x2048_1_1_0_0_n_n.lhsBatch by decide), dif_pos (show (0 : Fin S256x2048.rank) ∈ dot_S256x2048_S2048x2048_S256x2048_1_1_0_0_n_n.lhsNonContracting by decide)]
  rfl
theorem mm2048_lhs1 (i : S256x2048.Idx) (q : dot_S256x2048_S2048x2048_S256x2048_1_1_0_0_n_n.contr.Idx) : (dot_S256x2048_S2048x2048_S256x2048_1_1_0_0_n_n.lhsIdx i q 1).val = (q ⟨0, by decide⟩).val :=
  dot_S256x2048_S2048x2048_S256x2048_1_1_0_0_n_n.lhsIdx_val_of_single rfl i q
theorem mm2048_rhs0 (i : S256x2048.Idx) (q : dot_S256x2048_S2048x2048_S256x2048_1_1_0_0_n_n.contr.Idx) : (dot_S256x2048_S2048x2048_S256x2048_1_1_0_0_n_n.rhsIdx i q 0).val = (i 1).val := by
  unfold DotDims.rhsIdx
  rw [dif_neg (show ¬(0 : Fin S2048x2048.rank) ∈ dot_S256x2048_S2048x2048_S256x2048_1_1_0_0_n_n.rhsBatch by decide), dif_pos (show (0 : Fin S2048x2048.rank) ∈ dot_S256x2048_S2048x2048_S256x2048_1_1_0_0_n_n.rhsNonContracting by decide)]
  rfl
theorem mm2048_rhs1 (i : S256x2048.Idx) (q : dot_S256x2048_S2048x2048_S256x2048_1_1_0_0_n_n.contr.Idx) : (dot_S256x2048_S2048x2048_S256x2048_1_1_0_0_n_n.rhsIdx i q 1).val = (q ⟨0, by decide⟩).val :=
  dot_S256x2048_S2048x2048_S256x2048_1_1_0_0_n_n.rhsIdx_val_of_single rfl i q

/-- The product into a zero accumulator at row `r`, column `c`: both operands are contracted along their second axis. -/
theorem mm2048_at {φ₁ φ₂ : FTy} (lhs : FVec Ideal S256x2048 φ₁) (rhs : FVec Ideal S2048x2048 φ₂) (r : Fin 256) (c : Fin 2048) :
    matmul dot_S256x2048_S2048x2048_S256x2048_1_1_0_0_n_n none lhs rhs (constant (F := Ideal) S256x2048 .f32 0x00000000#32) (ix2 r c)
      = ∑ q : Fin 2048, lhs (ix2 r q) * rhs (ix2 c q) := by
  show FloatOps.matmul dot_S256x2048_S2048x2048_S256x2048_1_1_0_0_n_n none lhs rhs (constant (F := Ideal) S256x2048 .f32 0x00000000#32) (ix2 r c) = _
  rw [Ideal.matmul_constant_zero_apply, ← Equiv.sum_comp (contrEquiv1 dot_S256x2048_S2048x2048_S256x2048_1_1_0_0_n_n 2048 rfl rfl).symm]
  refine Finset.sum_congr rfl fun q _ => ?_
  have hq := contrEquiv1_symm_val dot_S256x2048_S2048x2048_S256x2048_1_1_0_0_n_n 2048 rfl rfl q
  have el : dot_S256x2048_S2048x2048_S256x2048_1_1_0_0_n_n.lhsIdx (ix2 r c) ((contrEquiv1 dot_S256x2048_S2048x2048_S256x2048_1_1_0_0_n_n 2048 rfl rfl).symm q) = ix2 r q := funext fun a => Fin.ext (by
    match a with
    | ⟨0, _⟩ => exact mm2048_lhs0 _ _
    | ⟨1, _⟩ => exact (mm2048_lhs1 _ _).trans hq)
  have er : dot_S256x2048_S2048x2048_S256x2048_1_1_0_0_n_n.rhsIdx (ix2 r c) ((contrEquiv1 dot_S256x2048_S2048x2048_S256x2048_1_1_0_0_n_n 2048 rfl rfl).symm q) = ix2 c q := funext fun a => Fin.ext (by
    match a with
    | ⟨0, _⟩ => exact mm2048_rhs0 _ _
    | ⟨1, _⟩ => exact (mm2048_rhs1 _ _).trans hq)
  rw [el, er]

theorem mm128_lhs0 (i : S256x128.Idx) (q : dot_S256x128_S128x128_S256x128_1_1_0_0_n_n.contr.Idx) : (dot_S256x128_S128x128_S256x128_1_1_0_0_n_n.lhsIdx i q 0).val = (i 0).val := by
  unfold DotDims.lhsIdx
  rw [dif_neg (show ¬(0 : Fin S256x128.rank) ∈ dot_S256x128_S128x128_S256x128_1_1_0_0_n_n.lhsBatch by decide), dif_pos (show (0 : Fin S256x128.rank) ∈ dot_S256x128_S128x128_S256x128_1_1_0_0_n_n.lhsNonContracting by decide)]
  rfl
theorem mm128_lhs1 (i : S256x128.Idx) (q : dot_S256x128_S128x128_S256x128_1_1_0_0_n_n.contr.Idx) : (dot_S256x128_S128x128_S256x128_1_1_0_0_n_n.lhsIdx i q 1).val = (q ⟨0, by decide⟩).val :=
  dot_S256x128_S128x128_S256x128_1_1_0_0_n_n.lhsIdx_val_of_single rfl i q
theorem mm128_rhs0 (i : S256x128.Idx) (q : dot_S256x128_S128x128_S256x128_1_1_0_0_n_n.contr.Idx) : (dot_S256x128_S128x128_S256x128_1_1_0_0_n_n.rhsIdx i q 0).val = (i 1).val := by
  unfold DotDims.rhsIdx
  rw [dif_neg (show ¬(0 : Fin S128x128.rank) ∈ dot_S256x128_S128x128_S256x128_1_1_0_0_n_n.rhsBatch by decide), dif_pos (show (0 : Fin S128x128.rank) ∈ dot_S256x128_S128x128_S256x128_1_1_0_0_n_n.rhsNonContracting by decide)]
  rfl
theorem mm128_rhs1 (i : S256x128.Idx) (q : dot_S256x128_S128x128_S256x128_1_1_0_0_n_n.contr.Idx) : (dot_S256x128_S128x128_S256x128_1_1_0_0_n_n.rhsIdx i q 1).val = (q ⟨0, by decide⟩).val :=
  dot_S256x128_S128x128_S256x128_1_1_0_0_n_n.rhsIdx_val_of_single rfl i q

/-- The product into a zero accumulator at row `r`, column `c`: both operands are contracted along their second axis. -/
theorem mm128_at {φ₁ φ₂ : FTy} (lhs : FVec Ideal S256x128 φ₁) (rhs : FVec Ideal S128x128 φ₂) (r : Fin 256) (c : Fin 128) :
    matmul dot_S256x128_S128x128_S256x128_1_1_0_0_n_n none lhs rhs (constant (F := Ideal) S256x128 .f32 0x00000000#32) (ix2 r c)
      = ∑ q : Fin 128, lhs (ix2 r q) * rhs (ix2 c q) := by
  show FloatOps.matmul dot_S256x128_S128x128_S256x128_1_1_0_0_n_n none lhs rhs (constant (F := Ideal) S256x128 .f32 0x00000000#32) (ix2 r c) = _
  rw [Ideal.matmul_constant_zero_apply, ← Equiv.sum_comp (contrEquiv1 dot_S256x128_S128x128_S256x128_1_1_0_0_n_n 128 rfl rfl).symm]
  refine Finset.sum_congr rfl fun q _ => ?_
  have hq := contrEquiv1_symm_val dot_S256x128_S128x128_S256x128_1_1_0_0_n_n 128 rfl rfl q
  have el : dot_S256x128_S128x128_S256x128_1_1_0_0_n_n.lhsIdx (ix2 r c) ((contrEquiv1 dot_S256x128_S128x128_S256x128_1_1_0_0_n_n 128 rfl rfl).symm q) = ix2 r q := funext fun a => Fin.ext (by
    match a with
    | ⟨0, _⟩ => exact mm128_lhs0 _ _
    | ⟨1, _⟩ => exact (mm128_lhs1 _ _).trans hq)
  have er : dot_S256x128_S128x128_S256x128_1_1_0_0_n_n.rhsIdx (ix2 r c) ((contrEquiv1 dot_S256x128_S128x128_S256x128_1_1_0_0_n_n 128 rfl rfl).symm q) = ix2 c q := funext fun a => Fin.ext (by
    match a with
    | ⟨0, _⟩ => exact mm128_rhs0 _ _
    | ⟨1, _⟩ => exact (mm128_rhs1 _ _).trans hq)
  rw [el, er]

/-- A 128-column slice of a 2048-column block at chunk `k`. -/
theorem slice_at {α : Type} (v : S256x2048.Idx → α) (k : Fin 16) (off : ℕ) (hoff : off = k.val * 128)
    (h : S256x2048.Slices ![0, off] S256x128) (r : Fin 256) (l : Fin 128) :
    extractStridedSlice S256x128 ![0, off] v h (ix2 r l) = v (ix2 r (col k l)) :=
  extractStridedSlice_apply _ v h _ _ (fun a => match a with
    | ⟨0, _⟩ => by show r.val = 0 + r.val; omega
    | ⟨1, _⟩ => by show k.val * 128 + l.val = off + l.val; omega)

/-- The input projection block: `x Wᵀ`. -/
theorem pay3_at (x0 : Vec Ideal S256x2048 .bf16) (x1 : Vec Ideal S2048x2048 .bf16) (r : Fin 256) (c : Fin 2048) :
    k0_pay3 (F := Ideal) x0 x1 (ix2 r c) = ∑ q : Fin 2048, x0 (ix2 r q) * x1 (ix2 c q) := by
  have e : k0_pay3 (F := Ideal) x0 x1
      = matmul (φ₁ := .bf16) (φ₂ := .bf16) dot_S256x2048_S2048x2048_S256x2048_1_1_0_0_n_n none x0 x1
          (constant (F := Ideal) S256x2048 .f32 0x00000000#32) := by
    unfold k0_pay3
    simp only [shapeCast_self]
  rw [e]
  exact mm2048_at (φ₁ := .bf16) (φ₂ := .bf16) x0 x1 r c

/-- The gate's `B`. -/
theorem pay4_at (x5 : Vec Ideal S1x128x128 .f32) (j l : Fin 128) : k0_pay4 (F := Ideal) x5 (ix2 j l) = x5 (ix3 0 j l) :=
  shapeCast_1ab_ab_apply x5 shapeCasts_S1x128x128_S128x128 j l

/-- The gate's `A − B`. -/
theorem pay5_at (x4 x5 : Vec Ideal S1x128x128 .f32) (j l : Fin 128) :
    k0_pay5 (F := Ideal) x4 x5 (ix2 j l) = x4 (ix3 0 j l) - x5 (ix3 0 j l) := by
  have e4 := shapeCast_1ab_ab_apply x4 shapeCasts_S1x128x128_S128x128 j l
  have e5 := shapeCast_1ab_ab_apply x5 shapeCasts_S1x128x128_S128x128 j l
  show shapeCast S128x128 x4 shapeCasts_S1x128x128_S128x128 (ix2 j l)
      - shapeCast S128x128 x5 shapeCasts_S1x128x128_S128x128 (ix2 j l) = _
  rw [e4, e5]

/-- The sum of all sixteen chunks of the `h` block, as the step accumulates it (nine chunks, then seven more). -/
theorem sum16_at (x2 : Vec Ideal S256x2048 .f32) (r : Fin 256) (l : Fin 128) :
    (k0_pay22 (F := Ideal) x2 (ix2 r l) + k0_pay15 (F := Ideal) x2 (ix2 r l) + k0_pay16 (F := Ideal) x2 (ix2 r l)
        + k0_pay17 (F := Ideal) x2 (ix2 r l) + k0_pay18 (F := Ideal) x2 (ix2 r l) + k0_pay19 (F := Ideal) x2 (ix2 r l)
        + k0_pay20 (F := Ideal) x2 (ix2 r l) + k0_pay21 (F := Ideal) x2 (ix2 r l))
      = blockSum x2 r l := by
  have s0 := slice_at x2 0 0 rfl slices_S256x2048_o0_0_S256x128 r l
  have s1 := slice_at x2 1 128 rfl slices_S256x2048_o0_128_S256x128 r l
  have s2 := slice_at x2 2 256 rfl slices_S256x2048_o0_256_S256x128 r l
  have s3 := slice_at x2 3 384 rfl slices_S256x2048_o0_384_S256x128 r l
  have s4 := slice_at x2 4 512 rfl slices_S256x2048_o0_512_S256x128 r l
  have s5 := slice_at x2 5 640 rfl slices_S256x2048_o0_640_S256x128 r l
  have s6 := slice_at x2 6 768 rfl slices_S256x2048_o0_768_S256x128 r l
  have s7 := slice_at x2 7 896 rfl slices_S256x2048_o0_896_S256x128 r l
  have s8 := slice_at x2 8 1024 rfl slices_S256x2048_o0_1024_S256x128 r l
  have s9 := slice_at x2 9 1152 rfl slices_S256x2048_o0_1152_S256x128 r l
  have s10 := slice_at x2 10 1280 rfl slices_S256x2048_o0_1280_S256x128 r l
  have s11 := slice_at x2 11 1408 rfl slices_S256x2048_o0_1408_S256x128 r l
  have s12 := slice_at x2 12 1536 rfl slices_S256x2048_o0_1536_S256x128 r l
  have s13 := slice_at x2 13 1664 rfl slices_S256x2048_o0_1664_S256x128 r l
  have s14 := slice_at x2 14 1792 rfl slices_S256x2048_o0_1792_S256x128 r l
  have s15 := slice_at x2 15 1920 rfl slices_S256x2048_o0_1920_S256x128 r l
  show (Ideal.ofBits .f32 0x00000000#32
        + extractStridedSlice S256x128 ![0, 0] x2 slices_S256x2048_o0_0_S256x128 (ix2 r l)
        + extractStridedSlice S256x128 ![0, 128] x2 slices_S256x2048_o0_128_S256x128 (ix2 r l)
        + extractStridedSlice S256x128 ![0, 256] x2 slices_S256x2048_o0_256_S256x128 (ix2 r l)
        + extractStridedSlice S256x128 ![0, 384] x2 slices_S256x2048_o0_384_S256x128 (ix2 r l)
        + extractStridedSlice S256x128 ![0, 512] x2 slices_S256x2048_o0_512_S256x128 (ix2 r l)
        + extractStridedSlice S256x128 ![0, 640] x2 slices_S256x2048_o0_640_S256x128 (ix2 r l)
        + extractStridedSlice S256x128 ![0, 768] x2 slices_S256x2048_o0_768_S256x128 (ix2 r l)
        + extractStridedSlice S256x128 ![0, 896] x2 slices_S256x2048_o0_896_S256x128 (ix2 r l)
        + extractStridedSlice S256x128 ![0, 1024] x2 slices_S256x2048_o0_1024_S256x128 (ix2 r l))
      + extractStridedSlice S256x128 ![0, 1152] x2 slices_S256x2048_o0_1152_S256x128 (ix2 r l)
      + extractStridedSlice S256x128 ![0, 1280] x2 slices_S256x2048_o0_1280_S256x128 (ix2 r l)
      + extractStridedSlice S256x128 ![0, 1408] x2 slices_S256x2048_o0_1408_S256x128 (ix2 r l)
      + extractStridedSlice S256x128 ![0, 1536] x2 slices_S256x2048_o0_1536_S256x128 (ix2 r l)
      + extractStridedSlice S256x128 ![0, 1664] x2 slices_S256x2048_o0_1664_S256x128 (ix2 r l)
      + extractStridedSlice S256x128 ![0, 1792] x2 slices_S256x2048_o0_1792_S256x128 (ix2 r l)
      + extractStridedSlice S256x128 ![0, 1920] x2 slices_S256x2048_o0_1920_S256x128 (ix2 r l)
      = _
  rw [s0, s1, s2, s3, s4, s5, s6, s7, s8, s9, s10, s11, s12, s13, s14, s15, Ideal.ofBits_zero_f32]
  rfl

/-- The term every chunk shares: the chunk sum times `Bᵀ`. -/
theorem pay23_at (x2 : Vec Ideal S256x2048 .f32) (x5 : Vec Ideal S1x128x128 .f32) (r : Fin 256) (j : Fin 128) :
    k0_pay23 (F := Ideal) (k0_pay4 x5) (k0_pay15 x2) (k0_pay16 x2) (k0_pay17 x2) (k0_pay18 x2) (k0_pay19 x2) (k0_pay20 x2)
        (k0_pay21 x2) (k0_pay22 x2) (ix2 r j)
      = ∑ l : Fin 128, blockSum x2 r l * x5 (ix3 0 j l) := by
  have e := mm128_at (truncf .bf16 (addf (addf (addf (addf (addf (addf (addf (k0_pay22 (F := Ideal) x2) (k0_pay15 x2))
      (k0_pay16 x2)) (k0_pay17 x2)) (k0_pay18 x2)) (k0_pay19 x2)) (k0_pay20 x2)) (k0_pay21 x2)) bitsLt_bf16_f32)
    (k0_pay4 (F := Ideal) x5) r j
  refine e.trans (Finset.sum_congr rfl fun l _ => ?_)
  rw [pay4_at]
  exact congrArg (· * x5 (ix3 0 j l)) (sum16_at x2 r l)

/-! ## A stored chunk at an index -/

/-- The chunk's pre-activation block: slice of the projection, plus the chunk's own product, plus the shared term. -/
def chunkPre (v4 : FVec Ideal S256x2048 .f32) (v14 : FVec Ideal S128x128 .bf16) (hk v49 : FVec Ideal S256x128 .f32) (off : ℕ)
    (hs : S256x2048.Slices ![0, off] S256x128) : FVec Ideal S256x128 .f32 :=
  addf (addf (extractStridedSlice S256x128 ![0, off] v4 hs)
    (matmul dot_S256x128_S128x128_S256x128_1_1_0_0_n_n none (truncf .bf16 hk bitsLt_bf16_f32) v14
      (constant (F := Ideal) S256x128 .f32 0x00000000#32))) v49

/-- The stored chunk: the activation chosen by the gate number, as a `[1, 256, 128]` block. -/
def chunkPay (c : BitVec 1) (z : FVec Ideal S256x128 .f32) : FVec Ideal S1x256x128 .f32 :=
  shapeCast S1x256x128 (Scalar.select c (tanh z) (logistic z)) shapeCasts_S256x128_S1x256x128

theorem select_gate (g : ℕ) (hg : g < 4) (a b : EReal) :
    Scalar.select (Scalar.cmpi .eq (BitVec.ofNat 32 g) 2#32) a b = if g = 2 then a else b := by
  interval_cases g <;> rfl

theorem chunkPay_at (c : BitVec 1) (z : FVec Ideal S256x128 .f32) (u : Fin 1) (r : Fin 256) (j : Fin 128) :
    chunkPay c z (ix3 u r j) = Scalar.select c (Ideal.tanh (z (ix2 r j))) (Ideal.logistic (z (ix2 r j))) := by
  unfold chunkPay
  rw [shapeCast_ab_1ab_apply]
  unfold Scalar.select
  split <;> rfl

/-- A stored chunk at an index is the activated block pre-activation. -/
theorem chunk_at (g : ℕ) (hg : g < 4) (x0 : Vec Ideal S256x2048 .bf16) (x1 : Vec Ideal S2048x2048 .bf16)
    (x2 : Vec Ideal S256x2048 .f32) (x4 x5 : Vec Ideal S1x128x128 .f32) (k : Fin 16) (off : ℕ) (hoff : off = k.val * 128)
    (hs : S256x2048.Slices ![0, off] S256x128) (u : Fin 1) (r : Fin 256) (j : Fin 128) :
    chunkPay (Scalar.cmpi .eq (BitVec.ofNat 32 g) 2#32)
        (chunkPre (k0_pay3 (F := Ideal) x0 x1) (k0_pay5 (F := Ideal) x4 x5) (extractStridedSlice S256x128 ![0, off] x2 hs)
          (k0_pay23 (F := Ideal) (k0_pay4 x5) (k0_pay15 x2) (k0_pay16 x2) (k0_pay17 x2) (k0_pay18 x2) (k0_pay19 x2)
            (k0_pay20 x2) (k0_pay21 x2) (k0_pay22 x2)) off hs) (ix3 u r j)
      = gateAct g (blockPre x0 x1 x2 x4 x5 r k j) := by
  have ez : chunkPre (k0_pay3 (F := Ideal) x0 x1) (k0_pay5 (F := Ideal) x4 x5) (extractStridedSlice S256x128 ![0, off] x2 hs)
          (k0_pay23 (F := Ideal) (k0_pay4 x5) (k0_pay15 x2) (k0_pay16 x2) (k0_pay17 x2) (k0_pay18 x2) (k0_pay19 x2)
            (k0_pay20 x2) (k0_pay21 x2) (k0_pay22 x2)) off hs (ix2 r j)
        = blockPre x0 x1 x2 x4 x5 r k j := by
    have e1 := slice_at (k0_pay3 (F := Ideal) x0 x1) k off hoff hs r j
    have e2 := mm128_at (truncf .bf16 (extractStridedSlice S256x128 ![0, off] x2 hs) bitsLt_bf16_f32)
      (k0_pay5 (F := Ideal) x4 x5) r j
    have e3 := pay23_at x2 x5 r j
    show (extractStridedSlice S256x128 ![0, off] (k0_pay3 (F := Ideal) x0 x1) hs (ix2 r j)
        + matmul dot_S256x128_S128x128_S256x128_1_1_0_0_n_n none (truncf .bf16 (extractStridedSlice S256x128 ![0, off] x2 hs) bitsLt_bf16_f32)
            (k0_pay5 (F := Ideal) x4 x5) (constant (F := Ideal) S256x128 .f32 0x00000000#32) (ix2 r j))
        + k0_pay23 (F := Ideal) (k0_pay4 x5) (k0_pay15 x2) (k0_pay16 x2) (k0_pay17 x2) (k0_pay18 x2) (k0_pay19 x2)
            (k0_pay20 x2) (k0_pay21 x2) (k0_pay22 x2) (ix2 r j) = _
    rw [e1, e2, e3, pay3_at]
    unfold blockPre
    refine congrArg (· + _) (congrArg (_ + ·) (Finset.sum_congr rfl fun l _ => ?_))
    rw [pay5_at]
    exact congrArg (· * _) (slice_at x2 k off hoff hs r l)
  rw [chunkPay_at, ez, select_gate g hg]
  unfold gateAct
  split <;> rfl

/-! ## A stored chunk against the scratch index under it -/

/-- A `[1, 256, 128]` block stored at slice `g`, row 0, column `k·128` of the scratch whose elements are the activated
    pre-activations of chunk `k` agrees with `gateVal g` at the scratch index under each of its elements. -/
theorem piece_at (g : ℕ) (x0 : Vec Ideal S256x2048 .bf16) (x1 : Vec Ideal S2048x2048 .bf16) (x2 : Vec Ideal S256x2048 .f32)
    (x4 x5 : Vec Ideal S1x128x128 .f32) (k : Fin 16) (off : ℕ) (hoff : off = k.val * 128) (o : Fin 3 → ℕ)
    (ho : o = ![g, 0, off]) (inb : ∀ a, o a + S1x256x128.size a ≤ S4x256x2048.size a) (w : FVec Ideal S1x256x128 .f32)
    (hw : ∀ (u : Fin 1) (r : Fin 256) (j : Fin 128), w (ix3 u r j) = gateAct g (blockPre x0 x1 x2 x4 x5 r k j))
    (z : (Rect.unit (s := S4x256x2048) o S1x256x128.size inb).shape.Idx) :
    w z = gateVal g x0 x1 x2 x4 x5 ((Rect.unit (s := S4x256x2048) o S1x256x128.size inb).emb z) := by
  subst ho
  subst hoff
  obtain ⟨u, r, j, rfl⟩ : ∃ (u : Fin 1) (r : Fin 256) (j : Fin 128), z = ix3 u r j := ⟨z 0, z 1, z 2, eq_ix3 z⟩
  rw [hw]
  unfold gateVal
  have hr := r.isLt; have hk := k.isLt; have hj := j.isLt
  refine congrArg (gateAct g) (congr (congr (congrArg (blockPre x0 x1 x2 x4 x5) ?_) ?_) ?_)
  · exact Fin.ext (by show r.val = 0 + 1 * r.val; omega)
  · exact Fin.ext (by show k.val = (k.val * 128 + 1 * j.val) / 128; omega)
  · exact Fin.ext (by show j.val = (k.val * 128 + 1 * j.val) % 128; omega)

end Cert.KernelIdeal.GateValue

end
-- ==== Proof.IGateValue.lean ====
/-
  The sixteen stores of a gate step of the cell kernel, at the ideal values, against one function of the scratch index.

  A gate step with gate number `g` stores, for each chunk `k`, a `[1, 256, 128]` block at slice `g`, row 0, column `k·128`
  of the scratch. Every element of every stored block is `gateVal g` of the blocks the step holds at the scratch index
  under it: the hypothesis under which a buffer overwritten by the stores reads `gateVal g` wherever a store covers it.
-/
import proofs.«108846_j50087908606418_2_alg».proof.Proof.IRunGate
import proofs.«108846_j50087908606418_2_alg».proof.Proof.IRunLast
import proofs.«108846_j50087908606418_2_alg».proof.Proof.IGateAlgebra
import Idealize.ShloMosaic.Lib.Pipeline.Value
import Idealize.ShloMosaic.Lib.Pipeline.FrameBody

set_option maxRecDepth 16384

noncomputable section

namespace Cert.KernelIdeal.GateValue

open Cert.KernelIdeal Cert.KernelIdeal.Gen Cert.KernelIdeal.Body
open Idealize.ShloMosaic Idealize.ShloMosaic.TcCoe Idealize.ShloMosaic.Tactic Idealize.ShloMosaic.ValueIdx

theorem zeros2 : (![0, 0] : Fin 2 → Nat) = fun _ => 0 := funext fun a => by fin_cases a <;> rfl
theorem zeros3 : (![0, 0, 0] : Fin 3 → Nat) = fun _ => 0 := funext fun a => by fin_cases a <;> rfl

/-- A chunk's block lies inside the scratch. -/
theorem inb_of (g : ℕ) (hg : g < 4) (k : Fin 16) (off : ℕ) (hoff : off = k.val * 128) (o : Fin 3 → ℕ)
    (ho : o = ![g, 0, off]) : ∀ a : Fin 3, o a + S1x256x128.size a ≤ S4x256x2048.size a := by
  subst ho; subst hoff
  intro a
  have hk := k.isLt
  match a with
  | ⟨0, _⟩ => show g + 1 ≤ 4; omega
  | ⟨1, _⟩ => show 0 + 256 ≤ 256; omega
  | ⟨2, _⟩ => show k.val * 128 + 128 ≤ 2048; omega

set_option maxHeartbeats 1600000 in
/-- Every stored block of a gate step is `gateVal` of the gate number at the scratch index under it. -/
theorem gateRun_pieces (c : Dev nD) (i : grid0.Coords) (arg2 : Memref sig .tc .vmem S256x2048 .bf16) (harg2 : arg2.IsWhole) (arg3 : Memref sig .tc .vmem S2048x2048 .bf16) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x128x128 .f32) (harg6 : arg6.IsWhole) (arg7 : Memref sig .tc .vmem S1x128x128 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S4x256x2048 .f32) (harg10 : arg10.IsWhole) (hc : ¬lastGate i)
    (x0 : Vec Ideal S256x2048 .bf16) (x1 : Vec Ideal S2048x2048 .bf16) (x2 : Vec Ideal S256x2048 .f32)
    (x3 : Vec Ideal S256x2048 .f32) (x4 : Vec Ideal S1x128x128 .f32) (x5 : Vec Ideal S1x128x128 .f32) :
    ∀ p ∈ (gateRun (F := Ideal) c i arg2 harg2 arg3 harg3 arg4 harg4 arg5 harg5 arg6 harg6 arg7 harg7 arg8 harg8 arg9 harg9 arg10 harg10 hc x0 x1 x2 x3 x4 x5).1, ∀ z : p.1.shape.Idx,
      p.2 z = gateVal (i 1).val x0 x1 x2 x4 x5 (p.1.emb z) := by
  have hg : (i 1).val < 4 := (i 1).isLt
  unfold gateRun
  dsimp only
  sl_unfold_run_names
  simp only [View.readAt_eq_ld, Memref.IsWhole.read_unread, View.ld_unit_zero (S := S256x2048) zeros2,
    View.ld_unit_zero (S := S2048x2048) zeros2, View.ld_unit_zero (S := S1x128x128) zeros3]
  intro p hp
  rcases List.mem_cons.1 hp with rfl | hp
  · intro z
    exact piece_at (i 1).val x0 x1 x2 x4 x5 15 1920 rfl _ (k0_off16_eq i)
      (inb_of (i 1).val hg 15 1920 rfl _ (k0_off16_eq i)) _
      (fun u r j => chunk_at (i 1).val hg x0 x1 x2 x4 x5 15 1920 rfl slices_S256x2048_o0_1920_S256x128 u r j) z
  rcases List.mem_cons.1 hp with rfl | hp
  · intro z
    exact piece_at (i 1).val x0 x1 x2 x4 x5 14 1792 rfl _ (k0_off15_eq i)
      (inb_of (i 1).val hg 14 1792 rfl _ (k0_off15_eq i)) _
      (fun u r j => chunk_at (i 1).val hg x0 x1 x2 x4 x5 14 1792 rfl slices_S256x2048_o0_1792_S256x128 u r j) z
  rcases List.mem_cons.1 hp with rfl | hp
  · intro z
    exact piece_at (i 1).val x0 x1 x2 x4 x5 13 1664 rfl _ (k0_off14_eq i)
      (inb_of (i 1).val hg 13 1664 rfl _ (k0_off14_eq i)) _
      (fun u r j => chunk_at (i 1).val hg x0 x1 x2 x4 x5 13 1664 rfl slices_S256x2048_o0_1664_S256x128 u r j) z
  rcases List.mem_cons.1 hp with rfl | hp
  · intro z
    exact piece_at (i 1).val x0 x1 x2 x4 x5 12 1536 rfl _ (k0_off13_eq i)
      (inb_of (i 1).val hg 12 1536 rfl _ (k0_off13_eq i)) _
      (fun u r j => chunk_at (i 1).val hg x0 x1 x2 x4 x5 12 1536 rfl slices_S256x2048_o0_1536_S256x128 u r j) z
  rcases List.mem_cons.1 hp with rfl | hp
  · intro z
    exact piece_at (i 1).val x0 x1 x2 x4 x5 11 1408 rfl _ (k0_off12_eq i)
      (inb_of (i 1).val hg 11 1408 rfl _ (k0_off12_eq i)) _
      (fun u r j => chunk_at (i 1).val hg x0 x1 x2 x4 x5 11 1408 rfl slices_S256x2048_o0_1408_S256x128 u r j) z
  rcases List.mem_cons.1 hp with rfl | hp
  · intro z
    exact piece_at (i 1).val x0 x1 x2 x4 x5 10 1280 rfl _ (k0_off11_eq i)
      (inb_of (i 1).val hg 10 1280 rfl _ (k0_off11_eq i)) _
      (fun u r j => chunk_at (i 1).val hg x0 x1 x2 x4 x5 10 1280 rfl slices_S256x2048_o0_1280_S256x128 u r j) z
  rcases List.mem_cons.1 hp with rfl | hp
  · intro z
    exact piece_at (i 1).val x0 x1 x2 x4 x5 9 1152 rfl _ (k0_off10_eq i)
      (inb_of (i 1).val hg 9 1152 rfl _ (k0_off10_eq i)) _
      (fun u r j => chunk_at (i 1).val hg x0 x1 x2 x4 x5 9 1152 rfl slices_S256x2048_o0_1152_S256x128 u r j) z
  rcases List.mem_cons.1 hp with rfl | hp
  · intro z
    exact piece_at (i 1).val x0 x1 x2 x4 x5 8 1024 rfl _ (k0_off9_eq i)
      (inb_of (i 1).val hg 8 1024 rfl _ (k0_off9_eq i)) _
      (fun u r j => chunk_at (i 1).val hg x0 x1 x2 x4 x5 8 1024 rfl slices_S256x2048_o0_1024_S256x128 u r j) z
  rcases List.mem_cons.1 hp with rfl | hp
  · intro z
    exact piece_at (i 1).val x0 x1 x2 x4 x5 7 896 rfl _ (k0_off8_eq i)
      (inb_of (i 1).val hg 7 896 rfl _ (k0_off8_eq i)) _
      (fun u r j => chunk_at (i 1).val hg x0 x1 x2 x4 x5 7 896 rfl slices_S256x2048_o0_896_S256x128 u r j) z
  rcases List.mem_cons.1 hp with rfl | hp
  · intro z
    exact piece_at (i 1).val x0 x1 x2 x4 x5 6 768 rfl _ (k0_off7_eq i)
      (inb_of (i 1).val hg 6 768 rfl _ (k0_off7_eq i)) _
      (fun u r j => chunk_at (i 1).val hg x0 x1 x2 x4 x5 6 768 rfl slices_S256x2048_o0_768_S256x128 u r j) z
  rcases List.mem_cons.1 hp with rfl | hp
  · intro z
    exact piece_at (i 1).val x0 x1 x2 x4 x5 5 640 rfl _ (k0_off6_eq i)
      (inb_of (i 1).val hg 5 640 rfl _ (k0_off6_eq i)) _
      (fun u r j => chunk_at (i 1).val hg x0 x1 x2 x4 x5 5 640 rfl slices_S256x2048_o0_640_S256x128 u r j) z
  rcases List.mem_cons.1 hp with rfl | hp
  · intro z
    exact piece_at (i 1).val x0 x1 x2 x4 x5 4 512 rfl _ (k0_off5_eq i)
      (inb_of (i 1).val hg 4 512 rfl _ (k0_off5_eq i)) _
      (fun u r j => chunk_at (i 1).val hg x0 x1 x2 x4 x5 4 512 rfl slices_S256x2048_o0_512_S256x128 u r j) z
  rcases List.mem_cons.1 hp with rfl | hp
  · intro z
    exact piece_at (i 1).val x0 x1 x2 x4 x5 3 384 rfl _ (k0_off4_eq i)
      (inb_of (i 1).val hg 3 384 rfl _ (k0_off4_eq i)) _
      (fun u r j => chunk_at (i 1).val hg x0 x1 x2 x4 x5 3 384 rfl slices_S256x2048_o0_384_S256x128 u r j) z
  rcases List.mem_cons.1 hp with rfl | hp
  · intro z
    exact piece_at (i 1).val x0 x1 x2 x4 x5 2 256 rfl _ (k0_off3_eq i)
      (inb_of (i 1).val hg 2 256 rfl _ (k0_off3_eq i)) _
      (fun u r j => chunk_at (i 1).val hg x0 x1 x2 x4 x5 2 256 rfl slices_S256x2048_o0_256_S256x128 u r j) z
  rcases List.mem_cons.1 hp with rfl | hp
  · intro z
    exact piece_at (i 1).val x0 x1 x2 x4 x5 1 128 rfl _ (k0_off2_eq i)
      (inb_of (i 1).val hg 1 128 rfl _ (k0_off2_eq i)) _
      (fun u r j => chunk_at (i 1).val hg x0 x1 x2 x4 x5 1 128 rfl slices_S256x2048_o0_128_S256x128 u r j) z
  rcases List.mem_cons.1 hp with rfl | hp
  · intro z
    exact piece_at (i 1).val x0 x1 x2 x4 x5 0 0 rfl _ (k0_off1_eq i)
      (inb_of (i 1).val hg 0 0 rfl _ (k0_off1_eq i)) _
      (fun u r j => chunk_at (i 1).val hg x0 x1 x2 x4 x5 0 0 rfl slices_S256x2048_o0_0_S256x128 u r j) z
  exact absurd hp List.not_mem_nil

set_option maxHeartbeats 1600000 in
/-- The same for the sixteen stores of the last gate step of a batch tile, which precede its read-back of the scratch. -/
theorem lastRun_pieces (c : Dev nD) (i : grid0.Coords) (arg2 : Memref sig .tc .vmem S256x2048 .bf16) (harg2 : arg2.IsWhole) (arg3 : Memref sig .tc .vmem S2048x2048 .bf16) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x128x128 .f32) (harg6 : arg6.IsWhole) (arg7 : Memref sig .tc .vmem S1x128x128 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S4x256x2048 .f32) (harg10 : arg10.IsWhole) (hc : lastGate i)
    (x0 : Vec Ideal S256x2048 .bf16) (x1 : Vec Ideal S2048x2048 .bf16) (x2 : Vec Ideal S256x2048 .f32)
    (x3 : Vec Ideal S256x2048 .f32) (x4 : Vec Ideal S1x128x128 .f32) (x5 : Vec Ideal S1x128x128 .f32) :
    ∀ p ∈ (lastRun (F := Ideal) c i arg2 harg2 arg3 harg3 arg4 harg4 arg5 harg5 arg6 harg6 arg7 harg7 arg8 harg8 arg9 harg9 arg10 harg10 hc x0 x1 x2 x3 x4 x5).1, ∀ z : p.1.shape.Idx,
      p.2 z = gateVal (i 1).val x0 x1 x2 x4 x5 (p.1.emb z) := by
  have hg : (i 1).val < 4 := (i 1).isLt
  unfold lastRun
  dsimp only
  sl_unfold_run_names
  simp only [View.readAt_eq_ld, Memref.IsWhole.read_unread, View.ld_unit_zero (S := S256x2048) zeros2,
    View.ld_unit_zero (S := S2048x2048) zeros2, View.ld_unit_zero (S := S1x128x128) zeros3]
  intro p hp
  rcases List.mem_cons.1 hp with rfl | hp
  · intro z
    exact piece_at (i 1).val x0 x1 x2 x4 x5 15 1920 rfl _ (k0_off16_eq i)
      (inb_of (i 1).val hg 15 1920 rfl _ (k0_off16_eq i)) _
      (fun u r j => chunk_at (i 1).val hg x0 x1 x2 x4 x5 15 1920 rfl slices_S256x2048_o0_1920_S256x128 u r j) z
  rcases List.mem_cons.1 hp with rfl | hp
  · intro z
    exact piece_at (i 1).val x0 x1 x2 x4 x5 14 1792 rfl _ (k0_off15_eq i)
      (inb_of (i 1).val hg 14 1792 rfl _ (k0_off15_eq i)) _
      (fun u r j => chunk_at (i 1).val hg x0 x1 x2 x4 x5 14 1792 rfl slices_S256x2048_o0_1792_S256x128 u r j) z
  rcases List.mem_cons.1 hp with rfl | hp
  · intro z
    exact piece_at (i 1).val x0 x1 x2 x4 x5 13 1664 rfl _ (k0_off14_eq i)
      (inb_of (i 1).val hg 13 1664 rfl _ (k0_off14_eq i)) _
      (fun u r j => chunk_at (i 1).val hg x0 x1 x2 x4 x5 13 1664 rfl slices_S256x2048_o0_1664_S256x128 u r j) z
  rcases List.mem_cons.1 hp with rfl | hp
  · intro z
    exact piece_at (i 1).val x0 x1 x2 x4 x5 12 1536 rfl _ (k0_off13_eq i)
      (inb_of (i 1).val hg 12 1536 rfl _ (k0_off13_eq i)) _
      (fun u r j => chunk_at (i 1).val hg x0 x1 x2 x4 x5 12 1536 rfl slices_S256x2048_o0_1536_S256x128 u r j) z
  rcases List.mem_cons.1 hp with rfl | hp
  · intro z
    exact piece_at (i 1).val x0 x1 x2 x4 x5 11 1408 rfl _ (k0_off12_eq i)
      (inb_of (i 1).val hg 11 1408 rfl _ (k0_off12_eq i)) _
      (fun u r j => chunk_at (i 1).val hg x0 x1 x2 x4 x5 11 1408 rfl slices_S256x2048_o0_1408_S256x128 u r j) z
  rcases List.mem_cons.1 hp with rfl | hp
  · intro z
    exact piece_at (i 1).val x0 x1 x2 x4 x5 10 1280 rfl _ (k0_off11_eq i)
      (inb_of (i 1).val hg 10 1280 rfl _ (k0_off11_eq i)) _
      (fun u r j => chunk_at (i 1).val hg x0 x1 x2 x4 x5 10 1280 rfl slices_S256x2048_o0_1280_S256x128 u r j) z
  rcases List.mem_cons.1 hp with rfl | hp
  · intro z
    exact piece_at (i 1).val x0 x1 x2 x4 x5 9 1152 rfl _ (k0_off10_eq i)
      (inb_of (i 1).val hg 9 1152 rfl _ (k0_off10_eq i)) _
      (fun u r j => chunk_at (i 1).val hg x0 x1 x2 x4 x5 9 1152 rfl slices_S256x2048_o0_1152_S256x128 u r j) z
  rcases List.mem_cons.1 hp with rfl | hp
  · intro z
    exact piece_at (i 1).val x0 x1 x2 x4 x5 8 1024 rfl _ (k0_off9_eq i)
      (inb_of (i 1).val hg 8 1024 rfl _ (k0_off9_eq i)) _
      (fun u r j => chunk_at (i 1).val hg x0 x1 x2 x4 x5 8 1024 rfl slices_S256x2048_o0_1024_S256x128 u r j) z
  rcases List.mem_cons.1 hp with rfl | hp
  · intro z
    exact piece_at (i 1).val x0 x1 x2 x4 x5 7 896 rfl _ (k0_off8_eq i)
      (inb_of (i 1).val hg 7 896 rfl _ (k0_off8_eq i)) _
      (fun u r j => chunk_at (i 1).val hg x0 x1 x2 x4 x5 7 896 rfl slices_S256x2048_o0_896_S256x128 u r j) z
  rcases List.mem_cons.1 hp with rfl | hp
  · intro z
    exact piece_at (i 1).val x0 x1 x2 x4 x5 6 768 rfl _ (k0_off7_eq i)
      (inb_of (i 1).val hg 6 768 rfl _ (k0_off7_eq i)) _
      (fun u r j => chunk_at (i 1).val hg x0 x1 x2 x4 x5 6 768 rfl slices_S256x2048_o0_768_S256x128 u r j) z
  rcases List.mem_cons.1 hp with rfl | hp
  · intro z
    exact piece_at (i 1).val x0 x1 x2 x4 x5 5 640 rfl _ (k0_off6_eq i)
      (inb_of (i 1).val hg 5 640 rfl _ (k0_off6_eq i)) _
      (fun u r j => chunk_at (i 1).val hg x0 x1 x2 x4 x5 5 640 rfl slices_S256x2048_o0_640_S256x128 u r j) z
  rcases List.mem_cons.1 hp with rfl | hp
  · intro z
    exact piece_at (i 1).val x0 x1 x2 x4 x5 4 512 rfl _ (k0_off5_eq i)
      (inb_of (i 1).val hg 4 512 rfl _ (k0_off5_eq i)) _
      (fun u r j => chunk_at (i 1).val hg x0 x1 x2 x4 x5 4 512 rfl slices_S256x2048_o0_512_S256x128 u r j) z
  rcases List.mem_cons.1 hp with rfl | hp
  · intro z
    exact piece_at (i 1).val x0 x1 x2 x4 x5 3 384 rfl _ (k0_off4_eq i)
      (inb_of (i 1).val hg 3 384 rfl _ (k0_off4_eq i)) _
      (fun u r j => chunk_at (i 1).val hg x0 x1 x2 x4 x5 3 384 rfl slices_S256x2048_o0_384_S256x128 u r j) z
  rcases List.mem_cons.1 hp with rfl | hp
  · intro z
    exact piece_at (i 1).val x0 x1 x2 x4 x5 2 256 rfl _ (k0_off3_eq i)
      (inb_of (i 1).val hg 2 256 rfl _ (k0_off3_eq i)) _
      (fun u r j => chunk_at (i 1).val hg x0 x1 x2 x4 x5 2 256 rfl slices_S256x2048_o0_256_S256x128 u r j) z
  rcases List.mem_cons.1 hp with rfl | hp
  · intro z
    exact piece_at (i 1).val x0 x1 x2 x4 x5 1 128 rfl _ (k0_off2_eq i)
      (inb_of (i 1).val hg 1 128 rfl _ (k0_off2_eq i)) _
      (fun u r j => chunk_at (i 1).val hg x0 x1 x2 x4 x5 1 128 rfl slices_S256x2048_o0_128_S256x128 u r j) z
  rcases List.mem_cons.1 hp with rfl | hp
  · intro z
    exact piece_at (i 1).val x0 x1 x2 x4 x5 0 0 rfl _ (k0_off1_eq i)
      (inb_of (i 1).val hg 0 0 rfl _ (k0_off1_eq i)) _
      (fun u r j => chunk_at (i 1).val hg x0 x1 x2 x4 x5 0 0 rfl slices_S256x2048_o0_0_S256x128 u r j) z
  exact absurd hp List.not_mem_nil

end Cert.KernelIdeal.GateValue

end
-- ==== Proof.ITile.lean ====
/-
  A batch tile's gate slices and result blocks at the extended reals, as the specification's functions of the six
  argument arrays.

  What point `t` stores into slice `t % 4` of the scratch is gate `t % 4` of the specification at rows
  `256 (t / 4) …`: the stored blocks are the block-level pre-activation passed through the gate's activation, and
  the blocks are the arrays' rows. The four slices a last gate reads back are therefore the four gates of the tile's
  rows, and its two result blocks the specification's hidden and cell state there.
-/
import proofs.«108846_j50087908606418_2_alg».proof.Proof.IResults
import proofs.«108846_j50087908606418_2_alg».proof.Proof.IGateValue

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KronLstm

variable (m : (ℓ : Loc nD τ sig) → Buf (Elt Idealize.ShloMosaic.Ideal) ℓ) (ρ : Dev nD → PrngReg)

/-- The block-level pre-activation of point `t`'s blocks is the specification's at the tile's rows and the point's gate. -/
theorem blockPre_eq (c : Dev nD) (t : Fin cfg0.N) (r : Fin 256) (k : Fin 16) (j : Fin 128) :
    GateValue.blockPre (iblk m c 0 t) (iblk m c 1 t) (iblk m c 2 t) (iblk m c 4 t) (iblk m c 5 t) r k j
      = pre (m ((c : Thread nD τ).loc main_arg0)) (m ((c : Thread nD τ).loc main_arg3)) (m ((c : Thread nD τ).loc main_arg1)) (m ((c : Thread nD τ).loc main_arg4)) (m ((c : Thread nD τ).loc main_arg5)) (rowOf t r) (gateOf t) k j := by
  have e : wRowOf t (col k j) = wrow (gateOf t) k j :=
    Fin.ext (by show 2048 * (t.val % 4) + (k.val * 128 + j.val) = t.val % 4 * 2048 + k.val * 128 + j.val; omega)
  unfold GateValue.blockPre pre lin ownTerm sharedTerm GateValue.blockSum chunkSum
  simp only [x_blk, w_blk, h_blk, a_blk, b_blk, e]

/-- What point `t` leaves in its slice of the scratch is its gate of the specification. -/
theorem slab_gate (c : Dev nD) (t : Fin cfg0.N) (r : Fin 256) (q : Fin 2048) :
    slab m c t (ix3 (gateOf t) r q)
      = gate (m ((c : Thread nD τ).loc main_arg0)) (m ((c : Thread nD τ).loc main_arg3)) (m ((c : Thread nD τ).loc main_arg1)) (m ((c : Thread nD τ).loc main_arg4)) (m ((c : Thread nD τ).loc main_arg5)) (rowOf t r) (gateOf t) (chunkOf q) (laneOf q) := by
  have hG : ∀ p ∈ stores m c t, ∀ z : p.1.shape.Idx,
      p.2 z = GateValue.gateVal (t.val % 4) (iblk m c 0 t) (iblk m c 1 t) (iblk m c 2 t) (iblk m c 4 t) (iblk m c 5 t) (p.1.emb z) := by
    intro p hp z
    unfold stores at hp
    split at hp
    · rename_i h
      have := GateValue.lastRun_pieces c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) gates gates_whole ((lastGate_iff t).mpr h) (iblk m c 0 t) (iblk m c 1 t) (iblk m c 2 t) (iblk m c 3 t) (iblk m c 4 t) (iblk m c 5 t) p hp z
      rwa [gate_coord t] at this
    · rename_i h
      have := GateValue.gateRun_pieces c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) gates gates_whole (fun hl => h ((lastGate_iff t).mp hl)) (iblk m c 0 t) (iblk m c 1 t) (iblk m c 2 t) (iblk m c 3 t) (iblk m c 4 t) (iblk m c 5 t) p hp z
      rwa [gate_coord t] at this
  unfold slab
  rw [View.read_writes_apply_of_pieces gatesV gatesV.junk (GateValue.gateVal (t.val % 4) (iblk m c 0 t) (iblk m c 1 t) (iblk m c 2 t) (iblk m c 4 t) (iblk m c 5 t)) (stores m c t) hG
    (ix3 (gateOf t) r q) (stores_fill m c t _ rfl)]
  show GateValue.gateAct (t.val % 4) (GateValue.blockPre (iblk m c 0 t) (iblk m c 1 t) (iblk m c 2 t) (iblk m c 4 t) (iblk m c 5 t) r (chunkOf q) (laneOf q)) = _
  rw [blockPre_eq]
  rfl

/-- The four slices a last gate reads back are the four gates of the tile's rows. -/
theorem full_gate (c : Dev nD) (t : Fin cfg0.N) (h3 : t.val % 4 = 3) (g : Fin 4) (r : Fin 256) (q : Fin 2048) :
    full m c t h3 (ix3 g r q)
      = gate (m ((c : Thread nD τ).loc main_arg0)) (m ((c : Thread nD τ).loc main_arg3)) (m ((c : Thread nD τ).loc main_arg1)) (m ((c : Thread nD τ).loc main_arg4)) (m ((c : Thread nD τ).loc main_arg5)) (rowOf t r) g (chunkOf q) (laneOf q) := by
  have hg : g.val < 4 := g.isLt
  have ht : t.val < 16 := lt_of_lt_of_eq t.isLt N16
  have hk : t.val - 3 + g.val < 16 := by omega
  have e1 : gateOf (pt (t.val - 3 + g.val) hk) = g := Fin.ext (by show (t.val - 3 + g.val) % 4 = g.val; omega)
  have e2 : rowOf (pt (t.val - 3 + g.val) hk) r = rowOf t r :=
    Fin.ext (by show 256 * ((t.val - 3 + g.val) / 4) + r.val = 256 * (t.val / 4) + r.val; omega)
  have key := slab_gate m c (pt (t.val - 3 + g.val) hk) r q
  rw [e1, e2] at key
  exact key

/-- Entry (r, q) of a tile's hidden block is the specification's hidden state at row `256 (t / 4) + r`, column `q`. -/
theorem hid_tile (c : Dev nD) (t : Fin cfg0.N) (h3 : t.val % 4 = 3) (r : Fin 256) (q : Fin 2048) :
    hidBlock m c t (ix2 r q)
      = hiddenAt (m ((c : Thread nD τ).loc main_arg0)) (m ((c : Thread nD τ).loc main_arg3)) (m ((c : Thread nD τ).loc main_arg1)) (m ((c : Thread nD τ).loc main_arg2)) (m ((c : Thread nD τ).loc main_arg4)) (m ((c : Thread nD τ).loc main_arg5)) (rowOf t r) (chunkOf q) (laneOf q) := by
  rw [hid_at m c t h3 r q, full_gate m c t h3 3, full_gate m c t h3 1, full_gate m c t h3 0, full_gate m c t h3 2, c_blk]
  unfold hiddenAt cellAt
  rw [col_chunkOf_laneOf]

/-- Entry (r, q) of a tile's cell block is the specification's cell state there. -/
theorem cel_tile (c : Dev nD) (t : Fin cfg0.N) (h3 : t.val % 4 = 3) (r : Fin 256) (q : Fin 2048) :
    celBlock m c t (ix2 r q)
      = cellAt (m ((c : Thread nD τ).loc main_arg0)) (m ((c : Thread nD τ).loc main_arg3)) (m ((c : Thread nD τ).loc main_arg1)) (m ((c : Thread nD τ).loc main_arg2)) (m ((c : Thread nD τ).loc main_arg4)) (m ((c : Thread nD τ).loc main_arg5)) (rowOf t r) (chunkOf q) (laneOf q) := by
  rw [cel_at m c t h3 r q, full_gate m c t h3 1, full_gate m c t h3 0, full_gate m c t h3 2, c_blk]
  unfold cellAt
  rw [col_chunkOf_laneOf]

end Cert.KernelIdeal.Body

end
-- ==== Proof.IFinal.lean ====
/-
  The two result arrays after the run, at the extended reals: the specification's new hidden and new cell state.
-/
import proofs.«108846_j50087908606418_2_alg».proof.Proof.ITile

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KronLstm

variable (m : (ℓ : Loc nD τ sig) → Buf (Elt Idealize.ShloMosaic.Ideal) ℓ) (ρ : Dev nD → PrngReg)

/-- The specification's new hidden state of core `c`'s argument arrays. -/
def hidSpec (c : Dev nD) : S1024x2048.Idx → EReal :=
  newHidden (m ((c : Thread nD τ).loc main_arg0)) (m ((c : Thread nD τ).loc main_arg3)) (m ((c : Thread nD τ).loc main_arg1))
    (m ((c : Thread nD τ).loc main_arg2)) (m ((c : Thread nD τ).loc main_arg4)) (m ((c : Thread nD τ).loc main_arg5))

/-- The specification's new cell state. -/
def celSpec (c : Dev nD) : S1024x2048.Idx → EReal :=
  newCell (m ((c : Thread nD τ).loc main_arg0)) (m ((c : Thread nD τ).loc main_arg3)) (m ((c : Thread nD τ).loc main_arg1))
    (m ((c : Thread nD τ).loc main_arg2)) (m ((c : Thread nD τ).loc main_arg4)) (m ((c : Thread nD τ).loc main_arg5))

/-- Where entry (r, q) of tile `t / 4`'s hidden block sits in the hidden array. -/
theorem emb6 (t : Fin cfg0.N) (r : Fin 256) (q : Fin 2048) : ((cfg0.win 6).blk t).view.emb (ix2 r q) = ix2 (rowOf t r) q := by
  obtain ⟨-, -, -, -, -, -, -, -, -, -, -, -, -, -, e0, e1, -⟩ := blk_idx t
  funext a; apply Fin.ext
  match a with
  | ⟨0, _⟩ => show win0_6.index t (0 : Fin 2) * 256 + 1 * r.val = 256 * (t.val / 4) + r.val; omega
  | ⟨1, _⟩ => show win0_6.index t (1 : Fin 2) * 2048 + 1 * q.val = q.val; omega

theorem emb7 (t : Fin cfg0.N) (r : Fin 256) (q : Fin 2048) : ((cfg0.win 7).blk t).view.emb (ix2 r q) = ix2 (rowOf t r) q := by
  obtain ⟨-, -, -, -, -, -, -, -, -, -, -, -, -, -, -, -, e0, e1⟩ := blk_idx t
  funext a; apply Fin.ext
  match a with
  | ⟨0, _⟩ => show win0_7.index t (0 : Fin 2) * 256 + 1 * r.val = 256 * (t.val / 4) + r.val; omega
  | ⟨1, _⟩ => show win0_7.index t (1 : Fin 2) * 2048 + 1 * q.val = q.val; omega

/-- What a last gate writes back into the hidden array is its block of the specification. -/
theorem flushed6_eq (c : Dev nD) (t : Fin cfg0.N) (hf : (cfg0.win 6).flush t = true) :
    (dats m 0 c).flushed 6 t = ((cfg0.win 6).blk t).view.read (Elt Idealize.ShloMosaic.Ideal) (hidSpec m c) := by
  have h3 : t.val % 4 = 3 := (flush0_6 t).mp hf
  show (cfg0.win 6).cut (grid0.coords t) ((dats m 0 c).after 6 t) = _
  rw [after_6]
  funext j
  obtain ⟨r, q, rfl⟩ : ∃ (r : Fin 256) (q : Fin 2048), j = ix2 r q := ⟨j 0, j 1, eq_ix2 j⟩
  show hidBlock m c t (ix2 r q) = hidSpec m c (((cfg0.win 6).blk t).view.emb (ix2 r q))
  rw [emb6, hid_tile m c t h3 r q]
  rfl

theorem flushed7_eq (c : Dev nD) (t : Fin cfg0.N) (hf : (cfg0.win 7).flush t = true) :
    (dats m 0 c).flushed 7 t = ((cfg0.win 7).blk t).view.read (Elt Idealize.ShloMosaic.Ideal) (celSpec m c) := by
  have h3 : t.val % 4 = 3 := (flush0_7 t).mp hf
  show (cfg0.win 7).cut (grid0.coords t) ((dats m 0 c).after 7 t) = _
  rw [after_7]
  funext j
  obtain ⟨r, q, rfl⟩ : ∃ (r : Fin 256) (q : Fin 2048), j = ix2 r q := ⟨j 0, j 1, eq_ix2 j⟩
  show celBlock m c t (ix2 r q) = celSpec m c (((cfg0.win 7).blk t).view.emb (ix2 r q))
  rw [emb7, cel_tile m c t h3 r q]
  rfl

/-- The last gate of the tile a row belongs to. -/
def lastOf (i : S1024x2048.Idx) : Fin cfg0.N :=
  pt (4 * ((i 0).val / 256) + 3) (by have : (i 0).val < 1024 := (i 0).isLt; omega)

/-- Every entry of the hidden array is in the block some last gate writes back. -/
theorem cover6 (i : S1024x2048.Idx) : ∃ t : Fin cfg0.N, (cfg0.win 6).flush t = true ∧ i ∈ ((cfg0.win 6).blk t).view.set := by
  have hi0 : (i 0).val < 1024 := (i 0).isLt
  have hi1 : (i 1).val < 2048 := (i 1).isLt
  refine ⟨lastOf i, (flush0_6 _).mpr (by show (4 * ((i 0).val / 256) + 3) % 4 = 3; omega), ?_⟩
  obtain ⟨-, -, -, -, -, -, -, -, -, -, -, -, -, -, e0, e1, -⟩ := blk_idx (lastOf i)
  have ev : (lastOf i).val = 4 * ((i 0).val / 256) + 3 := rfl
  show i ∈ ((View.whole main_v2_0).slice (win0_6.rect (lastOf i))).set
  rw [View.set_slice_whole, Rect.mem_set_unit]
  intro a
  match a with
  | ⟨0, _⟩ => show win0_6.index (lastOf i) (0 : Fin 2) * 256 ≤ (i 0).val ∧ (i 0).val < win0_6.index (lastOf i) (0 : Fin 2) * 256 + 256; omega
  | ⟨1, _⟩ => show win0_6.index (lastOf i) (1 : Fin 2) * 2048 ≤ (i 1).val ∧ (i 1).val < win0_6.index (lastOf i) (1 : Fin 2) * 2048 + 2048; omega

theorem cover7 (i : S1024x2048.Idx) : ∃ t : Fin cfg0.N, (cfg0.win 7).flush t = true ∧ i ∈ ((cfg0.win 7).blk t).view.set := by
  have hi0 : (i 0).val < 1024 := (i 0).isLt
  have hi1 : (i 1).val < 2048 := (i 1).isLt
  refine ⟨lastOf i, (flush0_7 _).mpr (by show (4 * ((i 0).val / 256) + 3) % 4 = 3; omega), ?_⟩
  obtain ⟨-, -, -, -, -, -, -, -, -, -, -, -, -, -, -, -, e0, e1⟩ := blk_idx (lastOf i)
  have ev : (lastOf i).val = 4 * ((i 0).val / 256) + 3 := rfl
  show i ∈ ((View.whole main_v2_1).slice (win0_7.rect (lastOf i))).set
  rw [View.set_slice_whole, Rect.mem_set_unit]
  intro a
  match a with
  | ⟨0, _⟩ => show win0_7.index (lastOf i) (0 : Fin 2) * 256 ≤ (i 0).val ∧ (i 0).val < win0_7.index (lastOf i) (0 : Fin 2) * 256 + 256; omega
  | ⟨1, _⟩ => show win0_7.index (lastOf i) (1 : Fin 2) * 2048 ≤ (i 1).val ∧ (i 1).val < win0_7.index (lastOf i) (1 : Fin 2) * 2048 + 2048; omega

/-- THE HIDDEN ARRAY after the run. -/
theorem final6 (c : Dev nD) : (dats m 0 c).arrAt 6 cfg0.N = hidSpec m c :=
  (dats m 0 c).arrAt_eq_of_cover 6 (hidSpec m c) (fun t hf => flushed6_eq m c t hf) (cover6)

/-- THE CELL ARRAY after the run. -/
theorem final7 (c : Dev nD) : (dats m 0 c).arrAt 7 cfg0.N = celSpec m c :=
  (dats m 0 c).arrAt_eq_of_cover 7 (celSpec m c) (fun t hf => flushed7_eq m c t hf) (cover7)

/-- The run, read: both result arrays at the specification, the six arguments unchanged. -/
theorem value_run : θ_run defs (onTc (τ := τ) (main (F := Idealize.ShloMosaic.Ideal))) ⟨m, fun _ => 0, ρ⟩ fun r => ∀ c : Dev nD,
      r.2.mem ((c.tc : Thread nD τ).loc main_v2_0) = hidSpec m c
      ∧ r.2.mem ((c.tc : Thread nD τ).loc main_v2_1) = celSpec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h c).1 6).trans (final6 m c), ((h c).1 7).trans (final7 m c),
      ((h c).2 main_arg0 (Pipeline.mem_restRefs_of main_arg0 (by decide) (by decide))).trans (V_main_arg0 m c),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.KernelIdeal.Body

end
-- ==== Proof.RefLaw.lean ====
/-
  The algebra between the two arrangements of the block-Kronecker recurrence, over abstract finite index sets.

  One arrangement multiplies the chunk's own lanes by `A` and the other chunks' lanes (the sum of all chunks less the
  chunk's own) by `B`; the other multiplies the own lanes by `A − B` and the sum of all chunks by `B`:
      Σ_j a_j · h_j + Σ_j b_j · (S_j − h_j)  =  Σ_j h_j · (a_j − b_j) + Σ_j S_j · b_j.
  Over the reals this is distributivity, term by term. On the extended reals distributivity and subtraction need every
  factor to be a real; addition is associative and commutative everywhere, so the input projection added in front may be
  any extended real.
-/
import proofs.«108846_j50087908606418_2_alg».proof.Proof.Spec

noncomputable section

open scoped BigOperators

namespace Cert.KronLstm.Ref

open Idealize.ShloMosaic

/-- An extended real that is a real. -/
def IsReal (v : EReal) : Prop := ∃ r : ℝ, v = (r : EReal)

/-- The coercion of a finite real sum is the sum of the coercions. -/
theorem coe_sum {ι : Type} (s : Finset ι) (f : ι → ℝ) : ((∑ j ∈ s, f j : ℝ) : EReal) = ∑ j ∈ s, (f j : EReal) := by
  classical
  refine Finset.induction_on s (by simp) ?_
  intro a s ha ih
  rw [Finset.sum_insert ha, Finset.sum_insert ha, EReal.coe_add, ih]

theorem IsReal.add {u v : EReal} (hu : IsReal u) (hv : IsReal v) : IsReal (u + v) := by
  obtain ⟨r, rfl⟩ := hu; obtain ⟨s, rfl⟩ := hv; exact ⟨r + s, (EReal.coe_add r s).symm⟩

theorem isReal_zero : IsReal 0 := ⟨0, rfl⟩

/-- A finite sum of reals is a real. -/
theorem IsReal.sum {ι : Type} [Fintype ι] {f : ι → EReal} (hf : ∀ j, IsReal (f j)) : IsReal (∑ j, f j) := by
  choose r hr using hf
  exact ⟨∑ j, r j, by rw [coe_sum]; exact Finset.sum_congr rfl fun j _ => hr j⟩

/-- THE LAW. The factors `a`, `b`, `h`, `S` are reals; `L` is any extended real. -/
theorem rearrange {ι : Type} [Fintype ι] (a b h S : ι → EReal) (ha : ∀ j, IsReal (a j)) (hb : ∀ j, IsReal (b j))
    (hh : ∀ j, IsReal (h j)) (hS : ∀ j, IsReal (S j)) (L : EReal) :
    L + ((∑ j, a j * h j) + ∑ j, b j * (S j - h j)) = (L + ∑ j, h j * (a j - b j)) + ∑ j, S j * b j := by
  choose a' ha' using ha
  choose b' hb' using hb
  choose h' hh' using hh
  choose S' hS' using hS
  have e : (∑ j, a j * h j) + ∑ j, b j * (S j - h j) = (∑ j, h j * (a j - b j)) + ∑ j, S j * b j := by
    simp only [ha', hb', hh', hS', ← EReal.coe_mul, ← EReal.coe_sub, ← coe_sum, ← EReal.coe_add]
    refine congrArg _ ?_
    rw [← Finset.sum_add_distrib, ← Finset.sum_add_distrib]
    exact Finset.sum_congr rfl fun j _ => by ring
  rw [e, add_assoc]

/-- A sum over sixteen indices, written out from zero, left to right. -/
theorem sum_fin16 {M : Type} [AddCommMonoid M] (f : Fin 16 → M) :
    ∑ m, f m = 0 + f 0 + f 1 + f 2 + f 3 + f 4 + f 5 + f 6 + f 7 + f 8 + f 9 + f 10 + f 11 + f 12 + f 13 + f 14 + f 15 := by
  simp only [Fin.sum_univ_castSucc, Fin.sum_univ_zero]
  rfl

/-- The sum of the sixteen chunks is the sum over the chunk index. -/
theorem chunkSum_eq_sum (h : Mat 1024 2048) (b : Fin 1024) (j : Fin 128) :
    chunkSum h b j = ∑ m : Fin 16, h (ValueIdx.ix2 b (col m j)) :=
  (sum_fin16 fun m => h (ValueIdx.ix2 b (col m j))).symm

/-- The pattern of the float `1.0` is the real one. -/
theorem ofBits_one_f32 : Ideal.ofBits .f32 0x3F800000#32 = 1 := by
  simp [Ideal.ofBits, Ideal.ieee, -EReal.coe_mul]
  norm_num

/-- The logistic function spelled `1 / (1 + exp (−v))` with the float constant one. -/
theorem logistic_spelled (v : EReal) :
    Ideal.div (Ideal.ofBits .f32 0x3F800000#32) (Ideal.ofBits .f32 0x3F800000#32 + Ideal.exp (-v)) = Ideal.logistic v := by
  rw [ofBits_one_f32]; rfl

end Cert.KronLstm.Ref

end
-- ==== Proof.RefRead.lean ====
/-
  The reference program read at an index.

  The stacked pre-activations `x Wᵀ + reshape (A·h + B·(S − h))` (a `1024 × 8192` array) are read at row `b`, column
  `g·2048 + k·128 + i`: the input projection plus the two contractions over the lane `j`, with the operands at indices
  built from `b, g, k, i, j`. The four gate slices are that array at `g = 0, 1, 2, 3`. With every entry of `h`, `A`, `B`
  a real, the law of the two arrangements turns the element into the specification's `pre`.
-/
import proofs.«108846_j50087908606418_2_alg».proof.Proof.Gen.ReferenceIdeal.Read
import proofs.«108846_j50087908606418_2_alg».proof.Proof.Spec
import proofs.«108846_j50087908606418_2_alg».proof.Proof.RefLaw

noncomputable section

open scoped BigOperators

namespace Cert.KronLstm.Ref

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The index maps at coordinates -/

/-- Column `g·2048 + k·128 + i` of row `b` of the stacked array is element `(b, g, k, i)` of the rank-4 array. -/
theorem idx12_at (b : Fin 1024) (g : Fin 4) (k : Fin 16) (i : Fin 128) :
    idx_main_v12 (ix2 b (wrow g k i)) = ix4 b g k i := by
  funext a
  have hb := b.isLt; have hg := g.isLt; have hk := k.isLt; have hi := i.isLt
  match a with
  | ⟨0, _⟩ => exact Fin.ext (by show (b.val * 8192 + (g.val * 2048 + k.val * 128 + i.val)) / 8192 = b.val; omega)
  | ⟨1, _⟩ => exact Fin.ext (by show (b.val * 8192 + (g.val * 2048 + k.val * 128 + i.val)) / 2048 % 4 = g.val; omega)
  | ⟨2, _⟩ => exact Fin.ext (by show (b.val * 8192 + (g.val * 2048 + k.val * 128 + i.val)) / 128 % 16 = k.val; omega)
  | ⟨3, _⟩ => exact Fin.ext (by show (b.val * 8192 + (g.val * 2048 + k.val * 128 + i.val)) % 128 = i.val; omega)

/-- Lane `j` of chunk `k` of row `b` is column `k·128 + j`. -/
theorem idx0_at (b : Fin 1024) (k : Fin 16) (j : Fin 128) : idx_main_v0 (ix3 b k j) = ix2 b (col k j) := by
  funext a
  have hb := b.isLt; have hk := k.isLt; have hj := j.isLt
  match a with
  | ⟨0, _⟩ => exact Fin.ext (by show ((b.val * 16 + k.val) * 128 + j.val) / 2048 = b.val; omega)
  | ⟨1, _⟩ => exact Fin.ext (by show ((b.val * 16 + k.val) * 128 + j.val) % 2048 = k.val * 128 + j.val; omega)

theorem lidx3_at (b : Fin 1024) (g : Fin 4) (k : Fin 16) (i j : Fin 128) :
    lidx_main_v3 (idx_main_v4 (ix4 b g k i)) j = ix3 g i j :=
  funext fun a => by match a with | ⟨0, _⟩ => rfl | ⟨1, _⟩ => rfl | ⟨2, _⟩ => rfl

theorem ridx3_at (b : Fin 1024) (g : Fin 4) (k : Fin 16) (i j : Fin 128) :
    ridx_main_v3 (idx_main_v4 (ix4 b g k i)) j = ix3 b k j :=
  funext fun a => by match a with | ⟨0, _⟩ => rfl | ⟨1, _⟩ => rfl | ⟨2, _⟩ => rfl

theorem lidx7_at (b : Fin 1024) (g : Fin 4) (k : Fin 16) (i j : Fin 128) :
    lidx_main_v7 (idx_main_v8 (ix4 b g k i)) j = ix3 g i j :=
  funext fun a => by match a with | ⟨0, _⟩ => rfl | ⟨1, _⟩ => rfl | ⟨2, _⟩ => rfl

theorem ridx7_at (b : Fin 1024) (g : Fin 4) (k : Fin 16) (i j : Fin 128) :
    ridx_main_v7 (idx_main_v8 (ix4 b g k i)) j = ix3 b k j :=
  funext fun a => by match a with | ⟨0, _⟩ => rfl | ⟨1, _⟩ => rfl | ⟨2, _⟩ => rfl

/-- The broadcast sum of the chunks, read at chunk `k`, sums over the chunk index `m` at the same row and lane. -/
theorem idx1_at (b : Fin 1024) (k m : Fin 16) (j : Fin 128) :
    idx_main_v1 (idx_main_v2 (idx_main_v5 (ix3 b k j))) m = ix3 b m j :=
  funext fun a => by match a with | ⟨0, _⟩ => rfl | ⟨1, _⟩ => rfl | ⟨2, _⟩ => rfl

theorem lidx11_at (b : Fin 1024) (n : Fin 8192) (q : Fin 2048) : lidx_main_v11 (ix2 b n) q = ix2 b q :=
  funext fun a => by match a with | ⟨0, _⟩ => rfl | ⟨1, _⟩ => rfl

theorem ridx11_at (b : Fin 1024) (n : Fin 8192) (q : Fin 2048) : idx_main_v10 (ridx_main_v11 (ix2 b n) q) = ix2 n q :=
  funext fun a => by match a with | ⟨0, _⟩ => rfl | ⟨1, _⟩ => rfl

/-! ## The stacked pre-activations at an index -/

variable (x h c : (⟨S1024x2048, .f32⟩ : BufTy).Contents (Elt Ideal)) (W : (⟨S8192x2048, .f32⟩ : BufTy).Contents (Elt Ideal))
  (A B : (⟨S4x128x128, .f32⟩ : BufTy).Contents (Elt Ideal))

/-- The reference's stacked pre-activation at row `b`, gate `g`, chunk `k`, lane `i`, in its own arrangement. -/
theorem v13_at (b : Fin 1024) (g : Fin 4) (k : Fin 16) (i : Fin 128) :
    val_main_v13 (F := Ideal) x h W A B (ix2 b (wrow g k i))
      = lin x W b g k i
        + ((∑ j : Fin 128, A (ix3 g i j) * h (ix2 b (col k j)))
          + ∑ j : Fin 128, B (ix3 g i j)
              * ((Ideal.ofBits .f32 0x00000000#32 + ∑ m : Fin 16, h (ix2 b (col m j))) - h (ix2 b (col k j)))) := by
  rw [val_main_v13_apply, val_main_v11_apply, val_main_v12_apply, idx12_at, val_main_v9_apply, val_main_v4_apply,
    val_main_v3_apply, val_main_v8_apply, val_main_v7_apply]
  simp only [val_main_v10_apply, val_main_v0_apply, val_main_v6_apply, val_main_v5_apply, val_main_v2_apply,
    val_main_v1_apply, val_main_cst_apply, lidx3_at, ridx3_at, lidx7_at, ridx7_at, idx1_at, lidx11_at, ridx11_at, idx0_at,
    Ideal.addf_def, Ideal.subf_def, Ideal.ofBits_def]
  rfl

/-- With real entries in `h`, `A`, `B` it is the specification's pre-activation. -/
theorem v13_eq_pre (hh : ∀ i, IsReal (h i)) (hA : ∀ i, IsReal (A i)) (hB : ∀ i, IsReal (B i))
    (b : Fin 1024) (g : Fin 4) (k : Fin 16) (i : Fin 128) :
    val_main_v13 (F := Ideal) x h W A B (ix2 b (wrow g k i)) = pre x W h A B b g k i := by
  rw [v13_at, Ideal.ofBits_zero_f32]
  simp only [zero_add]
  unfold pre ownTerm sharedTerm
  simp only [chunkSum_eq_sum]
  exact rearrange (fun j => A (ix3 g i j)) (fun j => B (ix3 g i j)) (fun j => h (ix2 b (col k j)))
    (fun j => ∑ m : Fin 16, h (ix2 b (col m j))) (fun j => hA _) (fun j => hB _) (fun j => hh _)
    (fun j => IsReal.sum fun m => hh _) (lin x W b g k i)

/-! ## The four gate slices -/

theorem idx14_at (b : Fin 1024) (q : Fin 2048) : idx_main_v14 (ix2 b q) = ix2 b (wrow 0 (chunkOf q) (laneOf q)) := by
  funext a
  match a with
  | ⟨0, _⟩ => rfl
  | ⟨1, _⟩ => exact Fin.ext (by show q.val = 0 * 2048 + q.val / 128 * 128 + q.val % 128; omega)

theorem idx15_at (b : Fin 1024) (q : Fin 2048) : idx_main_v15 (ix2 b q) = ix2 b (wrow 1 (chunkOf q) (laneOf q)) := by
  funext a
  match a with
  | ⟨0, _⟩ => rfl
  | ⟨1, _⟩ => exact Fin.ext (by show 2048 + q.val = 1 * 2048 + q.val / 128 * 128 + q.val % 128; omega)

theorem idx16_at (b : Fin 1024) (q : Fin 2048) : idx_main_v16 (ix2 b q) = ix2 b (wrow 2 (chunkOf q) (laneOf q)) := by
  funext a
  match a with
  | ⟨0, _⟩ => rfl
  | ⟨1, _⟩ => exact Fin.ext (by show 4096 + q.val = 2 * 2048 + q.val / 128 * 128 + q.val % 128; omega)

theorem idx17_at (b : Fin 1024) (q : Fin 2048) : idx_main_v17 (ix2 b q) = ix2 b (wrow 3 (chunkOf q) (laneOf q)) := by
  funext a
  match a with
  | ⟨0, _⟩ => rfl
  | ⟨1, _⟩ => exact Fin.ext (by show 6144 + q.val = 3 * 2048 + q.val / 128 * 128 + q.val % 128; omega)

section Gates
variable (hh : ∀ i, IsReal (h i)) (hA : ∀ i, IsReal (A i)) (hB : ∀ i, IsReal (B i)) (b : Fin 1024) (q : Fin 2048)
include hh hA hB

/-- Gate 0 (input): columns `0 … 2047` of the stacked array. -/
theorem v14_eq_pre : val_main_v14 (F := Ideal) x h W A B (ix2 b q) = pre x W h A B b 0 (chunkOf q) (laneOf q) := by
  rw [val_main_v14_apply, idx14_at]
  exact v13_eq_pre x h W A B hh hA hB b 0 (chunkOf q) (laneOf q)

/-- Gate 1 (forget): columns `2048 … 4095`. -/
theorem v15_eq_pre : val_main_v15 (F := Ideal) x h W A B (ix2 b q) = pre x W h A B b 1 (chunkOf q) (laneOf q) := by
  rw [val_main_v15_apply, idx15_at]
  exact v13_eq_pre x h W A B hh hA hB b 1 (chunkOf q) (laneOf q)

/-- Gate 2 (cell): columns `4096 … 6143`. -/
theorem v16_eq_pre : val_main_v16 (F := Ideal) x h W A B (ix2 b q) = pre x W h A B b 2 (chunkOf q) (laneOf q) := by
  rw [val_main_v16_apply, idx16_at]
  exact v13_eq_pre x h W A B hh hA hB b 2 (chunkOf q) (laneOf q)

/-- Gate 3 (output): columns `6144 … 8191`. -/
theorem v17_eq_pre : val_main_v17 (F := Ideal) x h W A B (ix2 b q) = pre x W h A B b 3 (chunkOf q) (laneOf q) := by
  rw [val_main_v17_apply, idx17_at]
  exact v13_eq_pre x h W A B hh hA hB b 3 (chunkOf q) (laneOf q)

end Gates

end Cert.KronLstm.Ref

end
-- ==== Proof.RefFinite.lean ====
/-
  From the precondition to "every entry is a real".

  The precondition is, for each of the six argument arrays, the conjunction over all entries of `|v| < +∞`, and the
  conjunction of the six. On the extended reals `|v| = max v (−v)` is `+∞` at both infinities, so an entry that
  passes the test is a real.
-/
import proofs.«108846_j50087908606418_2_alg».proof.Pre_finite_inputs
import proofs.«108846_j50087908606418_2_alg».proof.Proof.RefLaw
import Idealize.ShloMosaic.Lib.ReduceAll
import Idealize.ShloMosaic.Lib.Pipeline.Value
import Idealize.ShloMosaic.Lib.ValueIdx

noncomputable section

namespace Cert.KronLstm.Ref

open Idealize.ShloMosaic Idealize.ShloMosaic.ValueIdx

/-- The pattern of the float `+∞` is the top element. -/
theorem ofBits_inf_f32 : Ideal.ofBits .f32 0x7F800000#32 = ⊤ := by
  simp [Ideal.ofBits, Ideal.ieee]

/-- An extended real whose absolute value is below `+∞` is a real. -/
theorem isReal_of_abs_lt_top (a : EReal) (h : max a (-a) < ⊤) : IsReal a := by
  induction a using EReal.rec
  · simp at h
  · exact ⟨_, rfl⟩
  · simp at h

instance : Subsingleton (⟨0, ![]⟩ : Shape).Idx := ⟨fun a b => funext fun d => d.elim0⟩

/-- One array's test: if the and-reduction of `|v| < +∞` over all entries is true, every entry is a real. -/
theorem isReal_of_all {s : Shape} {axes : List (Fin s.rank)}
    (hb : (⟨0, ![]⟩ : Shape).BroadcastsInDim s (![] : Fin 0 → Fin s.rank))
    (hr : s.ReducesTo axes ⟨0, ![]⟩) (hu : 0 < (⟨0, ![]⟩ : Shape).numel)
    (v : FVec Ideal s .f32) (init : IVec ⟨0, ![]⟩ 1)
    (e : Host.reduce IntOp.andi
          (cmpf .olt (Host.absf v) (broadcastInDim s ![] hb (constant (F := Ideal) ⟨0, ![]⟩ .f32 0x7F800000#32)))
          init hr hu ix0 = 1#1) (i : s.Idx) : IsReal (v i) := by
  have h1 := Host.reduce_andi_all _ init hr hu ix0 e i
  rw [cmpf_apply, broadcastInDim_apply _ hb _ i ix0 (fun a => a.elim0)] at h1
  have h2 : Ideal.cmp .olt (max (v i) (-(v i))) (Ideal.ofBits .f32 0x7F800000#32) = 1#1 := h1
  rw [ofBits_inf_f32] at h2
  refine isReal_of_abs_lt_top _ ?_
  by_contra hn
  simp [Ideal.cmp, hn] at h2

variable [Cert.Pre_finite_inputs.Facts]

/-- The precondition makes every entry of each of the six arrays a real. -/
theorem isReal_of_pre (x h c : FVec Ideal Cert.Pre_finite_inputs.S1024x2048 .f32)
    (W : FVec Ideal Cert.Pre_finite_inputs.S8192x2048 .f32) (A B : FVec Ideal Cert.Pre_finite_inputs.S4x128x128 .f32)
    (hpre : Cert.Pre_finite_inputs.fn (F := Ideal) x h c W A B = fun _ => 1#1) :
    (∀ i, IsReal (x i)) ∧ (∀ i, IsReal (h i)) ∧ (∀ i, IsReal (c i)) ∧ (∀ i, IsReal (W i)) ∧ (∀ i, IsReal (A i))
      ∧ (∀ i, IsReal (B i)) := by
  have h0 := congrFun hpre ix0
  dsimp only [Cert.Pre_finite_inputs.fn, Cert.Pre_finite_inputs.fn_part1] at h0
  obtain ⟨h1, hB⟩ := IntOp.andi_eq_one.1 h0
  obtain ⟨h2, hA⟩ := IntOp.andi_eq_one.1 h1
  obtain ⟨h3, hW⟩ := IntOp.andi_eq_one.1 h2
  obtain ⟨h4, hc⟩ := IntOp.andi_eq_one.1 h3
  obtain ⟨hx, hh⟩ := IntOp.andi_eq_one.1 h4
  exact ⟨isReal_of_all _ _ _ x _ hx, isReal_of_all _ _ _ h _ hh, isReal_of_all _ _ _ c _ hc,
    isReal_of_all _ _ _ W _ hW, isReal_of_all _ _ _ A _ hA, isReal_of_all _ _ _ B _ hB⟩

end Cert.KronLstm.Ref

end
-- ==== Proof.RefSide.lean ====
/-
  The reference program's two results are the specification's new hidden state and new cell state.

  Each result element is read back through the elementwise tail of the program — the logistic function spelled
  `1 / (1 + exp (−v))`, `tanh`, the products and the sum — to the four gate slices of the stacked pre-activations, which
  under the precondition (every input entry a real) are the specification's `pre` at gates 0, 1, 2, 3.
-/
import proofs.«108846_j50087908606418_2_alg».proof.Proof.Gen.ReferenceIdeal.Read
import proofs.«108846_j50087908606418_2_alg».proof.Proof.Spec
import proofs.«108846_j50087908606418_2_alg».proof.Proof.RefRead
import proofs.«108846_j50087908606418_2_alg».proof.Proof.RefFinite

noncomputable section

open scoped BigOperators

namespace Cert.KronLstm.Ref

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

theorem act_zero (v : EReal) : act 0 v = Ideal.logistic v := if_neg (by decide)
theorem act_one (v : EReal) : act 1 v = Ideal.logistic v := if_neg (by decide)
theorem act_two (v : EReal) : act 2 v = Ideal.tanh v := if_pos (by decide)
theorem act_three (v : EReal) : act 3 v = Ideal.logistic v := if_neg (by decide)

section Results
variable (x h c : (⟨S1024x2048, .f32⟩ : BufTy).Contents (Elt Ideal)) (W : (⟨S8192x2048, .f32⟩ : BufTy).Contents (Elt Ideal))
  (A B : (⟨S4x128x128, .f32⟩ : BufTy).Contents (Elt Ideal))
  (hh : ∀ i, IsReal (h i)) (hA : ∀ i, IsReal (A i)) (hB : ∀ i, IsReal (B i)) (b : Fin 1024) (q : Fin 2048)
include hh hA hB

/-- The new cell state at row `b`, column `q`: forget gate times the old cell state plus input gate times cell gate. -/
theorem v39_at :
    val_main_v39 (F := Ideal) x h c W A B (ix2 b q) = cellAt x W h c A B b (chunkOf q) (laneOf q) := by
  simp only [val_main_v39_apply, val_main_v37_apply, val_main_v38_apply, val_main_v29_apply, val_main_v28_apply,
    val_main_cst_3_apply, val_main_v27_apply, val_main_v26_apply, val_main_cst_2_apply, val_main_v25_apply,
    val_main_v24_apply, val_main_v23_apply, val_main_v22_apply, val_main_cst_1_apply, val_main_v21_apply,
    val_main_v20_apply, val_main_cst_0_apply, val_main_v19_apply, val_main_v18_apply, val_main_v36_apply,
    v14_eq_pre x h W A B hh hA hB, v15_eq_pre x h W A B hh hA hB, v16_eq_pre x h W A B hh hA hB,
    Ideal.addf_def, Ideal.mulf_def, Ideal.hostDivf_def, Ideal.hostUnary_exp_def, Ideal.hostUnary_tanh_def,
    Ideal.hostNegf_def, Ideal.negf_def, Ideal.ofBits_def, logistic_spelled]
  unfold cellAt gate
  rw [act_one, act_zero, act_two, col_chunkOf_laneOf]

/-- The new hidden state there: output gate times `tanh` of the new cell state. -/
theorem v41_at :
    val_main_v41 (F := Ideal) x h c W A B (ix2 b q) = hiddenAt x W h c A B b (chunkOf q) (laneOf q) := by
  simp only [val_main_v41_apply, val_main_v35_apply, val_main_v34_apply, val_main_cst_5_apply, val_main_v33_apply,
    val_main_v32_apply, val_main_cst_4_apply, val_main_v31_apply, val_main_v30_apply, val_main_v40_apply,
    v39_at x h c W A B hh hA hB, v17_eq_pre x h W A B hh hA hB,
    Ideal.addf_def, Ideal.mulf_def, Ideal.hostDivf_def, Ideal.hostUnary_exp_def, Ideal.hostUnary_tanh_def,
    Ideal.hostNegf_def, Ideal.negf_def, Ideal.ofBits_def, logistic_spelled]
  unfold hiddenAt gate
  rw [act_three]

end Results

/-- THE REFERENCE SIDE: under the precondition the reference program's results, as functions of its six arguments,
    are the specification's new hidden state and new cell state. -/
theorem ref_side [Cert.Pre_finite_inputs.Facts]
    (x h c : (⟨S1024x2048, .f32⟩ : BufTy).Contents (Elt Ideal)) (W : (⟨S8192x2048, .f32⟩ : BufTy).Contents (Elt Ideal))
    (A B : (⟨S4x128x128, .f32⟩ : BufTy).Contents (Elt Ideal))
    (hpre : Cert.Pre_finite_inputs.fn (F := Ideal) x h c W A B = fun _ => 1#1) :
    val_main_v41 (F := Ideal) x h c W A B = newHidden x W h c A B
      ∧ val_main_v39 (F := Ideal) x h c W A B = newCell x W h c A B := by
  obtain ⟨_, hh, _, _, hA, hB⟩ := isReal_of_pre x h c W A B hpre
  constructor
  · funext y
    obtain ⟨b, q, rfl⟩ : ∃ (b : Fin 1024) (q : Fin 2048), y = ix2 b q := ⟨y 0, y 1, eq_ix2 y⟩
    exact v41_at x h c W A B hh hA hB b q
  · funext y
    obtain ⟨b, q, rfl⟩ : ∃ (b : Fin 1024) (q : Fin 2048), y = ix2 b q := ⟨y 0, y 1, eq_ix2 y⟩
    exact v39_at x h c W A B hh hA hB b q

end Cert.KronLstm.Ref

end
-- ==== Proof.lean ====
/-
  The block-Kronecker LSTM cell: the kernel against its reference.

  The kernel walks a grid of four batch tiles by four gates. At each point it multiplies the tile's rows of x by the
  gate's rows of W, adds the block-Kronecker recurrent term in the arrangement
      (A[g] − B[g]) · h_k + B[g] · s        (s the sum of the sixteen chunks of the row of h),
  applies the gate's activation and keeps the result in one slice of a scratch of four slices; at the last gate of a
  tile it reads the four slices back and stores  c' = f · c + i · g  and  h' = o · tanh c'.  The reference computes
  A[g] · h_k + B[g] · (s − h_k)  with einsums and slices the four gates out of one stacked array.

  Frames: the scratch is carried from point to point of a tile, so the region's invariant tracks which slices hold
  which gates (Proof/IData.lean, and Proof/BData.lean for the word-level program); the reference's frame is its run
  with the results dropped. Nothing was rewritten between the kernel and its idealization. Values: over the extended
  reals the kernel's two result arrays are the specification (Proof/Spec.lean) by Proof/IFinal.lean — no finiteness
  needed, the specification is written in the kernel's arrangement — and the reference's are the same specification
  where every entry of h, A and B is a real (Proof/RefSide.lean), which the precondition says; there the two
  arrangements of the recurrent term agree term by term.
-/
import proofs.«108846_j50087908606418_2_alg».proof.Defs
import proofs.«108846_j50087908606418_2_alg».proof.Proof.Gen.Kernel
import proofs.«108846_j50087908606418_2_alg».proof.Proof.Gen.KernelIdeal
import proofs.«108846_j50087908606418_2_alg».proof.Proof.Gen.ReferenceIdeal
import proofs.«108846_j50087908606418_2_alg».proof.Proof.Gen.Pre_finite_inputs
import proofs.«108846_j50087908606418_2_alg».proof.Proof.BData
import proofs.«108846_j50087908606418_2_alg».proof.Proof.IFinal
import proofs.«108846_j50087908606418_2_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Body.frame m ρ

theorem frame_ideal : Cert.frame_KernelIdeal := fun m ρ _ => Cert.KernelIdeal.Body.frame m ρ

theorem frame_reference : Cert.frame_ReferenceIdeal := fun m ρ _ =>
  (θ_run Cert.ReferenceIdeal.defs _ _).mono (fun _ h c => (h c).2.2) (Cert.ReferenceIdeal.Value.run (F := Ideal) m ρ)

/-- Both programs end at the specification's new hidden and new cell state of the (agreeing) argument arrays. -/
theorem algebraic : Cert.algebraic_KernelIdeal_ReferenceIdeal := by
  intro m ρ m' ρ' hpre hagree
  refine ⟨fun c => Cert.KernelIdeal.Body.hidSpec m c, fun c => Cert.KernelIdeal.Body.celSpec m c,
    Cert.KernelIdeal.Body.value_run m ρ, ?_⟩
  refine (θ_run Cert.ReferenceIdeal.defs _ _).mono (fun _ h c => ⟨?_, ?_, (h c).2.2⟩)
    (Cert.ReferenceIdeal.Value.run (F := Ideal) m' ρ')
  · have hp := hpre c
    rw [← (hagree c).1, ← (hagree c).2.1, ← (hagree c).2.2.1, ← (hagree c).2.2.2.1, ← (hagree c).2.2.2.2.1, ← (hagree c).2.2.2.2.2] at hp
    rw [(h c).1, Cert.ReferenceIdeal.Read.val_main_v41_eq, (Cert.KronLstm.Ref.ref_side _ _ _ _ _ _ hp).1]
    unfold Cert.KernelIdeal.Body.hidSpec
    rw [(hagree c).1, (hagree c).2.1, (hagree c).2.2.1, (hagree c).2.2.2.1, (hagree c).2.2.2.2.1, (hagree c).2.2.2.2.2]
  · have hp := hpre c
    rw [← (hagree c).1, ← (hagree c).2.1, ← (hagree c).2.2.1, ← (hagree c).2.2.2.1, ← (hagree c).2.2.2.2.1, ← (hagree c).2.2.2.2.2] at hp
    rw [(h c).2.1, Cert.ReferenceIdeal.Read.val_main_v39_eq, (Cert.KronLstm.Ref.ref_side _ _ _ _ _ _ hp).2]
    unfold Cert.KernelIdeal.Body.celSpec
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
